-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768x1 : Shape := ⟨2, ![32768, 1]⟩
abbrev S3x128x128 : Shape := ⟨3, ![3, 128, 128]⟩
abbrev S8x128 : Shape := ⟨2, ![8, 128]⟩
abbrev S_ : Shape := ⟨0, ![]⟩
abbrev S1x128x127 : Shape := ⟨3, ![1, 128, 127]⟩
abbrev S1x127 : Shape := ⟨2, ![1, 127]⟩
abbrev S1x128x118 : Shape := ⟨3, ![1, 128, 118]⟩
abbrev S1x118 : Shape := ⟨2, ![1, 118]⟩
abbrev S1x118x1 : Shape := ⟨3, ![1, 118, 1]⟩
abbrev S1x128x1 : Shape := ⟨3, ![1, 128, 1]⟩
abbrev S1x1 : Shape := ⟨2, ![1, 1]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S8x128 : S_.BroadcastsInDim S8x128 (![] : Fin 0 → Fin S8x128.rank)
  reducesTo_S8x128_S_d0_1 : S8x128.ReducesTo [0, 1] S_
  slices_S3x128x128_S1x128x127_0_0_1 : S3x128x128.Slices ![0, 0, 1] S1x128x127
  bcast_S_S1x128x127 : S_.BroadcastsInDim S1x128x127 (![] : Fin 0 → Fin S1x128x127.rank)
  reducesTo_S1x128x127_S_d0_1_2 : S1x128x127.ReducesTo [0, 1, 2] S_
  slices_S8x128_S1x127_0_1 : S8x128.Slices ![0, 1] S1x127
  bcast_S_S1x127 : S_.BroadcastsInDim S1x127 (![] : Fin 0 → Fin S1x127.rank)
  reducesTo_S1x127_S_d0_1 : S1x127.ReducesTo [0, 1] S_
  slices_S3x128x128_S1x128x118_1_0_10 : S3x128x128.Slices ![1, 0, 10] S1x128x118
  bcast_S_S1x128x118 : S_.BroadcastsInDim S1x128x118 (![] : Fin 0 → Fin S1x128x118.rank)
  reducesTo_S1x128x118_S_d0_1_2 : S1x128x118.ReducesTo [0, 1, 2] S_
  slices_S8x128_S1x118_1_10 : S8x128.Slices ![1, 10] S1x118
  bcast_S_S1x118 : S_.BroadcastsInDim S1x118 (![] : Fin 0 → Fin S1x118.rank)
  reducesTo_S1x118_S_d0_1 : S1x118.ReducesTo [0, 1] S_
  slices_S3x128x128_S1x118x1_2_10_0 : S3x128x128.Slices ![2, 10, 0] S1x118x1
  bcast_S_S1x118x1 : S_.BroadcastsInDim S1x118x1 (![] : Fin 0 → Fin S1x118x1.rank)
  reducesTo_S1x118x1_S_d0_1_2 : S1x118x1.ReducesTo [0, 1, 2] S_
  slices_S3x128x128_S1x128x1_2_0_1 : S3x128x128.Slices ![2, 0, 1] S1x128x1
  slices_S3x128x128_S1x128x1_2_0_0 : S3x128x128.Slices ![2, 0, 0] S1x128x1
  reducesTo_S1x128x1_S_d0_1_2 : S1x128x1.ReducesTo [0, 1, 2] S_
  slices_S8x128_S1x1_2_1 : S8x128.Slices ![2, 1] S1x1
  slices_S8x128_S1x1_2_0 : S8x128.Slices ![2, 0] S1x1
  reducesTo_S1x1_S_d0_1 : S1x1.ReducesTo [0, 1] S_

variable [Facts]

def fn_part3 {F : FTy → Type} [FloatOps F] (main_arg4 : FVec F S8x128 .f32) (main_v48 : IVec S_ 1) (main_v51 : IVec S1x128x1 1) : IVec S_ 1 :=
  let main_c_18 : IVec S_ 1 := constantI S_ 1 1#1
  let main_v52 : IVec S_ 1 := (fun x v => Host.reduce IntOp.andi x v reducesTo_S1x128x1_S_d0_1_2 h_S_) main_v51 main_c_18
  let main_v53 : IVec S_ 1 := andi main_v48 main_v52
  let main_v54 : FVec F S1x1 .f32 := (extractStridedSlice S1x1 ![2, 1] · slices_S8x128_S1x1_2_1) main_arg4
  let main_v55 : FVec F S1x1 .f32 := (extractStridedSlice S1x1 ![2, 0] · slices_S8x128_S1x1_2_0) main_arg4
  let main_v56 : IVec S1x1 1 := cmpf .oeq main_v54 main_v55
  let main_c_19 : IVec S_ 1 := constantI S_ 1 1#1
  let main_v57 : IVec S_ 1 := (fun x v => Host.reduce IntOp.andi x v reducesTo_S1x1_S_d0_1 h_S_) main_v56 main_c_19
  let main_v58 : IVec S_ 1 := andi main_v53 main_v57
  main_v58

def fn_part2 {F : FTy → Type} [FloatOps F] (main_arg3 : FVec F S3x128x128 .f32) (main_arg4 : FVec F S8x128 .f32) (main_v33 : IVec S_ 1) : IVec S_ 1 :=
  let main_v34 : FVec F S1x128x118 .f32 := (extractStridedSlice S1x128x118 ![1, 0, 10] · slices_S3x128x128_S1x128x118_1_0_10) main_arg3
  let main_cst_12 : FVec F S_ .f32 := constant S_ .f32 0x00000000#32
  let main_v35 : FVec F S1x128x118 .f32 := broadcastInDim S1x128x118 ![] bcast_S_S1x128x118 main_cst_12
  let main_v36 : IVec S1x128x118 1 := cmpf .oeq main_v34 main_v35
  let main_c_13 : IVec S_ 1 := constantI S_ 1 1#1
  let main_v37 : IVec S_ 1 := (fun x v => Host.reduce IntOp.andi x v reducesTo_S1x128x118_S_d0_1_2 h_S_) main_v36 main_c_13
  let main_v38 : IVec S_ 1 := andi main_v33 main_v37
  let main_v39 : FVec F S1x118 .f32 := (extractStridedSlice S1x118 ![1, 10] · slices_S8x128_S1x118_1_10) main_arg4
  let main_cst_14 : FVec F S_ .f32 := constant S_ .f32 0x00000000#32
  let main_v40 : FVec F S1x118 .f32 := broadcastInDim S1x118 ![] bcast_S_S1x118 main_cst_14
  let main_v41 : IVec S1x118 1 := cmpf .oeq main_v39 main_v40
  let main_c_15 : IVec S_ 1 := constantI S_ 1 1#1
  let main_v42 : IVec S_ 1 := (fun x v => Host.reduce IntOp.andi x v reducesTo_S1x118_S_d0_1 h_S_) main_v41 main_c_15
  let main_v43 : IVec S_ 1 := andi main_v38 main_v42
  let main_v44 : FVec F S1x118x1 .f32 := (extractStridedSlice S1x118x1 ![2, 10, 0] · slices_S3x128x128_S1x118x1_2_10_0) main_arg3
  let main_cst_16 : FVec F S_ .f32 := constant S_ .f32 0x00000000#32
  let main_v45 : FVec F S1x118x1 .f32 := broadcastInDim S1x118x1 ![] bcast_S_S1x118x1 main_cst_16
  let main_v46 : IVec S1x118x1 1 := cmpf .oeq main_v44 main_v45
  let main_c_17 : IVec S_ 1 := constantI S_ 1 1#1
  let main_v47 : IVec S_ 1 := (fun x v => Host.reduce IntOp.andi x v reducesTo_S1x118x1_S_d0_1_2 h_S_) main_v46 main_c_17
  let main_v48 : IVec S_ 1 := andi main_v43 main_v47
  let main_v49 : FVec F S1x128x1 .f32 := (extractStridedSlice S1x128x1 ![2, 0, 1] · slices_S3x128x128_S1x128x1_2_0_1) main_arg3
  let main_v50 : FVec F S1x128x1 .f32 := (extractStridedSlice S1x128x1 ![2, 0, 0] · slices_S3x128x128_S1x128x1_2_0_0) main_arg3
  let main_v51 : IVec S1x128x1 1 := cmpf .oeq main_v49 main_v50
  fn_part3 (F := F) main_arg4 main_v48 main_v51

def fn_part1 {F : FTy → Type} [FloatOps F] (main_arg3 : FVec F S3x128x128 .f32) (main_arg4 : FVec F S8x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S1x128x127 .f32 := (extractStridedSlice S1x128x127 ![0, 0, 1] · slices_S3x128x128_S1x128x127_0_0_1) main_arg3
  let main_cst_8 : FVec F S_ .f32 := constant S_ .f32 0x00000000#32
  let main_v25 : FVec F S1x128x127 .f32 := broadcastInDim S1x128x127 ![] bcast_S_S1x128x127 main_cst_8
  let main_v26 : IVec S1x128x127 1 := cmpf .oeq main_v24 main_v25
  let main_c_9 : IVec S_ 1 := constantI S_ 1 1#1
  let main_v27 : IVec S_ 1 := (fun x v => Host.reduce IntOp.andi x v reducesTo_S1x128x127_S_d0_1_2 h_S_) main_v26 main_c_9
  let main_v28 : IVec S_ 1 := andi main_v23 main_v27
  let main_v29 : FVec F S1x127 .f32 := (extractStridedSlice S1x127 ![0, 1] · slices_S8x128_S1x127_0_1) main_arg4
  let main_cst_10 : FVec F S_ .f32 := constant S_ .f32 0x00000000#32
  let main_v30 : FVec F S1x127 .f32 := broadcastInDim S1x127 ![] bcast_S_S1x127 main_cst_10
  let main_v31 : IVec S1x127 1 := cmpf .oeq main_v29 main_v30
  let main_c_11 : IVec S_ 1 := constantI S_ 1 1#1
  let main_v32 : IVec S_ 1 := (fun x v => Host.reduce IntOp.andi x v reducesTo_S1x127_S_d0_1 h_S_) main_v31 main_c_11
  let main_v33 : IVec S_ 1 := andi main_v28 main_v32
  fn_part2 (F := F) main_arg3 main_arg4 main_v33

def fn {F : FTy → Type} [FloatOps F] (main_arg0 : FVec F S32768x64 .f32) (main_arg1 : FVec F S32768x1 .f32) (main_arg2 : FVec F S32768x64 .f32) (main_arg3 : FVec F S3x128x128 .f32) (main_arg4 : FVec F S8x128 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg3 main_arg4 main_v13 main_v16
-- ==== Kernel.lean ====
abbrev S32768x64 : Shape := ⟨2, ![32768, 64]⟩
abbrev S32768x1 : Shape := ⟨2, ![32768, 1]⟩
abbrev S3x128x128 : Shape := ⟨3, ![3, 128, 128]⟩
abbrev S8x128 : Shape := ⟨2, ![8, 128]⟩
abbrev S16x128 : Shape := ⟨2, ![16, 128]⟩
abbrev S4096x64 : Shape := ⟨2, ![4096, 64]⟩
abbrev S4096x1 : Shape := ⟨2, ![4096, 1]⟩
abbrev S128x128 : Shape := ⟨2, ![128, 128]⟩
abbrev S1x128x128 : Shape := ⟨3, ![1, 128, 128]⟩
abbrev S64x128 : Shape := ⟨2, ![64, 128]⟩
abbrev S64x16 : Shape := ⟨2, ![64, 16]⟩
abbrev S64x112 : Shape := ⟨2, ![64, 112]⟩
abbrev S64x1 : Shape := ⟨2, ![64, 1]⟩
abbrev S128x1 : Shape := ⟨2, ![128, 1]⟩
abbrev S16x1 : Shape := ⟨2, ![16, 1]⟩
abbrev S112x1 : Shape := ⟨2, ![112, 1]⟩
abbrev S1x128 : Shape := ⟨2, ![1, 128]⟩
abbrev S1x16 : Shape := ⟨2, ![1, 16]⟩
abbrev S1x112 : Shape := ⟨2, ![1, 112]⟩
abbrev S1x1 : Shape := ⟨2, ![1, 1]⟩
abbrev S4x128 : Shape := ⟨2, ![4, 128]⟩
abbrev S4096x128 : Shape := ⟨2, ![4096, 128]⟩
abbrev S128 : Shape := ⟨1, ![128]⟩
abbrev S1 : Shape := ⟨1, ![1]⟩
abbrev S_ : Shape := ⟨0, ![]⟩

abbrev nBuf : Space → Nat
  | .hbm => 26
  | .vmem => 13
  | .smem => 0
  | _ => 0

abbrev bufTy : (tb : Table) → Fin (tcTables nBuf tb) → BufTy
  | .hbm, ⟨0, _⟩ => ⟨S32768x64, .f32⟩
  | .hbm, ⟨1, _⟩ => ⟨S32768x1, .f32⟩
  | .hbm, ⟨2, _⟩ => ⟨S32768x64, .f32⟩
  | .hbm, ⟨3, _⟩ => ⟨S3x128x128, .f32⟩
  | .hbm, ⟨4, _⟩ => ⟨S8x128, .f32⟩
  | .hbm, ⟨5, _⟩ => ⟨S32768x64, .bf16⟩
  | .hbm, ⟨6, _⟩ => ⟨S32768x64, .bf16⟩
  | .hbm, ⟨7, _⟩ => ⟨S16x128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S4096x64, .bf16⟩
  | .local _ .vmem, ⟨1, _⟩ => ⟨S4096x64, .bf16⟩
  | .local _ .vmem, ⟨2, _⟩ => ⟨S4096x64, .bf16⟩
  | .local _ .vmem, ⟨3, _⟩ => ⟨S4096x64, .bf16⟩
  | .local _ .vmem, ⟨4, _⟩ => ⟨S4096x1, .f32⟩
  | .local _ .vmem, ⟨5, _⟩ => ⟨S4096x1, .f32⟩
  | .local _ .vmem, ⟨6, _⟩ => ⟨S3x128x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S128x128, .bf16⟩
  | .local _ .vmem, ⟨11, _⟩ => ⟨S128x128, .bf16⟩
  | .local _ .vmem, ⟨12, _⟩ => ⟨S8x128, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_23 : BitVec 32 := 0#32
  let v54 : BitVec 1 := Scalar.cmpi .eq arg1 c0_i32_23
  let v55 : BitVec 32 := Scalar.extui v54
  let c0_i32_24 : BitVec 32 := 0#32
  let v56 : BitVec 1 := Scalar.cmpi .ne v55 c0_i32_24
  v56

def k0_cond3 (i : grid0.Coords) : BitVec 1 :=
  let arg1 : BitVec 32 := BitVec.ofNat 32 (i 1).val
  let c0_i32_25 : BitVec 32 := 0#32
  let v57 : BitVec 1 := Scalar.cmpi .ne arg1 c0_i32_25
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  iota_S64x128_d1_w32 : S64x128.Iotas .tc 32 [1]
  slices_S128x128_o1_0_S64x128 : S128x128.Slices ![1, 0] S64x128
  slices_S64x128_o0_112_S64x16 : S64x128.Slices ![0, 112] S64x16
  slices_S64x128_o0_0_S64x112 : S64x128.Slices ![0, 0] S64x112
  concatenates_S64x16_S64x112_S64x128_d1 : Shape.Concatenates [S64x16, S64x112] S64x128 1
  slices_S128x128_o0_0_S64x1 : S128x128.Slices ![0, 0] S64x1
  shapeCasts_S64x1_S64x1 : S64x1.ShapeCasts S64x1
  broadcasts_S64x1_S64x128 : S64x1.Broadcasts S64x128
  slices_S128x128_o64_0_S64x1 : S128x128.Slices ![64, 0] S64x1
  concatenates_S64x128_S64x128_S128x128_d0 : Shape.Concatenates [S64x128, S64x128] S128x128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S128x128_S128x128_0_0 : (Rect.unit (s := S128x128) ![0, 0] S128x128.size inb_S128x128_S128x128_0_0).PackedRows (EltTy.packing .bf16)
  iota_S128x128_d1_w32 : S128x128.Iotas .tc 32 [1]
  slices_S128x128_o0_0_S128x1 : S128x128.Slices ![0, 0] S128x1
  slices_S128x1_o112_0_S16x1 : S128x1.Slices ![112, 0] S16x1
  slices_S128x1_o0_0_S112x1 : S128x1.Slices ![0, 0] S112x1
  concatenates_S16x1_S112x1_S128x1_d0 : Shape.Concatenates [S16x1, S112x1] S128x1 0
  shapeCasts_S128x1_S128x1 : S128x1.ShapeCasts S128x1
  broadcasts_S128x1_S128x128 : S128x1.Broadcasts S128x128
  iota_S1x128_d1_w32 : S1x128.Iotas .tc 32 [1]
  slices_S128x128_o0_0_S1x128 : S128x128.Slices ![0, 0] S1x128
  slices_S1x128_o0_112_S1x16 : S1x128.Slices ![0, 112] S1x16
  slices_S1x128_o0_0_S1x112 : S1x128.Slices ![0, 0] S1x112
  concatenates_S1x16_S1x112_S1x128_d1 : Shape.Concatenates [S1x16, S1x112] S1x128 1
  inb_S8x128_S1x128_1_0 : ∀ a, (![1, 0] : Fin 2 → Nat) a + S1x128.size a ≤ S8x128.size a
  h_S1x128 : 0 < S1x128.numel
  inb_S8x128_S1x1_0_0 : ∀ a, (![0, 0] : Fin 2 → Nat) a + S1x1.size a ≤ S8x128.size a
  h_S1x1 : 0 < S1x1.numel
  inb_S8x128_S1x1_2_0 : ∀ a, (![2, 0] : Fin 2 → Nat) a + S1x1.size a ≤ S8x128.size a
  broadcasts_S1x1_S1x128 : S1x1.Broadcasts S1x128
  shapeCasts_S1x1_S1x1 : S1x1.ShapeCasts S1x1
  concatenates_S1x128_S1x128_S1x128_S1x128_S4x128_S8x128_d0 : Shape.Concatenates [S1x128, S1x128, S1x128, S1x128, S4x128] S8x128 0
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S128x128_S64x128_0_0 : ∀ a, (![0, 0] : Fin 2 → Nat) a + S64x128.size a ≤ S128x128.size a
  h_S64x128 : 0 < S64x128.numel
  inb_S128x128_S64x128_64_0 : ∀ a, (![64, 0] : Fin 2 → Nat) a + S64x128.size a ≤ S128x128.size a
  slices_S4096x128_o0_10_S4096x1 : S4096x128.Slices ![0, 10] S4096x1
  broadcasts_S4096x1_S4096x128 : S4096x1.Broadcasts S4096x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  inb_S8x128_S1x128_0_0 : ∀ a, (![0, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  iota_S4096x128_d1_w32 : S4096x128.Iotas .tc 32 [1]
  reduces_S4096x128_S128 : S4096x128.Reduces [0] S128
  shapeCasts_S128_S1x128 : S128.ShapeCasts S1x128
  shapeCasts_S1x128_S1x128 : S1x128.ShapeCasts S1x128
  broadcasts_S1x128_S8x128 : S1x128.Broadcasts S8x128
  slices_S16x128_S1x128_0_0 : S16x128.Slices ![0, 0] S1x128
  shapeCasts_S1x128_S128 : S1x128.ShapeCasts S128
  slices_S16x128_S1x128_8_0 : S16x128.Slices ![8, 0] S1x128
  slices_S128_S1_0 : S128.Slices ![0] S1
  shapeCasts_S1_S_ : S1.ShapeCasts S_
  slices_S128_S1_1 : S128.Slices ![1] S1
  slices_S128_S1_2 : S128.Slices ![2] S1
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S32768x64.size a
  hwx0_0 : ∀ i : grid0.Coords, EltTy.bits .bf16 = 32 ∨ (Rect.block (s := S32768x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .bf16 = 32 ∨ (Rect.block (s := S32768x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S32768x1.size a
  hwx0_2 : ∀ i : grid0.Coords, EltTy.bits .f32 = 32 ∨ (Rect.block (s := S32768x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S32768x64 : Shape := ⟨2, ![32768, 64]⟩
abbrev S32768x1 : Shape := ⟨2, ![32768, 1]⟩
abbrev S3x128x128 : Shape := ⟨3, ![3, 128, 128]⟩
abbrev S8x128 : Shape := ⟨2, ![8, 128]⟩
abbrev S32768x65 : Shape := ⟨2, ![32768, 65]⟩
abbrev S_ : Shape := ⟨0, ![]⟩
abbrev S32768x128 : Shape := ⟨2, ![32768, 128]⟩
abbrev S65536x128 : Shape := ⟨2, ![65536, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩

abbrev nBuf : Space → Nat
  | .hbm => 19
  | .vmem => 4
  | .smem => 0
  | _ => 0

abbrev bufTy : (tb : Table) → Fin (tcTables nBuf tb) → BufTy
  | .hbm, ⟨0, _⟩ => ⟨S32768x64, .f32⟩
  | .hbm, ⟨1, _⟩ => ⟨S32768x1, .f32⟩
  | .hbm, ⟨2, _⟩ => ⟨S32768x64, .f32⟩
  | .hbm, ⟨3, _⟩ => ⟨S3x128x128, .f32⟩
  | .hbm, ⟨4, _⟩ => ⟨S8x128, .f32⟩
  | .hbm, ⟨5, _⟩ => ⟨S32768x65, .f32⟩
  | .hbm, ⟨6, _⟩ => ⟨S_, .i32⟩
  | .hbm, ⟨7, _⟩ => ⟨S_, .f32⟩
  | .hbm, ⟨8, _⟩ => ⟨S32768x128, .f32⟩
  | .hbm, ⟨9, _⟩ => ⟨S32768x128, .f32⟩
  | .hbm, ⟨10, _⟩ => ⟨S_, .i32⟩
  | .hbm, ⟨11, _⟩ => ⟨S_, .f32⟩
  | .hbm, ⟨12, _⟩ => ⟨S32768x128, .f32⟩
  | .hbm, ⟨13, _⟩ => ⟨S65536x128, .f32⟩
  | .hbm, ⟨14, _⟩ => ⟨S1x128, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .local _ .vmem, ⟨0, _⟩ => ⟨S65536x128, .f32⟩
  | .local _ .vmem, ⟨1, _⟩ => ⟨S3x128x128, .f32⟩
  | .local _ .vmem, ⟨2, _⟩ => ⟨S8x128, .f32⟩
  | .local _ .vmem, ⟨3, _⟩ => ⟨S1x128, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S65536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  concatenates_S32768x1_S32768x64_S32768x65_d1 : Shape.Concatenates [S32768x1, S32768x64] S32768x65 1
  pads_S32768x65_S32768x128_000_0630 : S32768x65.Pads (![0, 0] : Fin 2 → Nat) ![0, 63] ![0, 0] S32768x128
  h_S_ : 0 < S_.numel
  concatenates_S32768x64_S32768x64_S32768x128_d1 : Shape.Concatenates [S32768x64, S32768x64] S32768x128 1
  pads_S32768x128_S32768x128_000_000 : S32768x128.Pads (![0, 0] : Fin 2 → Nat) ![0, 0] ![0, 0] S32768x128
  concatenates_S32768x128_S32768x128_S65536x128_d0 : Shape.Concatenates [S32768x128, S32768x128] S65536x128 0
  inb_S65536x128_S32768x128_0_0 : ∀ a, (![0, 0] : Fin 2 → Nat) a + S32768x128.size a ≤ S65536x128.size a
  h_S32768x128 : 0 < S32768x128.numel
  shapeCasts_S32768x128_S32768x128 : S32768x128.ShapeCasts S32768x128
  inb_S65536x128_S32768x128_32768_0 : ∀ a, (![32768, 0] : Fin 2 → Nat) a + S32768x128.size a ≤ S65536x128.size a
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S8x128_S1x128_0_0 : ∀ a, (![0, 0] : Fin 2 → Nat) a + S1x128.size a ≤ S8x128.size a
  h_S1x128 : 0 < S1x128.numel
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  broadcasts_S1x128_S32768x128 : S1x128.Broadcasts S32768x128
  iota_S32768x128_d1_w32 : S32768x128.Iotas .tc 32 [1]
  broadcasts_S1x128_S65536x128 : S1x128.Broadcasts S65536x128
  iota_S65536x128_d1_w32 : S65536x128.Iotas .tc 32 [1]
  iota_S65536x128_d0_w32 : S65536x128.Iotas .tc 32 [0]
  reduces_S65536x128_S128 : S65536x128.Reduces [0] S128
  shapeCasts_S128_S1x128 : S128.ShapeCasts S1x128
  inb_S1x128_S1x128_0_0 : ∀ a, (![0, 0] : Fin 2 → Nat) a + S1x128.size a ≤ S1x128.size a
  slices_S1x128_S1x1_0_0 : S1x128.Slices ![0, 0] S1x1
  shapeCasts_S1x1_S_ : S1x1.ShapeCasts S_
  slices_S1x128_S1x1_0_1 : S1x128.Slices ![0, 1] S1x1
  dot_S32768x128_S128x128_S32768x128_1_0_0_1_n_n_wf : DotDims.WF S32768x128 S128x128 S32768x128 [1] [0] [0] [1] [] []
  dot_S65536x128_S128x128_S65536x128_1_0_0_1_n_n_wf : DotDims.WF S65536x128 S128x128 S65536x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S65536x128.size a ≤ S65536x128.size a
  hwx0_0 : ∀ i : grid0.Coords, EltTy.bits .f32 = 32 ∨ (Rect.block (s := S65536x128) S65536x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

abbrev win0_0 : Pipeline.Window sig grid0 :=
  Pipeline.Window.ofSpec (Memref.whole main_v4) S65536x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.K.Cases.lean ====
/-
  The grid is 2 x 4, row-major: point t has coordinates (t / 4, t % 4). The body branches three times on the
  second coordinate j: the weights are re-laid into the three scratch buffers when j = 0, the partial column sum
  replaces the output block when j = 0 and is added to it when j ≠ 0. This module states the three conditions,
  decides each over the eight points in closed form, and names the staging and scratch buffers the body is run on.
-/
import proofs.«101381_g2000106107921261_pallasbulk_998_17_alg».proof.Proof.Gen.Kernel.Frame
import proofs.«101381_g2000106107921261_pallasbulk_998_17_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions -/

/-- The weights are re-laid into scratch: j = 0. -/
abbrev condPrep (i : grid0.Coords) : Prop :=
  (Scalar.cmpi .ne (Scalar.extui (Scalar.cmpi .eq (BitVec.ofNat 32 (i 1).val) 0#32)) 0#32) = 1#1
/-- It holds at the points 0 and 4. -/
theorem hcondPrep : ∀ t : Fin cfg0.N, condPrep (grid0.coords t) ↔ t.val % 4 = 0 :=
  (by decide +kernel : ∀ t : Fin grid0.N, condPrep (grid0.coords t) ↔ t.val % 4 = 0)

/-- The partial sum replaces the output block: j = 0. -/
abbrev condReset (i : grid0.Coords) : Prop := k0_cond2 i = 1#1
theorem hcondReset : ∀ t : Fin cfg0.N, condReset (grid0.coords t) ↔ t.val % 4 = 0 :=
  (by decide +kernel : ∀ t : Fin grid0.N, condReset (grid0.coords t) ↔ t.val % 4 = 0)

/-- The partial sum is added to the output block: j ≠ 0. -/
abbrev condAcc (i : grid0.Coords) : Prop := k0_cond3 i = 1#1
theorem hcondAcc : ∀ t : Fin cfg0.N, condAcc (grid0.coords t) ↔ ¬ t.val % 4 = 0 :=
  (by decide +kernel : ∀ t : Fin grid0.N, condAcc (grid0.coords t) ↔ ¬ t.val % 4 = 0)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output block is stored at every point (one of the two branches is taken). -/
theorem live5 : ∀ t : Fin cfg0.N, cfg0.idle 5 (grid0.coords t) = false := by decide +kernel

/-! ## The buffers the body runs on -/

abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)

/-- The three scratch buffers: the first-stage weights, the second-stage weights, the row vectors. -/
abbrev sc0 : Memref sig .tc .vmem S128x128 .bf16 := Memref.whole cc0_scratch0
abbrev sc1 : Memref sig .tc .vmem S128x128 .bf16 := Memref.whole cc0_scratch1
abbrev sc2 : Memref sig .tc .vmem S8x128 .f32 := Memref.whole cc0_scratch2

/-- One staging buffer of the output window, through which its contents are stated. -/
abbrev VO : View sig .tc .vmem S8x128 .f32 := (Memref.whole cc0_stg5_0 : Memref sig .tc .vmem S8x128 .f32).view

/-- What the region hands the body beside the windows: the three scratch buffers at some contents and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

end Cert.Kernel.Hand

end
-- ==== Proof.K.RunReset.lean ====
/-
  The body at a point with j = 0. The three scratch buffers and the output block are found at anything: each is
  loaded once (the value is dropped) and then stored whole, the scratch from the weight and bias blocks, the
  output block from the partial column sum. The run records, per buffer, the pieces its stores wrote.
-/
import proofs.«101381_g2000106107921261_pallasbulk_998_17_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when j = 0, on whole buffers: the five inputs at their blocks and handed back as they were;
    the output block and the three scratch buffers at anything, each handed back with its pieces written. -/
noncomputable def runReset (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    Σ' (L5 : List (View.Piece (Elt F) S8x128 .f32)) (LS0 : List (View.Piece (Elt F) S128x128 .bf16)) (LS1 : List (View.Piece (Elt F) S128x128 .bf16)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__loss_kernel_eq_skeleton]; unfold cc0__loss_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.K.RunAcc.lean ====
/-
  The body at a point with j ≠ 0. The three scratch buffers hold what the last point with j = 0 left and are only
  read; the output block holds the running sum of the points before it in its row of the grid, and the body adds
  this point's partial column sum to it. The run records the pieces the one store into the output block wrote.
-/
import proofs.«101381_g2000106107921261_pallasbulk_998_17_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when j ≠ 0, on whole buffers: the five inputs at their blocks and the three scratch buffers
    at their contents, all handed back as they were; the output block at the running sum, handed back with its
    pieces written. -/
noncomputable def runAcc (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : ¬condPrep i) (hc2 : ¬condReset i) (hc3 : condAcc i) (x0 : Vec F S4096x64 .bf16) (x1 : Vec F S4096x64 .bf16) (x2 : Vec F S4096x1 .f32) (x3 : Vec F S3x128x128 .f32) (x4 : Vec F S8x128 .f32)
    (xo : Vec F S8x128 .f32) (xs0 : Vec F S128x128 .bf16) (xs1 : Vec F S128x128 .bf16) (xs2 : Vec F S8x128 .f32) :
    { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, fun E K => ?run⟩
  case run =>
    simp only [cc0__loss_kernel_eq_skeleton]; unfold cc0__loss_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.Kernel.Hand

end
-- ==== Proof.K.Frame.lean ====
/-
  The frame of the kernel's one region. After point t the output block's staging buffer and the three scratch
  buffers hold a state defined by recursion on t: at a point with j = 0 what the body's stores wrote there, computed
  from that point's input blocks alone; at a point with j ≠ 0 the scratch as the point before left it and the output
  block as the point before left it with this point's partial column sum added. The region invariant carries the
  three scratch buffers at that state from one point to the next. From the two runs of the body (one per case) this
  gives the body's obligation at every point, and with it the run of the whole program: it terminates, every array
  ends at what the proof data say, and the host lines after the region are applied to that.
-/
import proofs.«101381_g2000106107921261_pallasbulk_998_17_alg».proof.Proof.K.RunReset
import proofs.«101381_g2000106107921261_pallasbulk_998_17_alg».proof.Proof.K.RunAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores cover -/

theorem coverReset5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S8x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).1 S8x128.size (by sl_kernel_rfl) y
theorem coverResetS0 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S128x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.1 S128x128.size (by sl_kernel_rfl) y
theorem coverResetS1 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S128x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.2.1 S128x128.size (by sl_kernel_rfl) y
theorem coverResetS2 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S8x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.2.2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.2.2.1 S8x128.size (by sl_kernel_rfl) y
theorem coverAcc5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : ¬condPrep i) (hc2 : ¬condReset i) (hc3 : condAcc i) (x0 : Vec F S4096x64 .bf16) (x1 : Vec F S4096x64 .bf16) (x2 : Vec F S4096x1 .f32) (x3 : Vec F S3x128x128 .f32) (x4 : Vec F S8x128 .f32)
    (xo : Vec F S8x128 .f32) (xs0 : Vec F S128x128 .bf16) (xs1 : Vec F S128x128 .bf16) (xs2 : Vec F S8x128 .f32) (y : S8x128.Idx) :
    ∃ pc ∈ (runAcc c i arg2 harg2 arg3 harg3 arg4 harg4 arg5 harg5 arg6 harg6 arg7 harg7 arg8 harg8 arg9 harg9 arg10 harg10 hc0 hc2 hc3 x0 x1 x2 x3 x4 xo xs0 xs1 xs2).1, y ∈ pc.1.set :=
  View.cover_of_tiledL (runAcc c i arg2 harg2 arg3 harg3 arg4 harg4 arg5 harg5 arg6 harg6 arg7 harg7 arg8 harg8 arg9 harg9 arg10 harg10 hc0 hc2 hc3 x0 x1 x2 x3 x4 xo xs0 xs1 xs2).1 S8x128.size (by sl_kernel_rfl) y

/-! ## The state after each point -/

/-- The output block's staging buffer, then the three scratch buffers. -/
abbrev St (F : FTy → Type) : Type := Vec F S8x128 .f32 × Vec F S128x128 .bf16 × Vec F S128x128 .bf16 × Vec F S8x128 .f32

/-- The body's run at a point with j = 0, on that point's buffers and input blocks. -/
noncomputable abbrev resetRun (c : Dev nD) (t : Fin cfg0.N) (h : t.val % 4 = 0) :=
  runReset (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)

/-- The body's run at a point with j ≠ 0, on that point's buffers and input blocks, from the state `p`. -/
noncomputable abbrev accRun (c : Dev nD) (t : Fin cfg0.N) (h : ¬t.val % 4 = 0) (p : St F) :=
  runAcc (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) (fun hh => h ((hcondPrep t).mp hh)) (fun hh => h ((hcondReset t).mp hh)) ((hcondAcc t).mpr h)
    (iblk m c 0 t) (iblk m c 1 t) (iblk m c 2 t) (iblk m c 3 t) (iblk m c 4 t) p.1 p.2.1 p.2.2.1 p.2.2.2

/-- The state a point with j = 0 leaves: each buffer at what its stores wrote. -/
def resetAt (c : Dev nD) (t : Fin cfg0.N) (h : t.val % 4 = 0) : St F :=
  (View.canon (resetRun m c t h).1, View.canon (resetRun m c t h).2.1, View.canon (resetRun m c t h).2.2.1, View.canon (resetRun m c t h).2.2.2.1)

/-- The state a point with j ≠ 0 leaves from `p`: the output block at what its store wrote, the scratch as it was. -/
def accAt (c : Dev nD) (t : Fin cfg0.N) (h : ¬t.val % 4 = 0) (p : St F) : St F :=
  (View.canon (accRun m c t h p).1, p.2.1, p.2.2.1, p.2.2.2)

/-- The state after point `n`, by recursion on the point. -/
def outsAt (c : Dev nD) : (n : ℕ) → n < cfg0.N → St F
  | 0, hn => resetAt m c ⟨0, hn⟩ (Nat.zero_mod _)
  | n + 1, hn =>
    if h : (n + 1) % 4 = 0 then resetAt m c ⟨n + 1, hn⟩ h
    else accAt m c ⟨n + 1, hn⟩ h (outsAt c n (Nat.lt_of_succ_lt hn))

theorem outsAt_reset (c : Dev nD) (t : Fin cfg0.N) (h : t.val % 4 = 0) :
    outsAt m c t.val t.isLt = resetAt m c t h := by
  obtain ⟨n, hn⟩ := t
  cases n with
  | zero => rfl
  | succ n => exact dif_pos h

theorem outsAt_acc (c : Dev nD) (t : Fin cfg0.N) (h : ¬t.val % 4 = 0) :
    outsAt m c t.val t.isLt = accAt m c t h (outsAt m c (t.val - 1) (Nat.lt_of_le_of_lt (Nat.sub_le _ _) t.isLt)) := by
  obtain ⟨n, hn⟩ := t
  cases n with
  | zero => exact absurd (Nat.zero_mod _) h
  | succ n => exact dif_neg h

/-! ## The region invariant -/

/-- Before point `n`: the three scratch buffers at what the point before left (at anything before the first
    point), and the generator register at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).2.1 ∗ owns (c : Thread nD τ) sc1 fullShare (outsAt m c n hn).2.2.1
      ∗ owns (c : Thread nD τ) sc2 fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (outsAt m c n hn).2.1 ∗ owns (c : Thread nD τ) sc1 fullShare (outsAt m c n hn).2.2.1
      ∗ owns (c : Thread nD τ) sc2 fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (outsAt m c (n - 1) (by omega)).2.1 ∗ owns (c : Thread nD τ) sc1 fullShare (outsAt m c (n - 1) (by omega)).2.2.1
      ∗ owns (c : Thread nD τ) sc2 fullShare (outsAt m c (n - 1) (by omega)).2.2.2) ∗ (∃ r, prngReg c r)) := by
  cases n with
  | zero => exact absurd rfl hz
  | succ n => rfl

/-- At any point the invariant yields the scratch buffers at some contents: what the launch hands the region. -/
theorem PhiS_any (c : Dev nD) (n : ℕ) (hn : n ≤ cfg0.N) : PhiS m c n hn ⊢ Pipeline.ΦA spec0 c := by
  cases n with
  | zero => rw [PhiS_zero m c 0 hn rfl]
  | succ n =>
    rw [PhiS_succ, PhiA_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-! ## The proof data -/

/-- The arrays as the region finds them; after the body at point `t` each input's buffer at its block and the
    output's at the state's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The output window is never idle, at any coordinates: one of the two stores is always taken. -/
theorem live5_all : ∀ i : grid0.Coords, cfg0.idle 5 i = false := by decide +kernel

/-- At a point with j ≠ 0 the output block's staging buffer holds what the point before left: the block is
    written back only after the last point of its row. -/
theorem before5_acc (c : Dev nD) (t : Fin cfg0.N) (h : ¬t.val % 4 = 0) (d) :
    (dats m 0 c).before 5 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun hf => by have := (flush0_5 _).mp hf; dsimp only at this; omega)
    live5_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (outsAt m c t.val t.isLt).1 := by
  unfold Dat.leavesExact; rw [live5 t, after5]

set_option maxHeartbeats 4000000 in
/-- The body at any point. Each input's buffer holds its block. When j = 0 the invariant yields the scratch at
    anything and the output block is found at anything; the run for that case applies and every buffer it stored
    into is handed back at what its stores wrote. When j ≠ 0 the invariant yields the scratch at what the point
    before left and the output block holds what the point before left; the run for that case applies, the scratch
    goes back as it was and the output block at what its store wrote. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 8 := lt_of_lt_of_eq t.isLt (show cfg0.N = 8 from N_0)
  by_cases h : t.val % 4 = 0
  · rw [outsAt_reset m c t h]
    unfold resetAt; dsimp only
    rw [PhiS_castSucc m c t]
    refine (sep_mono ((PhiS_any m c _ _).trans (Entails.of_eq (PhiA_eq c))) .rfl).trans ?_
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((resetRun m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_eq_canon _ _ _ (coverResetS0 c _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverResetS1 c _ _ _ _ _ _ _ _ _ _ _ _ _ _ _ _ _ _ _ _ _ _ _ _ _ _ _)
        unfold owns; iexists _; isplitr
        swap; · iexact HS2
        ipureintro; exact View.read_writes_eq_canon _ _ _ (coverResetS2 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverReset5 c _ _ _ _ _ _ _ _ _ _ _ _ _ _ _ _ _ _ _ _ _ _ _ _ _ _ _)
  · have hz : t.val ≠ 0 := fun h0 => h (by rw [h0])
    rw [outsAt_acc m c t h]
    unfold accAt; dsimp only
    simp only [before5_acc m c t h]
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((accRun m c t h _).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, ⟨%e5, H5⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverAcc5 c _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run -/

set_option backward.isDefEq.respectTransparency.types false in
/-- From any memory with zero counters every weakly fair execution of the program terminates, and in every final
    state each array of the region holds what the proof data say and every other buffer what the host lines after
    the region leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program's arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Cases.lean ====
/-
  The grid is 2 x 4, row-major: point t has coordinates (t / 4, t % 4). The body branches three times on the
  second coordinate j: the weights are re-laid into the three scratch buffers when j = 0, the partial column sum
  replaces the output block when j = 0 and is added to it when j ≠ 0. This module states the three conditions,
  decides each over the eight points in closed form, and names the staging and scratch buffers the body is run on.
-/
import proofs.«101381_g2000106107921261_pallasbulk_998_17_alg».proof.Proof.Gen.KernelIdeal.Frame
import proofs.«101381_g2000106107921261_pallasbulk_998_17_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions -/

/-- The weights are re-laid into scratch: j = 0. -/
abbrev condPrep (i : grid0.Coords) : Prop :=
  (Scalar.cmpi .ne (Scalar.extui (Scalar.cmpi .eq (BitVec.ofNat 32 (i 1).val) 0#32)) 0#32) = 1#1
/-- It holds at the points 0 and 4. -/
theorem hcondPrep : ∀ t : Fin cfg0.N, condPrep (grid0.coords t) ↔ t.val % 4 = 0 :=
  (by decide +kernel : ∀ t : Fin grid0.N, condPrep (grid0.coords t) ↔ t.val % 4 = 0)

/-- The partial sum replaces the output block: j = 0. -/
abbrev condReset (i : grid0.Coords) : Prop := k0_cond2 i = 1#1
theorem hcondReset : ∀ t : Fin cfg0.N, condReset (grid0.coords t) ↔ t.val % 4 = 0 :=
  (by decide +kernel : ∀ t : Fin grid0.N, condReset (grid0.coords t) ↔ t.val % 4 = 0)

/-- The partial sum is added to the output block: j ≠ 0. -/
abbrev condAcc (i : grid0.Coords) : Prop := k0_cond3 i = 1#1
theorem hcondAcc : ∀ t : Fin cfg0.N, condAcc (grid0.coords t) ↔ ¬ t.val % 4 = 0 :=
  (by decide +kernel : ∀ t : Fin grid0.N, condAcc (grid0.coords t) ↔ ¬ t.val % 4 = 0)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output block is stored at every point (one of the two branches is taken). -/
theorem live5 : ∀ t : Fin cfg0.N, cfg0.idle 5 (grid0.coords t) = false := by decide +kernel

/-! ## The buffers the body runs on -/

abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)

/-- The three scratch buffers: the first-stage weights, the second-stage weights, the row vectors. -/
abbrev sc0 : Memref sig .tc .vmem S128x128 .bf16 := Memref.whole cc0_scratch0
abbrev sc1 : Memref sig .tc .vmem S128x128 .bf16 := Memref.whole cc0_scratch1
abbrev sc2 : Memref sig .tc .vmem S8x128 .f32 := Memref.whole cc0_scratch2

/-- One staging buffer of the output window, through which its contents are stated. -/
abbrev VO : View sig .tc .vmem S8x128 .f32 := (Memref.whole cc0_stg5_0 : Memref sig .tc .vmem S8x128 .f32).view

/-- What the region hands the body beside the windows: the three scratch buffers at some contents and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Hand

end
-- ==== Proof.KI.RunReset.lean ====
/-
  The body at a point with j = 0. The three scratch buffers and the output block are found at anything: each is
  loaded once (the value is dropped) and then stored whole, the scratch from the weight and bias blocks, the
  output block from the partial column sum. The run records, per buffer, the pieces its stores wrote.
-/
import proofs.«101381_g2000106107921261_pallasbulk_998_17_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when j = 0, on whole buffers: the five inputs at their blocks and handed back as they were;
    the output block and the three scratch buffers at anything, each handed back with its pieces written. -/
noncomputable def runReset (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    Σ' (L5 : List (View.Piece (Elt F) S8x128 .f32)) (LS0 : List (View.Piece (Elt F) S128x128 .bf16)) (LS1 : List (View.Piece (Elt F) S128x128 .bf16)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__loss_kernel_eq_skeleton]; unfold cc0__loss_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.RunAcc.lean ====
/-
  The body at a point with j ≠ 0. The three scratch buffers hold what the last point with j = 0 left and are only
  read; the output block holds the running sum of the points before it in its row of the grid, and the body adds
  this point's partial column sum to it. The run records the pieces the one store into the output block wrote.
-/
import proofs.«101381_g2000106107921261_pallasbulk_998_17_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when j ≠ 0, on whole buffers: the five inputs at their blocks and the three scratch buffers
    at their contents, all handed back as they were; the output block at the running sum, handed back with its
    pieces written. -/
noncomputable def runAcc (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : ¬condPrep i) (hc2 : ¬condReset i) (hc3 : condAcc i) (x0 : Vec F S4096x64 .bf16) (x1 : Vec F S4096x64 .bf16) (x2 : Vec F S4096x1 .f32) (x3 : Vec F S3x128x128 .f32) (x4 : Vec F S8x128 .f32)
    (xo : Vec F S8x128 .f32) (xs0 : Vec F S128x128 .bf16) (xs1 : Vec F S128x128 .bf16) (xs2 : Vec F S8x128 .f32) :
    { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, fun E K => ?run⟩
  case run =>
    simp only [cc0__loss_kernel_eq_skeleton]; unfold cc0__loss_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Hand

end
-- ==== Proof.KI.Frame.lean ====
/-
  The frame of the kernel's one region. After point t the output block's staging buffer and the three scratch
  buffers hold a state defined by recursion on t: at a point with j = 0 what the body's stores wrote there, computed
  from that point's input blocks alone; at a point with j ≠ 0 the scratch as the point before left it and the output
  block as the point before left it with this point's partial column sum added. The region invariant carries the
  three scratch buffers at that state from one point to the next. From the two runs of the body (one per case) this
  gives the body's obligation at every point, and with it the run of the whole program: it terminates, every array
  ends at what the proof data say, and the host lines after the region are applied to that.
-/
import proofs.«101381_g2000106107921261_pallasbulk_998_17_alg».proof.Proof.KI.RunReset
import proofs.«101381_g2000106107921261_pallasbulk_998_17_alg».proof.Proof.KI.RunAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores cover -/

theorem coverReset5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S8x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).1 S8x128.size (by sl_kernel_rfl) y
theorem coverResetS0 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S128x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.1 S128x128.size (by sl_kernel_rfl) y
theorem coverResetS1 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S128x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.2.1 S128x128.size (by sl_kernel_rfl) y
theorem coverResetS2 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) (y : S8x128.Idx) :
    ∃ pc ∈ (runReset c i arg2 harg2 arg3 harg3 arg4 harg4 arg5 harg5 arg6 harg6 arg7 harg7 arg8 harg8 arg9 harg9 arg10 harg10 hc0 hc2 hc3 x0 x1 x2 x3 x4).2.2.2.1, y ∈ pc.1.set :=
  View.cover_of_tiledL (runReset c i arg2 harg2 arg3 harg3 arg4 harg4 arg5 harg5 arg6 harg6 arg7 harg7 arg8 harg8 arg9 harg9 arg10 harg10 hc0 hc2 hc3 x0 x1 x2 x3 x4).2.2.2.1 S8x128.size (by sl_kernel_rfl) y
theorem coverAcc5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : ¬condPrep i) (hc2 : ¬condReset i) (hc3 : condAcc i) (x0 : Vec F S4096x64 .bf16) (x1 : Vec F S4096x64 .bf16) (x2 : Vec F S4096x1 .f32) (x3 : Vec F S3x128x128 .f32) (x4 : Vec F S8x128 .f32)
    (xo : Vec F S8x128 .f32) (xs0 : Vec F S128x128 .bf16) (xs1 : Vec F S128x128 .bf16) (xs2 : Vec F S8x128 .f32) (y : S8x128.Idx) :
    ∃ pc ∈ (runAcc c i arg2 harg2 arg3 harg3 arg4 harg4 arg5 harg5 arg6 harg6 arg7 harg7 arg8 harg8 arg9 harg9 arg10 harg10 hc0 hc2 hc3 x0 x1 x2 x3 x4 xo xs0 xs1 xs2).1, y ∈ pc.1.set :=
  View.cover_of_tiledL (runAcc c i arg2 harg2 arg3 harg3 arg4 harg4 arg5 harg5 arg6 harg6 arg7 harg7 arg8 harg8 arg9 harg9 arg10 harg10 hc0 hc2 hc3 x0 x1 x2 x3 x4 xo xs0 xs1 xs2).1 S8x128.size (by sl_kernel_rfl) y

/-! ## The state after each point -/

/-- The output block's staging buffer, then the three scratch buffers. -/
abbrev St (F : FTy → Type) : Type := Vec F S8x128 .f32 × Vec F S128x128 .bf16 × Vec F S128x128 .bf16 × Vec F S8x128 .f32

/-- The body's run at a point with j = 0, on that point's buffers and input blocks. -/
noncomputable abbrev resetRun (c : Dev nD) (t : Fin cfg0.N) (h : t.val % 4 = 0) :=
  runReset (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)

/-- The body's run at a point with j ≠ 0, on that point's buffers and input blocks, from the state `p`. -/
noncomputable abbrev accRun (c : Dev nD) (t : Fin cfg0.N) (h : ¬t.val % 4 = 0) (p : St F) :=
  runAcc (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) (fun hh => h ((hcondPrep t).mp hh)) (fun hh => h ((hcondReset t).mp hh)) ((hcondAcc t).mpr h)
    (iblk m c 0 t) (iblk m c 1 t) (iblk m c 2 t) (iblk m c 3 t) (iblk m c 4 t) p.1 p.2.1 p.2.2.1 p.2.2.2

/-- The state a point with j = 0 leaves: each buffer at what its stores wrote. -/
def resetAt (c : Dev nD) (t : Fin cfg0.N) (h : t.val % 4 = 0) : St F :=
  (View.canon (resetRun m c t h).1, View.canon (resetRun m c t h).2.1, View.canon (resetRun m c t h).2.2.1, View.canon (resetRun m c t h).2.2.2.1)

/-- The state a point with j ≠ 0 leaves from `p`: the output block at what its store wrote, the scratch as it was. -/
def accAt (c : Dev nD) (t : Fin cfg0.N) (h : ¬t.val % 4 = 0) (p : St F) : St F :=
  (View.canon (accRun m c t h p).1, p.2.1, p.2.2.1, p.2.2.2)

/-- The state after point `n`, by recursion on the point. -/
def outsAt (c : Dev nD) : (n : ℕ) → n < cfg0.N → St F
  | 0, hn => resetAt m c ⟨0, hn⟩ (Nat.zero_mod _)
  | n + 1, hn =>
    if h : (n + 1) % 4 = 0 then resetAt m c ⟨n + 1, hn⟩ h
    else accAt m c ⟨n + 1, hn⟩ h (outsAt c n (Nat.lt_of_succ_lt hn))

theorem outsAt_reset (c : Dev nD) (t : Fin cfg0.N) (h : t.val % 4 = 0) :
    outsAt m c t.val t.isLt = resetAt m c t h := by
  obtain ⟨n, hn⟩ := t
  cases n with
  | zero => rfl
  | succ n => exact dif_pos h

theorem outsAt_acc (c : Dev nD) (t : Fin cfg0.N) (h : ¬t.val % 4 = 0) :
    outsAt m c t.val t.isLt = accAt m c t h (outsAt m c (t.val - 1) (Nat.lt_of_le_of_lt (Nat.sub_le _ _) t.isLt)) := by
  obtain ⟨n, hn⟩ := t
  cases n with
  | zero => exact absurd (Nat.zero_mod _) h
  | succ n => exact dif_neg h

/-! ## The region invariant -/

/-- Before point `n`: the three scratch buffers at what the point before left (at anything before the first
    point), and the generator register at some state. -/
def PhiS (c : Dev nD) : (n : ℕ) → n ≤ cfg0.N → sProp 𝕄
  | 0, _ => Pipeline.ΦA spec0 c
  | n + 1, hn => iprop(iprop(owns (c : Thread nD τ) sc0 fullShare (outsAt m c n hn).2.1 ∗ owns (c : Thread nD τ) sc1 fullShare (outsAt m c n hn).2.2.1
      ∗ owns (c : Thread nD τ) sc2 fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (outsAt m c n hn).2.1 ∗ owns (c : Thread nD τ) sc1 fullShare (outsAt m c n hn).2.2.1
      ∗ owns (c : Thread nD τ) sc2 fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (outsAt m c (n - 1) (by omega)).2.1 ∗ owns (c : Thread nD τ) sc1 fullShare (outsAt m c (n - 1) (by omega)).2.2.1
      ∗ owns (c : Thread nD τ) sc2 fullShare (outsAt m c (n - 1) (by omega)).2.2.2) ∗ (∃ r, prngReg c r)) := by
  cases n with
  | zero => exact absurd rfl hz
  | succ n => rfl

/-- At any point the invariant yields the scratch buffers at some contents: what the launch hands the region. -/
theorem PhiS_any (c : Dev nD) (n : ℕ) (hn : n ≤ cfg0.N) : PhiS m c n hn ⊢ Pipeline.ΦA spec0 c := by
  cases n with
  | zero => rw [PhiS_zero m c 0 hn rfl]
  | succ n =>
    rw [PhiS_succ, PhiA_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-! ## The proof data -/

/-- The arrays as the region finds them; after the body at point `t` each input's buffer at its block and the
    output's at the state's first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The output window is never idle, at any coordinates: one of the two stores is always taken. -/
theorem live5_all : ∀ i : grid0.Coords, cfg0.idle 5 i = false := by decide +kernel

/-- At a point with j ≠ 0 the output block's staging buffer holds what the point before left: the block is
    written back only after the last point of its row. -/
theorem before5_acc (c : Dev nD) (t : Fin cfg0.N) (h : ¬t.val % 4 = 0) (d) :
    (dats m 0 c).before 5 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 5 rfl t (by omega) (Bool.eq_false_iff.mpr fun hf => by have := (flush0_5 _).mp hf; dsimp only at this; omega)
    live5_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (outsAt m c t.val t.isLt).1 := by
  unfold Dat.leavesExact; rw [live5 t, after5]

set_option maxHeartbeats 4000000 in
/-- The body at any point. Each input's buffer holds its block. When j = 0 the invariant yields the scratch at
    anything and the output block is found at anything; the run for that case applies and every buffer it stored
    into is handed back at what its stores wrote. When j ≠ 0 the invariant yields the scratch at what the point
    before left and the output block holds what the point before left; the run for that case applies, the scratch
    goes back as it was and the output block at what its store wrote. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  have hN : t.val < 8 := lt_of_lt_of_eq t.isLt (show cfg0.N = 8 from N_0)
  by_cases h : t.val % 4 = 0
  · rw [outsAt_reset m c t h]
    unfold resetAt; dsimp only
    rw [PhiS_castSucc m c t]
    refine (sep_mono ((PhiS_any m c _ _).trans (Entails.of_eq (PhiA_eq c))) .rfl).trans ?_
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((resetRun m c t h).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_eq_canon _ _ _ (coverResetS0 c _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverResetS1 c _ _ _ _ _ _ _ _ _ _ _ _ _ _ _ _ _ _ _ _ _ _ _ _ _ _ _)
        unfold owns; iexists _; isplitr
        swap; · iexact HS2
        ipureintro; exact View.read_writes_eq_canon _ _ _ (coverResetS2 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverReset5 c _ _ _ _ _ _ _ _ _ _ _ _ _ _ _ _ _ _ _ _ _ _ _ _ _ _ _)
  · have hz : t.val ≠ 0 := fun h0 => h (by rw [h0])
    rw [outsAt_acc m c t h]
    unfold accAt; dsimp only
    simp only [before5_acc m c t h]
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((accRun m c t h _).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, ⟨%e5, H5⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (coverAcc5 c _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run -/

set_option backward.isDefEq.respectTransparency.types false in
/-- From any memory with zero counters every weakly fair execution of the program terminates, and in every final
    state each array of the region holds what the proof data say and every other buffer what the host lines after
    the region leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program's arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Spec.lean ====
/-
  The two programs as mathematics, index by index, over the extended reals.

  Arguments: noise `N` and cond `C` are 32768 × 64, data `d` a column of 32768, the packed layers `W` (three 128 × 128
  matrices: generator, hidden layer, output layer) and the packed biases `b` (rows 0, 1, 2 of an 8 × 128 array).

  The reference stacks the real rows `[data | cond | 0]` over the generated rows `[noise | cond]·Wg + bg + [0 | cond | 0]`,
  applies the hidden layer with a ReLU and the output layer to all 65536 rows, and sums log σ terms down the rows:
  lane 0 collects log σ(o) of the generated rows, lane 1 collects log σ(o) of the real rows and log σ(o) − o of the
  generated rows; the sums are negated and scaled by 2⁻¹⁵.

  The kernel computes per batch row ONE fused first stage — the generator logit in lane 10, the cond part of the real
  hidden units in lanes 0..9 and a copy rotated by 16 lanes for the generated row's hidden units —, a second stage that
  routes the generated row's logit to lanes 0 and 2 and the real row's to lane 1, and sums the per-row terms over 8 tiles
  of 4096 rows.
-/
import Idealize.ShloMosaic.PureOps.Ideal
import Mathlib.Data.EReal.Basic
import Mathlib.Algebra.BigOperators.Fin

noncomputable section

namespace Cert.Spec

open Idealize.ShloMosaic

/-- log σ(o) from a logit: min(o, 0) − log(1 + exp(−|o|)), with |o| = max(o, −o). -/
def logSig (o : EReal) : EReal :=
  min o 0 - Ideal.log (Ideal.ofBits .f32 0x3F800000#32 + Ideal.exp (0 - max o (-o)))

/-- The scale 2⁻¹⁵ = 1/32768 both programs multiply the negated sums by. -/
def cB : EReal := Ideal.ofBits .f32 0x38000000#32

section
variable (N : Fin 32768 → Fin 64 → EReal) (d : Fin 32768 → EReal) (C : Fin 32768 → Fin 64 → EReal)
  (W : Fin 3 → Fin 128 → Fin 128 → EReal) (b : Fin 8 → Fin 128 → EReal)

/-! ## The reference -/

/-- A real row: `[data | cond | 0]`. -/
def xReal (r : Fin 32768) (l : Fin 128) : EReal :=
  if l.val = 0 then d r else if h : l.val < 65 then C r ⟨l.val - 1, by omega⟩ else 0

/-- A generator input row: `[noise | cond]`. -/
def gIn (r : Fin 32768) (l : Fin 128) : EReal :=
  if h : l.val < 64 then N r ⟨l.val, h⟩ else C r ⟨l.val - 64, by omega⟩

/-- The generator's output row: `g_in · Wg + bg`. -/
def genOut (r : Fin 32768) (l : Fin 128) : EReal := (∑ k : Fin 128, gIn N C r k * W 0 k l) + b 0 l

/-- A generated row of the stacked input: the generator's output plus the cond lanes of the real row. -/
def xFake (r : Fin 32768) (l : Fin 128) : EReal :=
  genOut N C W b r l + (if 1 ≤ l.val then xReal d C r l else 0)

/-- The stacked input: 32768 real rows, then 32768 generated rows. -/
def xAll (R : Fin 65536) (l : Fin 128) : EReal :=
  if h : R.val < 32768 then xReal d C ⟨R.val, h⟩ l else xFake N d C W b ⟨R.val - 32768, by omega⟩ l

/-- The hidden layer with its ReLU. -/
def hid (R : Fin 65536) (j : Fin 128) : EReal := max ((∑ l : Fin 128, xAll N d C W b R l * W 1 l j) + b 1 j) 0

/-- The output layer's logits. -/
def logit (R : Fin 65536) (c : Fin 128) : EReal := (∑ j : Fin 128, hid N d C W b R j * W 2 j c) + b 2 c

/-- The per-row term the reference sums: lane 0 takes log σ of the generated rows, lane 1 log σ of the real rows and
    log σ − o of the generated rows, the other lanes nothing. -/
def term (R : Fin 65536) (c : Fin 128) : EReal :=
  if c.val = 0 then (if 32768 ≤ R.val then logSig (logit N d C W b R c) else 0)
  else if c.val = 1 then
    (if 32768 ≤ R.val then logSig (logit N d C W b R c) - logit N d C W b R c else logSig (logit N d C W b R c))
  else 0

/-- The reference's output row: the negated column sums, scaled. -/
def refOut (c : Fin 128) : EReal := (0 - ∑ R : Fin 65536, term N d C W b R c) * cB

/-! ## The kernel -/

/-- Rotation of the lanes by 16: the lane whose entry lands in lane `l`. -/
def rot (l : Fin 128) : Fin 128 := if h : l.val < 16 then ⟨l.val + 112, by omega⟩ else ⟨l.val - 16, by omega⟩

/-- The fused stage-1 weights: rows 0..63 multiply noise, rows 64..127 multiply cond. Lane 10 collects the generator
    logit; the cond rows also carry the hidden layer's cond rows and their copy rotated by 16 lanes. -/
def wf (k l : Fin 128) : EReal :=
  if h : k.val < 64 then (if l.val = 10 then W 0 k 0 else 0)
  else (W 1 ⟨k.val - 63, by omega⟩ l + W 1 ⟨k.val - 63, by omega⟩ (rot l)) + (if l.val = 10 then W 0 k 0 else 0)

/-- The stage-2 weights: the output layer's column 0 in lane 1, and its rotation by 16 rows in lanes 0 and 2. -/
def w2p (j l : Fin 128) : EReal :=
  ((if l.val = 1 then W 2 j 0 else 0) + (if l.val = 0 then W 2 (rot j) 0 else 0)) + (if l.val = 2 then W 2 (rot j) 0 else 0)

/-- Row vectors: the hidden layer's data row, its rotation, the fused hidden bias, the output bias in lanes 0..2. -/
def cs0 (l : Fin 128) : EReal := W 1 0 l
def cs1 (l : Fin 128) : EReal := W 1 0 (rot l)
def cs2 (l : Fin 128) : EReal := (b 1 l + b 1 (rot l)) + b 0 0 * W 1 0 (rot l)
def cs3 (l : Fin 128) : EReal := if l.val < 3 then b 2 0 else 0

/-- Stage 1 of a batch row: noise and cond against the fused weights. -/
def m1 (r : Fin 32768) (l : Fin 128) : EReal :=
  (∑ k : Fin 64, N r k * wf W ⟨k.val, by omega⟩ l) + (∑ k : Fin 64, C r k * wf W ⟨k.val + 64, by omega⟩ l)

/-- The fused hidden pre-activation and its ReLU. -/
def hidK (r : Fin 32768) (l : Fin 128) : EReal :=
  max ((((m1 N C W r l + m1 N C W r 10 * cs1 W l) + d r * cs0 W l)) + cs2 W b l) 0

/-- Stage 2: the three logits of a batch row in lanes 0, 1, 2. -/
def logitK (r : Fin 32768) (l : Fin 128) : EReal := (∑ j : Fin 128, hidK N d C W b r j * w2p W j l) + cs3 b l

/-- The per-row term: log σ(o), and log σ(o) − o in lane 2. -/
def termK (r : Fin 32768) (l : Fin 128) : EReal :=
  if l.val = 2 then logSig (logitK N d C W b r l) - logitK N d C W b r l else logSig (logitK N d C W b r l)

/-- A tile's column sums: tile `t` holds rows 4096·t .. 4096·t + 4095. -/
def part (t : Fin 8) (l : Fin 128) : EReal := ∑ r : Fin 4096, termK N d C W b ⟨4096 * t.val + r.val, by omega⟩ l

/-- An output block's row: the four tiles of half `i` of the batch, accumulated in order. -/
def outRow (i : Fin 2) (l : Fin 128) : EReal :=
  ((part N d C W b ⟨4 * i.val, by omega⟩ l + part N d C W b ⟨4 * i.val + 1, by omega⟩ l)
    + part N d C W b ⟨4 * i.val + 2, by omega⟩ l) + part N d C W b ⟨4 * i.val + 3, by omega⟩ l

/-- The two halves added. -/
def acc (l : Fin 128) : EReal := outRow N d C W b 0 l + outRow N d C W b 1 l

/-- The kernel's two results. -/
def kGen : EReal := (-(acc N d C W b 0)) * cB
def kDisc : EReal := (-(acc N d C W b 1 + acc N d C W b 2)) * cB

end

end Cert.Spec

end
-- ==== Proof.KI.Tail.lean ====
/-
  The host lines after the kernel's region.

  The region leaves a 16 × 128 array: row 0 holds the column sums over the first half of the batch, row 8 those over
  the second half. The host adds the two rows, takes lanes 0, 1 and 2 of the sum as scalars, and returns the negated
  lane 0, and the negated sum of lanes 1 and 2, each scaled by 2⁻¹⁵.
-/
import proofs.«101381_g2000106107921261_pallasbulk_998_17_alg».proof.Proof.KI.Frame
import proofs.«101381_g2000106107921261_pallasbulk_998_17_alg».proof.Proof.Spec
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The two rows added, and one lane of a row as a scalar -/

/-- Rows 0 and 8 of a 16 × 128 array, added lane by lane. -/
def rowPair (X : FVec Ideal S16x128 .f32) : FVec Ideal S128 .f32 :=
  addf (shapeCast S128 (extractStridedSlice S1x128 ![0, 0] X slices_S16x128_S1x128_0_0) shapeCasts_S1x128_S128 : FVec Ideal S128 .f32)
    (shapeCast S128 (extractStridedSlice S1x128 ![8, 0] X slices_S16x128_S1x128_8_0) shapeCasts_S1x128_S128 : FVec Ideal S128 .f32)

theorem rowPair_apply (X : FVec Ideal S16x128 .f32) (l : Fin 128) :
    rowPair X (ix1 l) = X (ix2 (0 : Fin 16) l) + X (ix2 (8 : Fin 16) l) := by
  unfold rowPair
  rw [addf_apply, shapeCast_1a_a_apply, shapeCast_1a_a_apply,
    slice2_axis0_apply 0 X slices_S16x128_S1x128_0_0 (0 : Fin 1) l (0 : Fin 16) rfl,
    slice2_axis0_apply 8 X slices_S16x128_S1x128_8_0 (0 : Fin 1) l (8 : Fin 16) rfl]

/-- Lane `k` of a row, cut out and read as a scalar, is the row's entry `k`. -/
theorem lane_apply (v : FVec Ideal S128 .f32) (k : ℕ) (hk : k < 128) (h : S128.Slices ![k] S1) (i : S_.Idx) :
    shapeCast S_ (extractStridedSlice S1 ![k] v h) shapeCasts_S1_S_ i = v (ix1 ⟨k, hk⟩) := by
  refine (shapeCast_apply _ shapeCasts_S1_S_ i (ix1 (0 : Fin 1)) ?_).trans ?_
  · have h1 : (S1.rowMajor (ix1 (0 : Fin 1))).val < 1 := (S1.rowMajor (ix1 (0 : Fin 1))).isLt
    have h2 : (S_.rowMajor i).val < 1 := (S_.rowMajor i).isLt
    omega
  · exact extractStridedSlice_apply ![k] v h (ix1 (0 : Fin 1)) (ix1 ⟨k, hk⟩) (fun a => by
      match a with
      | ⟨0, _⟩ => rfl)

/-! ## The two results from the region's output array -/

variable (m : (ℓ : Loc nD τ sig) → Buf (Elt Ideal) ℓ) (ρ : Dev nD → PrngReg)

/-- The region's output array after the run. -/
def finalArr (c : Dev nD) : FVec Ideal S16x128 .f32 := (dats m 0 c).arrAt 5 cfg0.N

/-- Lane `l` of its rows 0 and 8, added. -/
def acc (c : Dev nD) (l : Fin 128) : EReal := finalArr m c (ix2 (0 : Fin 16) l) + finalArr m c (ix2 (8 : Fin 16) l)

/-- The output array as the host lines find it. -/
theorem tail_arr (c : Dev nD) :
    Pipeline.withArrays (cfgs 0).spec c (V0 m c) (fun w => (dats m 0 c).arrAt w (cfgs 0).N) (Proc.devRef .tc main_v2)
      = finalArr m c :=
  Pipeline.withArrays_arr spec0 launch0.win.arr_inj c _ _ 5

/-- The first result: lane 0 of the two rows' sum, negated and scaled. -/
theorem tail_v11 (c : Dev nD) :
    Pipeline.afterTail₀ cfgs (dats m) 0 (V0 m) [hostOps1] c main_v11 = fun _ => (-(acc m c 0)) * Cert.Spec.cB := by
  unfold Pipeline.afterTail₀
  show StableHlo.after hostOps1 _ (Proc.devRef .tc main_v11) = _
  after_results
  rw [tail_arr m c]
  funext i
  show (-(shapeCast S_ (extractStridedSlice S1 ![0] (rowPair (finalArr m c)) slices_S128_S1_0) shapeCasts_S1_S_ i))
    * Ideal.ofBits .f32 0x38000000#32 = _
  rw [lane_apply _ 0 (by norm_num), rowPair_apply]
  rfl

/-- The second result: lanes 1 and 2 of the two rows' sum, added, negated and scaled. -/
theorem tail_v18 (c : Dev nD) :
    Pipeline.afterTail₀ cfgs (dats m) 0 (V0 m) [hostOps1] c main_v18
      = fun _ => (-(acc m c 1 + acc m c 2)) * Cert.Spec.cB := by
  unfold Pipeline.afterTail₀
  show StableHlo.after hostOps1 _ (Proc.devRef .tc main_v18) = _
  after_results
  rw [tail_arr m c]
  funext i
  show (-(shapeCast S_ (extractStridedSlice S1 ![1] (rowPair (finalArr m c)) slices_S128_S1_1) shapeCasts_S1_S_ i
      + shapeCast S_ (extractStridedSlice S1 ![2] (rowPair (finalArr m c)) slices_S128_S1_2) shapeCasts_S1_S_ i))
    * Ideal.ofBits .f32 0x38000000#32 = _
  rw [lane_apply _ 1 (by norm_num), lane_apply _ 2 (by norm_num), rowPair_apply, rowPair_apply]
  rfl

/-! ## The run, with the two results named -/

/-- Every weakly fair execution of the kernel's program terminates without a fault; its two results are the host
    lines' functions of the region's output array (equal to `G0`, `G1` whenever those are), and the argument arrays
    end unchanged. -/
theorem run_with (G0 G1 : Dev nD → EReal) (h0 : ∀ c, (-(acc m c 0)) * Cert.Spec.cB = G0 c)
    (h1 : ∀ c, (-(acc m c 1 + acc m c 2)) * Cert.Spec.cB = G1 c) :
    θ_run (defs (F := Ideal)) (onTc (τ := τ) (main (F := Ideal))) ⟨m, fun _ => 0, ρ⟩ (fun r => ∀ c : Dev nD,
      r.2.mem ((c.tc : Thread nD τ).loc main_v11) = (fun _ => G0 c)
      ∧ r.2.mem ((c.tc : Thread nD τ).loc main_v18) = (fun _ => G1 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans
        ((tail_v11 m c).trans (funext fun _ => h0 c)),
      ((h c).2 main_v18 (Pipeline.mem_restRefs_of main_v18 (by decide) (by decide))).trans
        ((tail_v18 m c).trans (funext fun _ => h1 c)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.KI.Value.lean ====
/-
  What the kernel computes, read off its frame. The body's stores were found by running it; here each is named:
  the three scratch buffers as functions of the weight and bias blocks, the partial column sum of a tile as a function
  of the tile's three input blocks and the scratch, and the output block after a point as the running sum, along its
  row of the grid, of the partial column sums. Then the output array after the region, block by block, and the two
  scalars the host lines after the region compute from it.
-/
import proofs.«101381_g2000106107921261_pallasbulk_998_17_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A load, through any rectangle, of a buffer one store has just filled whole reads the stored value there. -/
theorem readCov_whole {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ r (fun y => ⟨_, List.mem_singleton_self _, View.mem_set_unit_zero h inb y⟩), View.canon_unit_zero h]

/-! ## The scratch buffers and the partial column sum, named -/

/-- First-stage weights, from the packed weight block. -/
def scr0 (w : Vec F S3x128x128 .f32) : Vec F S128x128 .bf16 :=
  k0_pay4 (View.ld w (Rect.unit (s := S3x128x128) ![0, 0, 0] S1x128x128.size inb_S3x128x128_S1x128x128_0_0_0))
    (View.ld w (Rect.unit (s := S3x128x128) ![1, 0, 0] S1x128x128.size inb_S3x128x128_S1x128x128_1_0_0))

/-- Second-stage weights, from the packed weight block. -/
def scr1 (w : Vec F S3x128x128 .f32) : Vec F S128x128 .bf16 :=
  k0_pay10 (iota .tc S128x128 32 [1] iota_S128x128_d1_w32)
    (k0_pay6 (View.ld w (Rect.unit (s := S3x128x128) ![2, 0, 0] S1x128x128.size inb_S3x128x128_S1x128x128_2_0_0)))
    k0_pay7
    (k0_pay8 (View.ld w (Rect.unit (s := S3x128x128) ![2, 0, 0] S1x128x128.size inb_S3x128x128_S1x128x128_2_0_0)))
    k0_pay9

/-- The row vectors, from the packed weight block and the packed bias block. -/
def scr2 (w : Vec F S3x128x128 .f32) (b : Vec F S8x128 .f32) : Vec F S8x128 .f32 :=
  k0_pay12 (k0_pay11
    (k0_pay3 (View.ld w (Rect.unit (s := S3x128x128) ![1, 0, 0] S1x128x128.size inb_S3x128x128_S1x128x128_1_0_0)))
    (View.ld b (Rect.unit (s := S8x128) ![1, 0] S1x128.size inb_S8x128_S1x128_1_0))
    (View.ld b (Rect.unit (s := S8x128) ![0, 0] S1x1.size inb_S8x128_S1x1_0_0))
    (View.ld b (Rect.unit (s := S8x128) ![2, 0] S1x1.size inb_S8x128_S1x1_2_0)))

/-- The second matrix product of a tile: from the tile's noise, condition and data blocks and the scratch. -/
def logits (x0 x1 : Vec F S4096x64 .bf16) (x2 : Vec F S4096x1 .f32) (s0 s1 : Vec F S128x128 .bf16) (s2 : Vec F S8x128 .f32) :
    FVec F S4096x128 .f32 :=
  k0_pay13 x0 (View.ld s0 (Rect.unit (s := S128x128) ![0, 0] S64x128.size inb_S128x128_S64x128_0_0))
    x1 (View.ld s0 (Rect.unit (s := S128x128) ![64, 0] S64x128.size inb_S128x128_S64x128_64_0))
    (View.ld s2 (Rect.unit (s := S8x128) ![1, 0] S1x128.size inb_S8x128_S1x128_1_0))
    x2 (View.ld s2 (Rect.unit (s := S8x128) ![0, 0] S1x128.size inb_S8x128_S1x128_0_0))
    (View.ld s2 (Rect.unit (s := S8x128) ![2, 0] S1x128.size inb_S8x128_S1x128_2_0))
    s1

/-- The partial column sum of a tile, in each of the block's eight rows. -/
def part (x0 x1 : Vec F S4096x64 .bf16) (x2 : Vec F S4096x1 .f32) (s0 s1 : Vec F S128x128 .bf16) (s2 : Vec F S8x128 .f32) :
    FVec F S8x128 .f32 :=
  k0_pay1 (logits x0 x1 x2 s0 s1 s2) (View.ld s2 (Rect.unit (s := S8x128) ![3, 0] S1x128.size inb_S8x128_S1x128_3_0))

/-! ## The found pieces are these -/

theorem reset_S0 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole) (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    View.canon (runReset c i arg2 harg2 arg3 harg3 arg4 harg4 arg5 harg5 arg6 harg6 arg7 harg7 arg8 harg8 arg9 harg9 arg10 harg10 hc0 hc2 hc3 x0 x1 x2 x3 x4).2.1 = scr0 x3 := by
  unfold runReset; dsimp only; sl_unfold_words
  rw [View.canon_unit_zero hz2]
  unfold scr0
  simp only [View.readAt_eq_ld, harg5.read_unread]
  try rfl

theorem reset_S1 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole) (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    View.canon (runReset c i arg2 harg2 arg3 harg3 arg4 harg4 arg5 harg5 arg6 harg6 arg7 harg7 arg8 harg8 arg9 harg9 arg10 harg10 hc0 hc2 hc3 x0 x1 x2 x3 x4).2.2.1 = scr1 x3 := by
  unfold runReset; dsimp only; sl_unfold_words
  rw [View.canon_unit_zero hz2]
  unfold scr1
  simp only [View.readAt_eq_ld, harg5.read_unread]
  try rfl

theorem reset_S2 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole) (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    View.canon (runReset c i arg2 harg2 arg3 harg3 arg4 harg4 arg5 harg5 arg6 harg6 arg7 harg7 arg8 harg8 arg9 harg9 arg10 harg10 hc0 hc2 hc3 x0 x1 x2 x3 x4).2.2.2.1 = scr2 x3 x4 := by
  unfold runReset; dsimp only; sl_unfold_words
  rw [View.canon_unit_zero hz2]
  unfold scr2
  simp only [View.readAt_eq_ld, harg5.read_unread, harg6.read_unread]
  try rfl

theorem reset_5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole) (hc0 : condPrep i) (hc2 : condReset i) (hc3 : ¬condAcc i) (x0 : Vec F S4096x64 .bf16) (x1 : Vec F S4096x64 .bf16) (x2 : Vec F S4096x1 .f32) (x3 : Vec F S3x128x128 .f32) (x4 : Vec F S8x128 .f32) :
    View.canon (runReset c i arg2 harg2 arg3 harg3 arg4 harg4 arg5 harg5 arg6 harg6 arg7 harg7 arg8 harg8 arg9 harg9 arg10 harg10 hc0 hc2 hc3 x0 x1 x2 x3 x4).1 = part x0 x1 x2 (scr0 x3) (scr1 x3) (scr2 x3 x4) := by
  unfold runReset; dsimp only; sl_unfold_words
  rw [View.canon_unit_zero hz2]
  unfold part logits scr0 scr1 scr2
  simp only [readCov_whole (S := S128x128) (e := .bf16) _ hz2, readCov_whole (S := S8x128) (e := .f32) _ hz2, View.readAt_eq_ld, harg2.read_unread, harg3.read_unread, harg4.read_unread, harg5.read_unread, harg6.read_unread,
    View.ld_unit_zero (S := S4096x64) hz2, View.ld_unit_zero (S := S4096x1) hz2, View.ld_unit_zero (S := S128x128) hz2]
  try rfl

theorem acc_5 (c : Dev nD) (i : grid0.Coords) (arg2 : Memref sig .tc .vmem S4096x64 .bf16) (harg2 : arg2.IsWhole) (arg3 : Memref sig .tc .vmem S4096x64 .bf16) (harg3 : arg3.IsWhole) (arg4 : Memref sig .tc .vmem S4096x1 .f32) (harg4 : arg4.IsWhole) (arg5 : Memref sig .tc .vmem S3x128x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S8x128 .f32) (harg10 : arg10.IsWhole)
    (hc0 : ¬condPrep i) (hc2 : ¬condReset i) (hc3 : condAcc i) (x0 : Vec F S4096x64 .bf16) (x1 : Vec F S4096x64 .bf16) (x2 : Vec F S4096x1 .f32) (x3 : Vec F S3x128x128 .f32) (x4 : Vec F S8x128 .f32)
    (xo : Vec F S8x128 .f32) (xs0 : Vec F S128x128 .bf16) (xs1 : Vec F S128x128 .bf16) (xs2 : Vec F S8x128 .f32) :
    View.canon (runAcc c i arg2 harg2 arg3 harg3 arg4 harg4 arg5 harg5 arg6 harg6 arg7 harg7 arg8 harg8 arg9 harg9 arg10 harg10 hc0 hc2 hc3 x0 x1 x2 x3 x4 xo xs0 xs1 xs2).1
      = addf xo (part x0 x1 x2 xs0 xs1 xs2) := by
  unfold runAcc; dsimp only; sl_unfold_words
  rw [View.canon_unit_zero hz2]
  unfold part logits k0_pay2
  simp only [View.readAt_eq_ld, harg2.read_unread, harg3.read_unread, harg4.read_unread, harg5.read_unread, harg6.read_unread, harg7.read_unread, harg8.read_unread, harg9.read_unread, harg10.read_unread,
    View.ld_unit_zero (S := S4096x64) hz2, View.ld_unit_zero (S := S4096x1) hz2, View.ld_unit_zero (S := S128x128) hz2,
    View.ld_unit_zero (S := S8x128) hz2, shapeCast_self]
  try rfl

/-! ## The state after each point, in closed form -/

-- from here on the two runs are used through the equations above only
attribute [local irreducible] runReset runAcc

/-- The first point of `t`'s row of the grid: where the scratch `t` reads was written. -/
def rowStart (t : Fin cfg0.N) : Fin cfg0.N :=
  ⟨4 * (t.val / 4), by have := t.isLt; have : cfg0.N = 8 := N_0; omega⟩

/-- The scratch buffers at point `t`: written from the weight and bias blocks at the first point of its row. -/
def scrAt0 (c : Dev nD) (t : Fin cfg0.N) : Vec F S128x128 .bf16 := scr0 (iblk m c 3 (rowStart t))
def scrAt1 (c : Dev nD) (t : Fin cfg0.N) : Vec F S128x128 .bf16 := scr1 (iblk m c 3 (rowStart t))
def scrAt2 (c : Dev nD) (t : Fin cfg0.N) : Vec F S8x128 .f32 := scr2 (iblk m c 3 (rowStart t)) (iblk m c 4 (rowStart t))

/-- The partial column sum of the tile at point `t`. -/
def partAt (c : Dev nD) (t : Fin cfg0.N) : Vec F S8x128 .f32 :=
  part (iblk m c 0 t) (iblk m c 1 t) (iblk m c 2 t) (scrAt0 m c t) (scrAt1 m c t) (scrAt2 m c t)

/-- The running sum along a row of the grid: restarted at a point with j = 0, the point's partial sum added after. -/
def rowSum (c : Dev nD) : (n : ℕ) → n < cfg0.N → Vec F S8x128 .f32
  | 0, h => partAt m c ⟨0, h⟩
  | n + 1, h => if (n + 1) % 4 = 0 then partAt m c ⟨n + 1, h⟩ else addf (rowSum c n (Nat.lt_of_succ_lt h)) (partAt m c ⟨n + 1, h⟩)

/-- The state after point `t`, named. -/
def stAt (c : Dev nD) (t : Fin cfg0.N) : St F := (rowSum m c t.val t.isLt, scrAt0 m c t, scrAt1 m c t, scrAt2 m c t)

theorem rowStart_self (t : Fin cfg0.N) (h : t.val % 4 = 0) : rowStart t = t := Fin.ext (by show 4 * (t.val / 4) = t.val; omega)

theorem rowStart_succ (n : ℕ) (hn : n + 1 < cfg0.N) (h : ¬(n + 1) % 4 = 0) :
    rowStart ⟨n + 1, hn⟩ = rowStart ⟨n, Nat.lt_of_succ_lt hn⟩ := Fin.ext (by show 4 * ((n + 1) / 4) = 4 * (n / 4); omega)

set_option maxHeartbeats 4000000 in
theorem resetAt_eq (c : Dev nD) (t : Fin cfg0.N) (h : t.val % 4 = 0) : resetAt m c t h = stAt m c t := by
  have e5 := reset_5 (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)
  have e0 := reset_S0 (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)
  have e1 := reset_S1 (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)
  have e2 := reset_S2 (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) ((hcondPrep t).mpr h) ((hcondReset t).mpr h) (fun hh => (hcondAcc t).mp hh h)
    (iblk m c 0 t) (iblk m c 1 t) (iblk m c 2 t) (iblk m c 3 t) (iblk m c 4 t)
  have hr : rowSum m c t.val t.isLt = partAt m c t := by
    obtain ⟨n, hn⟩ := t
    cases n with
    | zero => rfl
    | succ n => exact if_pos h
  unfold resetAt stAt resetRun
  rw [hr]
  unfold partAt scrAt0 scrAt1 scrAt2
  rw [rowStart_self t h, e5, e0, e1, e2]

set_option maxHeartbeats 4000000 in
theorem accAt_eq (c : Dev nD) (n : ℕ) (hn : n + 1 < cfg0.N) (h : ¬(n + 1) % 4 = 0) :
    accAt m c ⟨n + 1, hn⟩ h (stAt m c ⟨n, Nat.lt_of_succ_lt hn⟩) = stAt m c ⟨n + 1, hn⟩ := by
  have e5 := acc_5 (F := F) c (grid0.coords (⟨n + 1, hn⟩ : Fin cfg0.N)) (ms0 (⟨n + 1, hn⟩ : Fin cfg0.N)) (hs0 (⟨n + 1, hn⟩ : Fin cfg0.N)) (ms1 (⟨n + 1, hn⟩ : Fin cfg0.N)) (hs1 (⟨n + 1, hn⟩ : Fin cfg0.N)) (ms2 (⟨n + 1, hn⟩ : Fin cfg0.N)) (hs2 (⟨n + 1, hn⟩ : Fin cfg0.N)) (ms3 (⟨n + 1, hn⟩ : Fin cfg0.N)) (hs3 (⟨n + 1, hn⟩ : Fin cfg0.N)) (ms4 (⟨n + 1, hn⟩ : Fin cfg0.N)) (hs4 (⟨n + 1, hn⟩ : Fin cfg0.N)) (ms5 (⟨n + 1, hn⟩ : Fin cfg0.N)) (hs5 (⟨n + 1, hn⟩ : Fin cfg0.N)) sc0 (Memref.isWhole_whole _) sc1 (Memref.isWhole_whole _) sc2 (Memref.isWhole_whole _) (fun hh => h ((hcondPrep ⟨n + 1, hn⟩).mp hh)) (fun hh => h ((hcondReset ⟨n + 1, hn⟩).mp hh)) ((hcondAcc ⟨n + 1, hn⟩).mpr h)
    (iblk m c 0 ⟨n + 1, hn⟩) (iblk m c 1 ⟨n + 1, hn⟩) (iblk m c 2 ⟨n + 1, hn⟩) (iblk m c 3 ⟨n + 1, hn⟩) (iblk m c 4 ⟨n + 1, hn⟩)
    (rowSum m c n (Nat.lt_of_succ_lt hn)) (scrAt0 m c ⟨n, Nat.lt_of_succ_lt hn⟩) (scrAt1 m c ⟨n, Nat.lt_of_succ_lt hn⟩) (scrAt2 m c ⟨n, Nat.lt_of_succ_lt hn⟩)
  have hr : rowSum m c (n + 1) hn = addf (rowSum m c n (Nat.lt_of_succ_lt hn)) (partAt m c ⟨n + 1, hn⟩) := if_neg h
  have hs0 : scrAt0 m c ⟨n + 1, hn⟩ = scrAt0 m c ⟨n, Nat.lt_of_succ_lt hn⟩ := by unfold scrAt0; rw [rowStart_succ n hn h]
  have hs1 : scrAt1 m c ⟨n + 1, hn⟩ = scrAt1 m c ⟨n, Nat.lt_of_succ_lt hn⟩ := by unfold scrAt1; rw [rowStart_succ n hn h]
  have hs2 : scrAt2 m c ⟨n + 1, hn⟩ = scrAt2 m c ⟨n, Nat.lt_of_succ_lt hn⟩ := by unfold scrAt2; rw [rowStart_succ n hn h]
  unfold accAt stAt accRun
  dsimp only
  rw [hr, hs0, hs1, hs2]
  unfold partAt
  rw [hs0, hs1, hs2, e5]

/-- What the recursion on the point computes is the named state. -/
theorem outsAt_eq (c : Dev nD) : ∀ (n : ℕ) (hn : n < cfg0.N), outsAt m c n hn = stAt m c ⟨n, hn⟩
  | 0, hn => (outsAt_reset m c ⟨0, hn⟩ (Nat.zero_mod _)).trans (resetAt_eq m c ⟨0, hn⟩ (Nat.zero_mod _))
  | n + 1, hn => by
    by_cases h : (n + 1) % 4 = 0
    · exact (outsAt_reset m c ⟨n + 1, hn⟩ h).trans (resetAt_eq m c ⟨n + 1, hn⟩ h)
    · refine (outsAt_acc m c ⟨n + 1, hn⟩ h).trans ?_
      show accAt m c ⟨n + 1, hn⟩ h (outsAt m c n _) = _
      rw [outsAt_eq c n]
      exact accAt_eq m c n hn h

/-! ## The output array after the region -/

/-- The two points that write the output block back (the last of each row of the grid) write different blocks. -/
theorem idx_inj5 : ∀ t t' : Fin cfg0.N, (cfg0.win 5).flush t = true → (cfg0.win 5).flush t' = true →
    win0_5.index t = win0_5.index t' → t = t' :=
  (by decide +kernel : ∀ t t' : Fin grid0.N, win0_5.flush t = true → win0_5.flush t' = true →
    win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (idx_inj5 t t' hf hf' h)

/-- What point `t` writes back: the running sum of its row up to it. -/
theorem flushed5 (c : Dev nD) (t : Fin cfg0.N) : (dats m 0 c).flushed 5 t = rowSum m c t.val t.isLt := by
  show (cfg0.win 5).cut (grid0.coords t) ((dats m 0 c).after 5 t) = _
  rw [after5, outsAt_eq]
  rfl

/-- The output array after the region. -/
def outArr (c : Dev nD) := (dats m 0 c).arrAt 5 cfg0.N

/-- Its block at a point that writes back is that row's sum of the four partial column sums. -/
theorem block5 (c : Dev nD) (t : Fin cfg0.N) (hf : (cfg0.win 5).flush t = true) :
    ((cfg0.win 5).blk t).view.read (Elt F) (outArr m c) = rowSum m c t.val t.isLt :=
  ((dats m 0 c).read_blk_arrAt_eq_flushed 5 disjoint5 cfg0.N t t.isLt hf).trans (flushed5 m c t)

/-- A row's sum, written out: the four partial column sums of the row added left to right. -/
theorem rowSum_3 (c : Dev nD) (h0 : 0 < cfg0.N) (h1 : 1 < cfg0.N) (h2 : 2 < cfg0.N) (h3 : 3 < cfg0.N) :
    rowSum m c 3 h3 = addf (addf (addf (partAt m c ⟨0, h0⟩) (partAt m c ⟨1, h1⟩)) (partAt m c ⟨2, h2⟩)) (partAt m c ⟨3, h3⟩) := by
  simp only [rowSum]; rfl
theorem rowSum_7 (c : Dev nD) (h4 : 4 < cfg0.N) (h5 : 5 < cfg0.N) (h6 : 6 < cfg0.N) (h7 : 7 < cfg0.N) :
    rowSum m c 7 h7 = addf (addf (addf (partAt m c ⟨4, h4⟩) (partAt m c ⟨5, h5⟩)) (partAt m c ⟨6, h6⟩)) (partAt m c ⟨7, h7⟩) := by
  simp only [rowSum]; rfl

/-- Where the output window's block sits at each point: rows 8·(t / 4) …, all 128 lanes. -/
theorem idx5_facts : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- The output array after the region, at row 8·(t / 4) + p and lane l, for a point `t` that writes back (the last of
    its row): the row's sum at (p, l). -/
theorem outArr_apply (c : Dev nD) (t : Fin cfg0.N) (hf : (cfg0.win 5).flush t = true) (p : Fin 8) (l : Fin 128)
    (q : Fin 16) (hq : q.val = 8 * (t.val / 4) + p.val) :
    (outArr m c : Vec F S16x128 .f32) (ValueIdx.ix2 q l) = rowSum m c t.val t.isLt (ValueIdx.ix2 p l) := by
  have h := congrFun (block5 m c t hf) (ValueIdx.ix2 p l)
  rw [View.read_apply] at h
  refine Eq.trans ?_ h
  show (outArr m c : Vec F S16x128 .f32) (ValueIdx.ix2 q l) = (outArr m c : Vec F S16x128 .f32) (((cfg0.win 5).blk t).view.emb (ValueIdx.ix2 p l))
  congr 1
  obtain ⟨e0, e1⟩ := idx5_facts t
  funext a
  apply Fin.ext
  match a with
  | ⟨0, _⟩ => show q.val = win0_5.index t (0 : Fin 2) * 8 + 1 * p.val; rw [e0]; omega
  | ⟨1, _⟩ => show l.val = win0_5.index t (1 : Fin 2) * 128 + 1 * l.val; rw [e1]; omega

end Cert.KernelIdeal.Hand

end
-- ==== Proof.RefArgs.lean ====
/-
  The argument arrays read by their coordinates: a matrix as a function of row and column, a one-column matrix as a
  function of the row, a stack of matrices as a function of the member, the row and the column.
-/
import Idealize.ShloMosaic.Lib.ValueIdx
import Idealize.ShloMosaic.PureOps.Ideal

noncomputable section

namespace Cert.ReferenceIdeal.Hand

open Idealize.ShloMosaic Idealize.ShloMosaic.ValueIdx

/-- A matrix read by its two coordinates. -/
def argMat {a b : ℕ} (x : (⟨2, ![a, b]⟩ : Shape).Idx → EReal) (r : Fin a) (k : Fin b) : EReal := x (ix2 r k)

/-- A one-column matrix read by its row. -/
def argCol {a : ℕ} (x : (⟨2, ![a, 1]⟩ : Shape).Idx → EReal) (r : Fin a) : EReal := x (ix2 r (0 : Fin 1))

/-- A stack of matrices read by its three coordinates. -/
def argCube {a b c : ℕ} (x : (⟨3, ![a, b, c]⟩ : Shape).Idx → EReal) (p : Fin a) (k : Fin b) (l : Fin c) : EReal :=
  x (ix3 p k l)

end Cert.ReferenceIdeal.Hand

end
-- ==== Proof.KI.RunSpec.lean ====
/-
  The kernel's two results as the specification's.

  If rows 8·i .. 8·i + 7 of the region's output array hold the specification's output row of half `i` of the batch, then
  rows 0 and 8 added are the specification's two halves added, and the two results the host lines return — the negated
  lane 0, and the negated sum of lanes 1 and 2, each scaled by 2⁻¹⁵ — are the specification's generator loss and
  discriminator loss.
-/
import proofs.«101381_g2000106107921261_pallasbulk_998_17_alg».proof.Proof.KI.Tail
import proofs.«101381_g2000106107921261_pallasbulk_998_17_alg».proof.Proof.KI.Value
import proofs.«101381_g2000106107921261_pallasbulk_998_17_alg».proof.Proof.RefArgs
import proofs.«101381_g2000106107921261_pallasbulk_998_17_alg».proof.Proof.Spec

noncomputable section

namespace Cert.KernelIdeal.Hand

open Cert.KernelIdeal Cert.KernelIdeal.Gen Idealize.ShloMosaic Idealize.ShloMosaic.TcCoe Idealize.SL.Sem
open Idealize.ShloMosaic.ValueIdx Cert.ReferenceIdeal.Hand

variable (m : (ℓ : Loc nD τ sig) → Buf (Elt Ideal) ℓ) (ρ : Dev nD → PrngReg)

/-- The specification's generator loss of core `c`'s five argument arrays. -/
def specGen (c : Dev nD) : EReal :=
  Cert.Spec.kGen (argMat (m ((c : Thread nD τ).loc main_arg0))) (argCol (m ((c : Thread nD τ).loc main_arg1)))
    (argMat (m ((c : Thread nD τ).loc main_arg2))) (argCube (m ((c : Thread nD τ).loc main_arg3)))
    (argMat (m ((c : Thread nD τ).loc main_arg4)))

/-- The specification's discriminator loss of core `c`'s five argument arrays. -/
def specDisc (c : Dev nD) : EReal :=
  Cert.Spec.kDisc (argMat (m ((c : Thread nD τ).loc main_arg0))) (argCol (m ((c : Thread nD τ).loc main_arg1)))
    (argMat (m ((c : Thread nD τ).loc main_arg2))) (argCube (m ((c : Thread nD τ).loc main_arg3)))
    (argMat (m ((c : Thread nD τ).loc main_arg4)))

/-- Rows 0 and 8 of the output array added are the specification's two halves added, when each band of eight rows
    holds the specification's row of its half. -/
theorem acc_spec (c : Dev nD)
    (hO : ∀ (i : Fin 2) (p : Fin 8) (l : Fin 128) (q : Fin 16), q.val = 8 * i.val + p.val →
      (outArr m c : Vec Ideal S16x128 .f32) (ix2 q l)
        = Cert.Spec.outRow (argMat (m ((c : Thread nD τ).loc main_arg0))) (argCol (m ((c : Thread nD τ).loc main_arg1)))
            (argMat (m ((c : Thread nD τ).loc main_arg2))) (argCube (m ((c : Thread nD τ).loc main_arg3)))
            (argMat (m ((c : Thread nD τ).loc main_arg4))) i l)
    (l : Fin 128) :
    acc m c l
      = Cert.Spec.acc (argMat (m ((c : Thread nD τ).loc main_arg0))) (argCol (m ((c : Thread nD τ).loc main_arg1)))
          (argMat (m ((c : Thread nD τ).loc main_arg2))) (argCube (m ((c : Thread nD τ).loc main_arg3)))
          (argMat (m ((c : Thread nD τ).loc main_arg4))) l := by
  have e0 := hO 0 0 l 0 (by decide)
  have e8 := hO 1 0 l 8 (by decide)
  unfold Cert.Spec.acc
  exact congrArg₂ (· + ·) e0 e8

/-- The kernel's run with its two results the specification's losses, under the same hypothesis on every core. -/
theorem run_spec
    (hO : ∀ (c : Dev nD) (i : Fin 2) (p : Fin 8) (l : Fin 128) (q : Fin 16), q.val = 8 * i.val + p.val →
      (outArr m c : Vec Ideal S16x128 .f32) (ix2 q l)
        = Cert.Spec.outRow (argMat (m ((c : Thread nD τ).loc main_arg0))) (argCol (m ((c : Thread nD τ).loc main_arg1)))
            (argMat (m ((c : Thread nD τ).loc main_arg2))) (argCube (m ((c : Thread nD τ).loc main_arg3)))
            (argMat (m ((c : Thread nD τ).loc main_arg4))) i l) :
    θ_run (defs (F := Ideal)) (onTc (τ := τ) (main (F := Ideal))) ⟨m, fun _ => 0, ρ⟩ (fun r => ∀ c : Dev nD,
      r.2.mem ((c.tc : Thread nD τ).loc main_v11) = (fun _ => specGen m c)
      ∧ r.2.mem ((c.tc : Thread nD τ).loc main_v18) = (fun _ => specDisc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_with m ρ (specGen m) (specDisc m)
    (fun c => by unfold specGen Cert.Spec.kGen; rw [acc_spec m c (hO c) 0])
    (fun c => by unfold specDisc Cert.Spec.kDisc; rw [acc_spec m c (hO c) 1, acc_spec m c (hO c) 2])

end Cert.KernelIdeal.Hand

end
-- ==== Proof.KI.OutRow.lean ====
/-
  The output array after the region, row by row, as mathematics. Its rows 8·i .. 8·i + 7 (i = 0, 1) all hold, lane by
  lane, the four tiles of half i of the batch accumulated in order: the last point of row i of the grid writes back the
  running sum of that row's four partial column sums, and each partial column sum of a tile is that tile's term.
-/
import proofs.«101381_g2000106107921261_pallasbulk_998_17_alg».proof.Proof.KI.Value
import proofs.«101381_g2000106107921261_pallasbulk_998_17_alg».proof.Proof.Spec

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)
variable (N : Fin 32768 → Fin 64 → EReal) (d : Fin 32768 → EReal) (C : Fin 32768 → Fin 64 → EReal)
  (W : Fin 3 → Fin 128 → Fin 128 → EReal) (b : Fin 8 → Fin 128 → EReal)

/-- The grid has eight points. -/
theorem pt8 (t : Fin cfg0.N) : t.val < 8 := lt_of_lt_of_eq t.isLt (show cfg0.N = 8 from N_0)

/-- A row of the output, over any four names of its tiles. -/
theorem outRow_eq (i : Fin 2) (l : Fin 128) (a0 a1 a2 a3 : Fin 8) (h0 : a0.val = 4 * i.val) (h1 : a1.val = 4 * i.val + 1)
    (h2 : a2.val = 4 * i.val + 2) (h3 : a3.val = 4 * i.val + 3) :
    Cert.Spec.outRow N d C W b i l
      = ((Cert.Spec.part N d C W b a0 l + Cert.Spec.part N d C W b a1 l) + Cert.Spec.part N d C W b a2 l)
          + Cert.Spec.part N d C W b a3 l := by
  have e0 : (⟨4 * i.val, by omega⟩ : Fin 8) = a0 := Fin.ext h0.symm
  have e1 : (⟨4 * i.val + 1, by omega⟩ : Fin 8) = a1 := Fin.ext h1.symm
  have e2 : (⟨4 * i.val + 2, by omega⟩ : Fin 8) = a2 := Fin.ext h2.symm
  have e3 : (⟨4 * i.val + 3, by omega⟩ : Fin 8) = a3 := Fin.ext h3.symm
  unfold Cert.Spec.outRow
  rw [e0, e1, e2, e3]

/-- The output array at row 8·i + p, lane l, when each point's partial column sum is its tile's term. -/
theorem outArr_outRow (c : Dev nD)
    (hpart : ∀ (t : Fin cfg0.N) (p : Fin 8) (l : Fin 128),
      partAt m c t (ix2 p l) = Cert.Spec.part N d C W b ⟨t.val, pt8 t⟩ l)
    (i : Fin 2) (p : Fin 8) (l : Fin 128) (q : Fin 16) (hq : q.val = 8 * i.val + p.val) :
    (outArr m c : Vec Ideal S16x128 .f32) (ix2 q l) = Cert.Spec.outRow N d C W b i l := by
  have hN : cfg0.N = 8 := N_0
  have hi : i.val = 0 ∨ i.val = 1 := by omega
  rcases hi with hi | hi
  · rw [outArr_apply m c ⟨3, by omega⟩ ((flush0_5 _).mpr (by show 3 % 4 = 3; decide)) p l q (by show q.val = 8 * (3 / 4) + p.val; omega)]
    rw [rowSum_3 m c (by omega) (by omega) (by omega) (by omega)]
    rw [addf_apply, addf_apply, addf_apply, hpart, hpart, hpart, hpart]
    exact (outRow_eq N d C W b i l _ _ _ _ (by show 0 = 4 * i.val; omega) (by show 1 = 4 * i.val + 1; omega)
      (by show 2 = 4 * i.val + 2; omega) (by show 3 = 4 * i.val + 3; omega)).symm
  · rw [outArr_apply m c ⟨7, by omega⟩ ((flush0_5 _).mpr (by show 7 % 4 = 3; decide)) p l q (by show q.val = 8 * (7 / 4) + p.val; omega)]
    rw [rowSum_7 m c (by omega) (by omega) (by omega) (by omega)]
    rw [addf_apply, addf_apply, addf_apply, hpart, hpart, hpart, hpart]
    exact (outRow_eq N d C W b i l _ _ _ _ (by show 4 = 4 * i.val; omega) (by show 5 = 4 * i.val + 1; omega)
      (by show 6 = 4 * i.val + 2; omega) (by show 7 = 4 * i.val + 3; omega)).symm

end Cert.KernelIdeal.Hand

end
-- ==== Proof.KV.Bits.lean ====
/-
  Lane masks. A lane number below 128, written as a 32-bit word, compared with a small literal: the comparison's bit
  selects as the comparison of the naturals does.
-/
import Idealize.ShloMosaic.Lib.ValueIdx
import Idealize.ShloMosaic.Lib.Pipeline.Value

noncomputable section

namespace Cert.KernelIdeal.Value

open Idealize.ShloMosaic Idealize.ShloMosaic.ValueIdx

/-- Equality of the 32-bit words of two naturals below 2³² is equality of the naturals. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h
    simp
  · have hn' : n < 4294967296 := hn
    have hk' : k < 4294967296 := hk
    have hne : BitVec.ofNat 32 n ≠ BitVec.ofNat 32 k := fun e => h (by
      have := congrArg BitVec.toNat e
      rw [BitVec.toNat_ofNat, BitVec.toNat_ofNat] at this
      rwa [Nat.mod_eq_of_lt hn', Nat.mod_eq_of_lt hk'] at this)
    have hb : (BitVec.ofNat 32 n == BitVec.ofNat 32 k) = false := beq_eq_false_iff_ne.mpr hne
    rw [if_neg h]
    show BitVec.ofBool (BitVec.ofNat 32 n == BitVec.ofNat 32 k) = 0#1
    rw [hb]
    rfl

/-- A select on "lane `n` is lane `k`". -/
theorem select_lane_eq {α : Type} (n k : ℕ) (hn : n < 128) (hk : k < 128) (A B : α) :
    Scalar.select (IntOp.cmpi .eq (BitVec.ofNat 32 n) (BitVec.ofNat 32 k)) A B = if n = k then A else B := by
  rw [cmpi_eq_ofNat n k (by omega) (by omega)]
  by_cases h : n = k
  · rw [if_pos h, if_pos h, select_one]
  · rw [if_neg h, if_neg h, select_zero]

/-- Signed "lane `n` is below 3" is the naturals' comparison. -/
theorem cmpi_slt_three : ∀ n : ℕ, n < 128 → IntOp.cmpi .slt (BitVec.ofNat 32 n) 3#32 = if n < 3 then 1#1 else 0#1 := by
  decide +kernel

/-- A select on "lane `n` is below 3". -/
theorem select_lane_lt_three {α : Type} (n : ℕ) (hn : n < 128) (A B : α) :
    Scalar.select (IntOp.cmpi .slt (BitVec.ofNat 32 n) 3#32) A B = if n < 3 then A else B := by
  rw [cmpi_slt_three n hn]
  by_cases h : n < 3
  · rw [if_pos h, if_pos h, select_one]
  · rw [if_neg h, if_neg h, select_zero]

/-- A lane `iota` compared for equality with a literal lane, then selected on, at `(p, l)` of an `[a, 128]` array. -/
theorem select_iota_eq {α : Type} {a : ℕ} (κ : Kind) (h : (⟨2, ![a, 128]⟩ : Shape).Iotas κ 32 [1]) (k : ℕ) (hk : k < 128)
    (A B : (⟨2, ![a, 128]⟩ : Shape).Idx → α) (p : Fin a) (l : Fin 128) :
    select (cmpi .eq (iota κ ⟨2, ![a, 128]⟩ 32 [1] h) (broadcast ⟨2, ![a, 128]⟩ (BitVec.ofNat 32 k))) A B (ix2 p l)
      = if l.val = k then A (ix2 p l) else B (ix2 p l) := by
  rw [select_apply]
  show Scalar.select (IntOp.cmpi .eq (iota κ ⟨2, ![a, 128]⟩ 32 [1] h (ix2 p l)) (BitVec.ofNat 32 k)) _ _ = _
  rw [iota_single_apply]
  exact select_lane_eq l.val k l.isLt hk _ _

end Cert.KernelIdeal.Value

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.KV.Pay1.lean ====
/-
  A tile's partial sums read at an index. The stage-2 product plus the output bias row is the tile's logits; each
  logit gives log σ(o) — and log σ(o) − o in lane 2 —, the tile's 4096 rows are summed lane by lane, and the sum row is
  repeated over the 8 rows of the output block.
-/
import proofs.«101381_g2000106107921261_pallasbulk_998_17_alg».proof.Proof.KV.Bits
import proofs.«101381_g2000106107921261_pallasbulk_998_17_alg».proof.Proof.Gen.KernelIdeal.Skeleton
import proofs.«101381_g2000106107921261_pallasbulk_998_17_alg».proof.Proof.LibColumnReads
import proofs.«101381_g2000106107921261_pallasbulk_998_17_alg».proof.Proof.Spec
import Idealize.ShloMosaic.Lib.Pipeline.Value
import Idealize.ShloMosaic.Lib.ValueLayout

noncomputable section

namespace Cert.KernelIdeal.Value

open Cert.KernelIdeal Cert.KernelIdeal.Gen Idealize.ShloMosaic Idealize.ShloMosaic.ValueIdx

section
variable (v31 : FVec Ideal S4096x128 .f32) (v32 : Vec Ideal S1x128 .f32)

/-- The tile's logits: the stage-2 product plus the output bias row. -/
def logitVec : FVec Ideal S4096x128 .f32 := addf v31 (broadcastTo S4096x128 v32 broadcasts_S1x128_S4096x128)

theorem logitVec_apply (r : Fin 4096) (l : Fin 128) : logitVec v31 v32 (ix2 r l) = v31 (ix2 r l) + v32 (ix2 0 l) := by
  unfold logitVec
  rw [addf_apply, broadcastTo_1b_ab_apply]

/-- log σ of a tile of logits. -/
def logSigVec (o : FVec Ideal S4096x128 .f32) : FVec Ideal S4096x128 .f32 :=
  subf (minimumf o (broadcast S4096x128 (Scalar.ofBits .f32 0x00000000#32)))
    (log (addf (broadcast S4096x128 (Scalar.ofBits .f32 0x3F800000#32))
      (exp (subf (broadcast S4096x128 (Scalar.ofBits .f32 0x00000000#32)) (absf o)))))

theorem logSigVec_apply (o : FVec Ideal S4096x128 .f32) (i : S4096x128.Idx) :
    logSigVec o i = Cert.Spec.logSig (o i) := by
  unfold Cert.Spec.logSig
  rw [← Ideal.ofBits_zero_f32]
  rfl

/-- The per-row terms of a tile: log σ(o), and log σ(o) − o in lane 2. -/
def termVec : FVec Ideal S4096x128 .f32 :=
  select (cmpi .eq (iota .tc S4096x128 32 [1] iota_S4096x128_d1_w32) (broadcast S4096x128 2#32))
    (subf (logSigVec (logitVec v31 v32)) (logitVec v31 v32)) (logSigVec (logitVec v31 v32))

theorem termVec_apply (r : Fin 4096) (l : Fin 128) :
    termVec v31 v32 (ix2 r l)
      = if l.val = 2 then Cert.Spec.logSig (v31 (ix2 r l) + v32 (ix2 0 l)) - (v31 (ix2 r l) + v32 (ix2 0 l))
        else Cert.Spec.logSig (v31 (ix2 r l) + v32 (ix2 0 l)) := by
  unfold termVec
  rw [select_iota_eq .tc iota_S4096x128_d1_w32 2 (by omega), subf_apply, logSigVec_apply, logitVec_apply]

theorem pay1_eq : k0_pay1 (F := Ideal) v31 v32
    = broadcastTo S8x128
        (shapeCast S1x128
          (shapeCast S1x128
            (multiReduction .add [0] S128 (termVec v31 v32) 0x00000000#32 reduces_S4096x128_S128 (.inl rfl) rfl)
            shapeCasts_S128_S1x128)
          shapeCasts_S1x128_S1x128)
        broadcasts_S1x128_S8x128 :=
  rfl

/-- A tile's partial sums, at any of the 8 rows of the output block. -/
theorem pay1_apply (p : Fin 8) (l : Fin 128) :
    k0_pay1 (F := Ideal) v31 v32 (ix2 p l)
      = ∑ r : Fin 4096,
          (if l.val = 2 then Cert.Spec.logSig (v31 (ix2 r l) + v32 (ix2 0 l)) - (v31 (ix2 r l) + v32 (ix2 0 l))
            else Cert.Spec.logSig (v31 (ix2 r l) + v32 (ix2 0 l))) := by
  rw [pay1_eq, broadcastTo_1b_ab_apply, shapeCast_self, shapeCast_a_1a_apply]
  refine (Cert.ColumnReads.multiReduction_add_col (m := 4096) (n := 128) (termVec v31 v32) 0x00000000#32
    reduces_S4096x128_S128 (.inl rfl) rfl l).trans ?_
  exact Finset.sum_congr rfl fun r _ => termVec_apply v31 v32 r l

end

end Cert.KernelIdeal.Value

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KV.Dot.lean ====
/-
  The kernel's matrix products read at an index: a 4096 × 64 tile times a 64 × 128 block of the fused stage-1
  weights, and the 4096 × 128 hidden tile times the 128 × 128 stage-2 weights, each into the zero accumulator, are at
  `(r, l)` the sum over `k` of the left operand's `(r, k)` times the right operand's `(k, l)`.
-/
import proofs.«101381_g2000106107921261_pallasbulk_998_17_alg».proof.Proof.Gen.KernelIdeal
import proofs.«101381_g2000106107921261_pallasbulk_998_17_alg».proof.Proof.LibRowColDot

noncomputable section

namespace Cert.KernelIdeal.Value

open Cert.KernelIdeal Cert.KernelIdeal.Gen Idealize.ShloMosaic Idealize.ShloMosaic.ValueIdx

/-- A stage-1 product at `(r, l)`. -/
theorem dot64_apply {φ₁ φ₂ : FTy} (lhs : FVec Ideal S4096x64 φ₁) (rhs : FVec Ideal S64x128 φ₂) (r : Fin 4096) (l : Fin 128) :
    matmul dot_S4096x64_S64x128_S4096x128_1_0_0_1_n_n none lhs rhs (constant S4096x128 .f32 0x00000000#32) (ix2 r l)
      = ∑ k : Fin 64, lhs (ix2 r k) * rhs (ix2 k l) :=
  Cert.RowColDot.matmul_rowcol dot_S4096x64_S64x128_S4096x128_1_0_0_1_n_n rfl rfl rfl rfl
    (fun j q => by simp [DotDims.lhsIdx, dot_S4096x64_S64x128_S4096x128_1_0_0_1_n_n]; rfl)
    (fun j q => by simp [DotDims.rhsIdx, dot_S4096x64_S64x128_S4096x128_1_0_0_1_n_n]; rfl)
    none lhs rhs (ix2 r l)

/-- The stage-2 product at `(r, l)`. -/
theorem dot128_apply {φ₁ φ₂ : FTy} (lhs : FVec Ideal S4096x128 φ₁) (rhs : FVec Ideal S128x128 φ₂) (r : Fin 4096) (l : Fin 128) :
    matmul dot_S4096x128_S128x128_S4096x128_1_0_0_1_n_n none lhs rhs (constant S4096x128 .f32 0x00000000#32) (ix2 r l)
      = ∑ k : Fin 128, lhs (ix2 r k) * rhs (ix2 k l) :=
  Cert.RowColDot.matmul_rowcol dot_S4096x128_S128x128_S4096x128_1_0_0_1_n_n rfl rfl rfl rfl
    (fun j q => by simp [DotDims.lhsIdx, dot_S4096x128_S128x128_S4096x128_1_0_0_1_n_n]; rfl)
    (fun j q => by simp [DotDims.rhsIdx, dot_S4096x128_S128x128_S4096x128_1_0_0_1_n_n]; rfl)
    none lhs rhs (ix2 r l)

end Cert.KernelIdeal.Value

end
-- ==== Proof.KV.Pay13.lean ====
/-
  The per-tile row computation read at an index: for row `r` of the tile and lane `l`, the stage-2 product of the
  rectified fused pre-activation with the stage-2 weights. The pre-activation of lane `j` is the stage-1 product
  `m(r, j)` (noise against rows 0..63 of the fused weights plus cond against rows 64..127), plus `m(r, 10)` — the
  generator logit — times the rotated data row of the hidden layer, plus the data entry times the data row, plus the
  fused bias row.
-/
import proofs.«101381_g2000106107921261_pallasbulk_998_17_alg».proof.Proof.KV.Dot
import proofs.«101381_g2000106107921261_pallasbulk_998_17_alg».proof.Proof.Gen.KernelIdeal.Skeleton
import Idealize.ShloMosaic.Lib.Pipeline.Value
import Idealize.ShloMosaic.Lib.ValueLayout

noncomputable section

namespace Cert.KernelIdeal.Value

open Cert.KernelIdeal Cert.KernelIdeal.Gen Idealize.ShloMosaic Idealize.ShloMosaic.ValueIdx

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section
variable (v3 : FVec Ideal S4096x64 .bf16) (v5 : FVec Ideal S64x128 .bf16) (v7 : FVec Ideal S4096x64 .bf16)
  (v9 : FVec Ideal S64x128 .bf16) (v13 : FVec Ideal S1x128 .f32) (v18 : FVec Ideal S4096x1 .f32)
  (v19 v24 : FVec Ideal S1x128 .f32) (v30 : FVec Ideal S128x128 .bf16)

/-- Stage 1 at `(r, j)`: noise against the first 64 rows of the fused weights, cond against the last 64. -/
def stage1 (r : Fin 4096) (j : Fin 128) : EReal :=
  (∑ k : Fin 64, v3 (ix2 r k) * v5 (ix2 k j)) + ∑ k : Fin 64, v7 (ix2 r k) * v9 (ix2 k j)

/-- The rectified fused pre-activation at `(r, j)`. -/
def hidden (r : Fin 4096) (j : Fin 128) : EReal :=
  max (((stage1 v3 v5 v7 v9 r j + stage1 v3 v5 v7 v9 r 10 * v13 (ix2 0 j)) + v18 (ix2 r 0) * v19 (ix2 0 j))
    + v24 (ix2 0 j)) 0

/-- Stage 1 as a tile. -/
def stage1Vec : FVec Ideal S4096x128 .f32 :=
  addf (matmul (φ₁ := .bf16) (φ₂ := .bf16) dot_S4096x64_S64x128_S4096x128_1_0_0_1_n_n none (shapeCast S4096x64 v3 shapeCasts_S4096x64_S4096x64) v5
      (constant S4096x128 .f32 0x00000000#32))
    (matmul (φ₁ := .bf16) (φ₂ := .bf16) dot_S4096x64_S64x128_S4096x128_1_0_0_1_n_n none (shapeCast S4096x64 v7 shapeCasts_S4096x64_S4096x64) v9
      (constant S4096x128 .f32 0x00000000#32))

theorem stage1Vec_apply (r : Fin 4096) (j : Fin 128) : stage1Vec v3 v5 v7 v9 (ix2 r j) = stage1 v3 v5 v7 v9 r j := by
  unfold stage1Vec stage1
  rw [addf_apply, dot64_apply, dot64_apply, shapeCast_self, shapeCast_self]

/-- The rectified pre-activation as a tile. -/
def hiddenVec : FVec Ideal S4096x128 .f32 :=
  maximumf
    (addf
      (addf
        (addf (stage1Vec v3 v5 v7 v9)
          (mulf
            (broadcastTo S4096x128
              (extractStridedSlice S4096x1 ![0, 10] (stage1Vec v3 v5 v7 v9) slices_S4096x128_o0_10_S4096x1)
              broadcasts_S4096x1_S4096x128)
            (broadcastTo S4096x128 v13 broadcasts_S1x128_S4096x128)))
        (mulf (broadcastTo S4096x128 v18 broadcasts_S4096x1_S4096x128) (broadcastTo S4096x128 v19 broadcasts_S1x128_S4096x128)))
      (broadcastTo S4096x128 v24 broadcasts_S1x128_S4096x128))
    (broadcast S4096x128 (Scalar.ofBits .f32 0x00000000#32))

theorem hiddenVec_apply (r : Fin 4096) (j : Fin 128) :
    hiddenVec v3 v5 v7 v9 v13 v18 v19 v24 (ix2 r j) = hidden v3 v5 v7 v9 v13 v18 v19 v24 r j := by
  unfold hiddenVec hidden
  rw [maximumf_apply, addf_apply, addf_apply, addf_apply, mulf_apply, mulf_apply, broadcast_apply,
    broadcastTo_a1_ab_apply, broadcastTo_a1_ab_apply, broadcastTo_1b_ab_apply, broadcastTo_1b_ab_apply,
    broadcastTo_1b_ab_apply, slice2_axis1_apply 10 _ _ r (0 : Fin 1) (10 : Fin 128) rfl, stage1Vec_apply, stage1Vec_apply]
  show max _ (Ideal.ofBits .f32 0x00000000#32) = _
  rw [Ideal.ofBits_zero_f32]

theorem pay13_eq : k0_pay13 (F := Ideal) v3 v5 v7 v9 v13 v18 v19 v24 v30
    = matmul (φ₁ := .bf16) (φ₂ := .bf16) dot_S4096x128_S128x128_S4096x128_1_0_0_1_n_n none
        (truncf .bf16 (hiddenVec v3 v5 v7 v9 v13 v18 v19 v24) bitsLt_bf16_f32) v30 (constant S4096x128 .f32 0x00000000#32) :=
  rfl

/-- The stage-2 product at row `r`, lane `l`. -/
theorem pay13_apply (r : Fin 4096) (l : Fin 128) :
    k0_pay13 (F := Ideal) v3 v5 v7 v9 v13 v18 v19 v24 v30 (ix2 r l)
      = ∑ j : Fin 128, hidden v3 v5 v7 v9 v13 v18 v19 v24 r j * v30 (ix2 j l) := by
  rw [pay13_eq]
  refine (dot128_apply _ _ r l).trans (Finset.sum_congr rfl fun j _ => ?_)
  rw [truncf_apply, hiddenVec_apply]

end

end Cert.KernelIdeal.Value

end
-- ==== Proof.KV.Tile.lean ====
/-
  One tile of the kernel, as mathematics. When the tile's three input blocks hold rows 4096·t .. 4096·t + 4095 of noise,
  cond and data, and the scratch arrays hold the fused weights, the stage-2 weights and the four constant rows, the
  block the tile adds into the output is, in every one of its 8 rows, the tile's column sums of the per-row terms.
-/
import proofs.«101381_g2000106107921261_pallasbulk_998_17_alg».proof.Proof.KV.Pay1
import proofs.«101381_g2000106107921261_pallasbulk_998_17_alg».proof.Proof.KV.Pay13

noncomputable section

namespace Cert.KernelIdeal.Value

open Cert.KernelIdeal Cert.KernelIdeal.Gen Idealize.ShloMosaic Idealize.ShloMosaic.ValueIdx Cert.Spec

section
variable (N : Fin 32768 → Fin 64 → EReal) (d : Fin 32768 → EReal) (C : Fin 32768 → Fin 64 → EReal)
  (W : Fin 3 → Fin 128 → Fin 128 → EReal) (b : Fin 8 → Fin 128 → EReal) (t : Fin 8)
  (v3 : FVec Ideal S4096x64 .bf16) (v5 : FVec Ideal S64x128 .bf16) (v7 : FVec Ideal S4096x64 .bf16)
  (v9 : FVec Ideal S64x128 .bf16) (v13 : FVec Ideal S1x128 .f32) (v18 : FVec Ideal S4096x1 .f32)
  (v19 v24 : FVec Ideal S1x128 .f32) (v30 : FVec Ideal S128x128 .bf16) (v32 : FVec Ideal S1x128 .f32)

/-- What a tile's loads hold: its rows of the three batch arguments, and the scratch arrays' fused constants. -/
structure TileBlocks : Prop where
  noise : ∀ (r : Fin 4096) (k : Fin 64), v3 (ix2 r k) = N ⟨4096 * t.val + r.val, by omega⟩ k
  cond : ∀ (r : Fin 4096) (k : Fin 64), v7 (ix2 r k) = C ⟨4096 * t.val + r.val, by omega⟩ k
  data : ∀ r : Fin 4096, v18 (ix2 r (0 : Fin 1)) = d ⟨4096 * t.val + r.val, by omega⟩
  wfLo : ∀ (k : Fin 64) (j : Fin 128), v5 (ix2 k j) = wf W ⟨k.val, by omega⟩ j
  wfHi : ∀ (k : Fin 64) (j : Fin 128), v9 (ix2 k j) = wf W ⟨k.val + 64, by omega⟩ j
  row0 : ∀ l : Fin 128, v19 (ix2 (0 : Fin 1) l) = cs0 W l
  row1 : ∀ l : Fin 128, v13 (ix2 (0 : Fin 1) l) = cs1 W l
  row2 : ∀ l : Fin 128, v24 (ix2 (0 : Fin 1) l) = cs2 W b l
  row3 : ∀ l : Fin 128, v32 (ix2 (0 : Fin 1) l) = cs3 b l
  w2 : ∀ j l : Fin 128, v30 (ix2 j l) = w2p W j l

variable {N d C W b t v3 v5 v7 v9 v13 v18 v19 v24 v30 v32}

theorem TileBlocks.stage1 (H : TileBlocks N d C W b t v3 v5 v7 v9 v13 v18 v19 v24 v30 v32) (r : Fin 4096) (j : Fin 128) :
    stage1 v3 v5 v7 v9 r j = m1 N C W ⟨4096 * t.val + r.val, by omega⟩ j := by
  unfold Value.stage1 m1
  simp only [H.noise, H.cond, H.wfLo, H.wfHi]

theorem TileBlocks.hidden (H : TileBlocks N d C W b t v3 v5 v7 v9 v13 v18 v19 v24 v30 v32) (r : Fin 4096) (j : Fin 128) :
    hidden v3 v5 v7 v9 v13 v18 v19 v24 r j = hidK N d C W b ⟨4096 * t.val + r.val, by omega⟩ j := by
  unfold Value.hidden hidK
  rw [H.stage1, H.stage1, H.row0, H.row1, H.row2, H.data]

/-- The block a tile contributes, at any of its 8 rows: the tile's column sums. -/
theorem TileBlocks.part (H : TileBlocks N d C W b t v3 v5 v7 v9 v13 v18 v19 v24 v30 v32) (p : Fin 8) (l : Fin 128) :
    k0_pay1 (F := Ideal) (k0_pay13 (F := Ideal) v3 v5 v7 v9 v13 v18 v19 v24 v30) v32 (ix2 p l) = Spec.part N d C W b t l := by
  rw [pay1_apply]
  unfold Spec.part
  refine Finset.sum_congr rfl fun r _ => ?_
  have ho : k0_pay13 (F := Ideal) v3 v5 v7 v9 v13 v18 v19 v24 v30 (ix2 r l) + v32 (ix2 0 l)
      = logitK N d C W b ⟨4096 * t.val + r.val, by omega⟩ l := by
    rw [pay13_apply, H.row3]
    unfold logitK
    congr 1
    exact Finset.sum_congr rfl fun j _ => by rw [H.hidden, H.w2]
  rw [ho]
  rfl

end

end Cert.KernelIdeal.Value

end
-- ==== Proof.KV.PrepRot.lean ====
/-
  The 16-lane rotation as the programs write it: the last 16 lanes (or rows) of an array, then its first 112, laid end
  to end.  Read at an index this is the array at the rotated lane (row).
-/
import proofs.«101381_g2000106107921261_pallasbulk_998_17_alg».proof.Proof.Spec
import Idealize.ShloMosaic.Lib.ValueIdx
import Idealize.ShloMosaic.Lib.Pipeline.Value
import Idealize.ShloMosaic.Lib.ValueLayout

noncomputable section

namespace Cert.KernelIdeal.Value

open Idealize.ShloMosaic Idealize.ShloMosaic.ValueIdx

/-- A matrix cut along both axes reads, at `(j₀, j₁)`, the source at `(o₀ + j₀, o₁ + j₁)`. -/
theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (j0 : Fin m0) (j1 : Fin m1) (k0 : Fin n0) (k1 : Fin n1)
    (h0 : k0.val = o0 + j0.val) (h1 : k1.val = o1 + j1.val) :
    extractStridedSlice ⟨2, ![m0, m1]⟩ ![o0, o1] X h (ix2 j0 j1) = X (ix2 k0 k1) :=
  extractStridedSlice_apply _ _ _ _ _ (fun ax => by
    match ax with
    | ⟨0, _⟩ => exact h0
    | ⟨1, _⟩ => exact h1)

theorem rot_val_lt (l : Fin 128) (h : l.val < 16) : (Cert.Spec.rot l).val = 112 + l.val := by
  unfold Cert.Spec.rot; rw [dif_pos h]; show l.val + 112 = 112 + l.val; omega

theorem rot_val_ge (l : Fin 128) (h : ¬ l.val < 16) : (Cert.Spec.rot l).val = l.val - 16 := by
  unfold Cert.Spec.rot; rw [dif_neg h]

/-- Lanes 112..127 then lanes 0..111 of an `[a, 128]` array: at `(p, l)` the array at `(p, rot l)`. -/
theorem rotLanes_apply {α : Type} {a : ℕ} (X : (⟨2, ![a, 128]⟩ : Shape).Idx → α)
    (h1 : (⟨2, ![a, 128]⟩ : Shape).Slices ![0, 112] ⟨2, ![a, 16]⟩)
    (h2 : (⟨2, ![a, 128]⟩ : Shape).Slices ![0, 0] ⟨2, ![a, 112]⟩)
    (hc : Shape.Concatenates [(⟨2, ![a, 16]⟩ : Shape), ⟨2, ![a, 112]⟩] ⟨2, ![a, 128]⟩ 1)
    (p : Fin a) (l : Fin 128) :
    concatenate ⟨2, ![a, 128]⟩ 1
        [⟨⟨2, ![a, 16]⟩, extractStridedSlice ⟨2, ![a, 16]⟩ ![0, 112] X h1⟩,
         ⟨⟨2, ![a, 112]⟩, extractStridedSlice ⟨2, ![a, 112]⟩ ![0, 0] X h2⟩] hc (ix2 p l)
      = X (ix2 p (Cert.Spec.rot l)) := by
  by_cases hl : l.val < 16
  · rw [concatenate_pair_apply_left 1 _ _ hc (ix2 p l) rfl (ix2 p (⟨l.val, hl⟩ : Fin 16)) (fun b => by
      match b with
      | ⟨0, _⟩ => rfl
      | ⟨1, _⟩ => rfl)]
    exact slice2_axis1_apply 112 X h1 p ⟨l.val, hl⟩ (Cert.Spec.rot l) (rot_val_lt l hl)
  · have hl' : l.val - 16 < 112 := by have := l.isLt; omega
    rw [concatenate_pair_apply_right 1 _ _ hc (ix2 p l) rfl rfl (ix2 p (⟨l.val - 16, hl'⟩ : Fin 112)) (fun b hb => by
      match b with
      | ⟨0, _⟩ => rfl
      | ⟨1, _⟩ => exact absurd rfl hb) (by show l.val - 16 + 16 = l.val; omega)]
    exact slice2_axis1_apply 0 X h2 p ⟨l.val - 16, hl'⟩ (Cert.Spec.rot l) (by
      rw [rot_val_ge l hl]; show l.val - 16 = 0 + (l.val - 16); omega)

/-- Rows 112..127 then rows 0..111 of a `[128, b]` array: at `(j, c)` the array at `(rot j, c)`. -/
theorem rotRows_apply {α : Type} {b : ℕ} (X : (⟨2, ![128, b]⟩ : Shape).Idx → α)
    (h1 : (⟨2, ![128, b]⟩ : Shape).Slices ![112, 0] ⟨2, ![16, b]⟩)
    (h2 : (⟨2, ![128, b]⟩ : Shape).Slices ![0, 0] ⟨2, ![112, b]⟩)
    (hc : Shape.Concatenates [(⟨2, ![16, b]⟩ : Shape), ⟨2, ![112, b]⟩] ⟨2, ![128, b]⟩ 0)
    (j : Fin 128) (c : Fin b) :
    concatenate ⟨2, ![128, b]⟩ 0
        [⟨⟨2, ![16, b]⟩, extractStridedSlice ⟨2, ![16, b]⟩ ![112, 0] X h1⟩,
         ⟨⟨2, ![112, b]⟩, extractStridedSlice ⟨2, ![112, b]⟩ ![0, 0] X h2⟩] hc (ix2 j c)
      = X (ix2 (Cert.Spec.rot j) c) := by
  by_cases hl : j.val < 16
  · rw [concatenate_pair_apply_left 0 _ _ hc (ix2 j c) rfl (ix2 (⟨j.val, hl⟩ : Fin 16) c) (fun b => by
      match b with
      | ⟨0, _⟩ => rfl
      | ⟨1, _⟩ => rfl)]
    exact slice2_axis0_apply 112 X h1 ⟨j.val, hl⟩ c (Cert.Spec.rot j) (rot_val_lt j hl)
  · have hl' : j.val - 16 < 112 := by have := j.isLt; omega
    rw [concatenate_pair_apply_right 0 _ _ hc (ix2 j c) rfl rfl (ix2 (⟨j.val - 16, hl'⟩ : Fin 112) c) (fun b hb => by
      match b with
      | ⟨0, _⟩ => exact absurd rfl hb
      | ⟨1, _⟩ => rfl) (by show j.val - 16 + 16 = j.val; omega)]
    exact slice2_axis0_apply 0 X h2 ⟨j.val - 16, hl'⟩ c (Cert.Spec.rot j) (by
      rw [rot_val_ge j hl]; show j.val - 16 = 0 + (j.val - 16); omega)

end Cert.KernelIdeal.Value

end
-- ==== Proof.KV.PrepA.lean ====
/-
  The prep block's first payload — the fused stage-1 weights — read at an index.

  Rows 0..63 hold, in lane 10 only, column 0 of the generator's matrix (rows 0..63: the noise part); rows 64..127 hold
  rows 1..64 of the hidden layer's matrix plus the same rows rotated by 16 lanes, plus, in lane 10 only, column 0 of
  the generator's matrix (rows 64..127: the cond part).  The narrowing to bf16 is the identity on extended reals.
-/
import proofs.«101381_g2000106107921261_pallasbulk_998_17_alg».proof.Proof.KV.PrepRot
import proofs.«101381_g2000106107921261_pallasbulk_998_17_alg».proof.Proof.KV.Bits
import proofs.«101381_g2000106107921261_pallasbulk_998_17_alg».proof.Proof.KV.Pay13

noncomputable section

namespace Cert.KernelIdeal.Value

open Cert.KernelIdeal Cert.KernelIdeal.Gen Idealize.ShloMosaic Idealize.ShloMosaic.ValueIdx

/-- The three loaded layers as one function of layer, row and column. -/
def Wof (v60 v62 v64 : Vec Ideal S1x128x128 .f32) (a : Fin 3) (k l : Fin 128) : EReal :=
  match a with
  | 0 => v60 (ix3 0 k l)
  | 1 => v62 (ix3 0 k l)
  | 2 => v64 (ix3 0 k l)

/-- A loaded layer viewed as a matrix. -/
theorem layer_apply (v : Vec Ideal S1x128x128 .f32) (k l : Fin 128) :
    shapeCast S128x128 v shapeCasts_S1x128x128_S128x128 (ix2 k l) = v (ix3 0 k l) :=
  shapeCast_1ab_ab_apply v _ k l

theorem pay3_apply (v62 : Vec Ideal S1x128x128 .f32) (k l : Fin 128) :
    k0_pay3 (F := Ideal) v62 (ix2 k l) = v62 (ix3 0 k l) :=
  layer_apply v62 k l

section
variable (v60 v62 v64 : Vec Ideal S1x128x128 .f32)

/-- Rows 1..64 of the hidden layer's matrix. -/
def condRows : FVec Ideal S64x128 .f32 :=
  extractStridedSlice S64x128 ![1, 0] (k0_pay3 v62) slices_S128x128_o1_0_S64x128

theorem condRows_apply (i : Fin 64) (l : Fin 128) (k : Fin 128) (hk : k.val = i.val + 1) :
    condRows v62 (ix2 i l) = v62 (ix3 0 k l) := by
  unfold condRows
  rw [slice2_axis0_apply 1 _ _ i l k (by omega)]
  exact pay3_apply v62 k l

/-- The same rows rotated by 16 lanes. -/
def rotCond : FVec Ideal S64x128 .f32 :=
  concatenate S64x128 1
    [⟨S64x16, extractStridedSlice S64x16 ![0, 112] (condRows v62) slices_S64x128_o0_112_S64x16⟩,
     ⟨S64x112, extractStridedSlice S64x112 ![0, 0] (condRows v62) slices_S64x128_o0_0_S64x112⟩]
    concatenates_S64x16_S64x112_S64x128_d1

theorem rotCond_apply (i : Fin 64) (l : Fin 128) : rotCond v62 (ix2 i l) = condRows v62 (ix2 i (Cert.Spec.rot l)) :=
  rotLanes_apply (condRows v62) _ _ _ i l

/-- Column 0 of 64 rows of the generator's matrix, from row `o`, placed in lane 10. -/
def genCol (o : ℕ) (h : S128x128.Slices ![o, 0] S64x1) : FVec Ideal S64x128 .f32 :=
  select (cmpi .eq (iota .tc S64x128 32 [1] iota_S64x128_d1_w32) (broadcast S64x128 10#32))
    (broadcastTo S64x128
      (shapeCast S64x1
        (extractStridedSlice S64x1 ![o, 0] (shapeCast S128x128 v60 shapeCasts_S1x128x128_S128x128) h)
        shapeCasts_S64x1_S64x1)
      broadcasts_S64x1_S64x128)
    (broadcast S64x128 (Scalar.ofBits .f32 0x00000000#32))

theorem genCol_apply (o : ℕ) (h : S128x128.Slices ![o, 0] S64x1) (i : Fin 64) (l : Fin 128) (k : Fin 128)
    (hk : k.val = o + i.val) :
    genCol v60 o h (ix2 i l) = if l.val = 10 then v60 (ix3 0 k 0) else 0 := by
  unfold genCol
  rw [select_iota_eq .tc iota_S64x128_d1_w32 10 (by norm_num) _ _ i l, broadcastTo_a1_ab_apply, shapeCast_self,
    slice2_apply o 0 _ h i (0 : Fin 1) k (0 : Fin 128) hk rfl, layer_apply, broadcast_apply]
  show (if l.val = 10 then _ else Ideal.ofBits .f32 0x00000000#32) = _
  rw [Ideal.ofBits_zero_f32]

/-- The fused stage-1 weights before narrowing. -/
def pay4Vec : FVec Ideal S128x128 .f32 :=
  concatenate S128x128 0
    [⟨S64x128, genCol v60 0 slices_S128x128_o0_0_S64x1⟩,
     ⟨S64x128, addf (addf (condRows v62) (rotCond v62)) (genCol v60 64 slices_S128x128_o64_0_S64x1)⟩]
    concatenates_S64x128_S64x128_S128x128_d0

theorem pay4_eq : k0_pay4 (F := Ideal) v60 v62
    = shapeCast S128x128 (truncf .bf16 (pay4Vec v60 v62) bitsLt_bf16_f32) shapeCasts_S128x128_S128x128 :=
  rfl

/-- The fused stage-1 weights at row `k`, lane `l`. -/
theorem pay4_apply (k l : Fin 128) :
    k0_pay4 (F := Ideal) v60 v62 (ix2 k l) = Cert.Spec.wf (Wof v60 v62 v64) k l := by
  rw [pay4_eq, shapeCast_self, truncf_apply]
  unfold pay4Vec Cert.Spec.wf
  by_cases hk : k.val < 64
  · rw [dif_pos hk, concatenate_pair_apply_left (s₁ := S64x128) (s₂ := S64x128) 0 _ _ _ (ix2 k l) rfl (ix2 (⟨k.val, hk⟩ : Fin 64) l) (fun b => by
      match b with
      | ⟨0, _⟩ => rfl
      | ⟨1, _⟩ => rfl),
      genCol_apply v60 0 _ ⟨k.val, hk⟩ l k (by show k.val = 0 + k.val; omega)]
    rfl
  · have hk' : k.val - 64 < 64 := by have := k.isLt; omega
    rw [dif_neg hk, concatenate_pair_apply_right (s₁ := S64x128) (s₂ := S64x128) 0 _ _ _ (ix2 k l) rfl rfl (ix2 (⟨k.val - 64, hk'⟩ : Fin 64) l)
      (fun b hb => by
        match b with
        | ⟨0, _⟩ => exact absurd rfl hb
        | ⟨1, _⟩ => rfl) (by show k.val - 64 + 64 = k.val; omega),
      addf_apply, addf_apply, rotCond_apply,
      condRows_apply v62 ⟨k.val - 64, hk'⟩ l ⟨k.val - 63, by omega⟩ (by show k.val - 63 = k.val - 64 + 1; omega),
      condRows_apply v62 ⟨k.val - 64, hk'⟩ (Cert.Spec.rot l) ⟨k.val - 63, by omega⟩
        (by show k.val - 63 = k.val - 64 + 1; omega),
      genCol_apply v60 64 _ ⟨k.val - 64, hk'⟩ l k (by show k.val = 64 + (k.val - 64); omega)]
    rfl

end

end Cert.KernelIdeal.Value

end
-- ==== Proof.KV.PrepB.lean ====
/-
  The prep block's second payload — the stage-2 weights — read at an index.

  Lane 1 holds column 0 of the output layer's matrix; lanes 0 and 2 hold the same column with its rows rotated by 16;
  every other lane is zero.  The narrowing to bf16 is the identity on extended reals.
-/
import proofs.«101381_g2000106107921261_pallasbulk_998_17_alg».proof.Proof.KV.PrepA

noncomputable section

namespace Cert.KernelIdeal.Value

open Cert.KernelIdeal Cert.KernelIdeal.Gen Idealize.ShloMosaic Idealize.ShloMosaic.ValueIdx

section
variable (v60 v62 v64 : Vec Ideal S1x128x128 .f32)

/-- Column 0 of the output layer's matrix, as a `[128, 1]` array. -/
theorem pay5_apply (j : Fin 128) : k0_pay5 (F := Ideal) v64 (ix2 j (0 : Fin 1)) = v64 (ix3 0 j 0) := by
  show extractStridedSlice S128x1 ![0, 0] (shapeCast S128x128 v64 shapeCasts_S1x128x128_S128x128)
    slices_S128x128_o0_0_S128x1 (ix2 j (0 : Fin 1)) = _
  rw [slice2_axis1_apply 0 _ _ j (0 : Fin 1) (0 : Fin 128) rfl, layer_apply]

/-- The same column with its rows rotated by 16. -/
theorem pay6_apply (j : Fin 128) :
    k0_pay6 (F := Ideal) v64 (ix2 j (0 : Fin 1)) = v64 (ix3 0 (Cert.Spec.rot j) 0) := by
  show concatenate S128x1 0
    [⟨S16x1, extractStridedSlice S16x1 ![112, 0] (k0_pay5 v64) slices_S128x1_o112_0_S16x1⟩,
     ⟨S112x1, extractStridedSlice S112x1 ![0, 0] (k0_pay5 v64) slices_S128x1_o0_0_S112x1⟩]
    concatenates_S16x1_S112x1_S128x1_d0 (ix2 j (0 : Fin 1)) = _
  rw [rotRows_apply (k0_pay5 v64) _ _ _ j (0 : Fin 1), pay5_apply]

/-- The column broadcast over the lanes. -/
theorem pay8_apply (j l : Fin 128) : k0_pay8 (F := Ideal) v64 (ix2 j l) = v64 (ix3 0 j 0) := by
  show broadcastTo S128x128 (shapeCast S128x1 (k0_pay5 v64) shapeCasts_S128x1_S128x1) broadcasts_S128x1_S128x128
    (ix2 j l) = _
  rw [broadcastTo_a1_ab_apply, shapeCast_self, pay5_apply]

/-- The rotated column broadcast over the lanes. -/
def rotColB : FVec Ideal S128x128 .f32 :=
  broadcastTo S128x128 (shapeCast S128x1 (k0_pay6 v64) shapeCasts_S128x1_S128x1) broadcasts_S128x1_S128x128

theorem rotColB_apply (j l : Fin 128) : rotColB v64 (ix2 j l) = v64 (ix3 0 (Cert.Spec.rot j) 0) := by
  unfold rotColB
  rw [broadcastTo_a1_ab_apply, shapeCast_self, pay6_apply]

/-- An array kept in lane `k` only. -/
def laneSel (k : ℕ) (A : FVec Ideal S128x128 .f32) : FVec Ideal S128x128 .f32 :=
  select (cmpi .eq (iota .tc S128x128 32 [1] iota_S128x128_d1_w32) (broadcast S128x128 (BitVec.ofNat 32 k))) A
    (broadcast S128x128 (Scalar.ofBits .f32 0x00000000#32))

theorem laneSel_apply (k : ℕ) (hk : k < 128) (A : FVec Ideal S128x128 .f32) (j l : Fin 128) :
    laneSel k A (ix2 j l) = if l.val = k then A (ix2 j l) else 0 := by
  unfold laneSel
  rw [select_iota_eq .tc iota_S128x128_d1_w32 k hk _ _ j l, broadcast_apply]
  show (if l.val = k then _ else Ideal.ofBits .f32 0x00000000#32) = _
  rw [Ideal.ofBits_zero_f32]

/-- The stage-2 weights before narrowing. -/
def pay10Vec : FVec Ideal S128x128 .f32 :=
  addf (addf (laneSel 1 (k0_pay8 v64)) (laneSel 0 (rotColB v64))) (laneSel 2 (rotColB v64))

theorem pay10_eq :
    k0_pay10 (F := Ideal) (iota .tc S128x128 32 [1] iota_S128x128_d1_w32) (k0_pay6 v64) k0_pay7 (k0_pay8 v64)
        (k0_pay9 (F := Ideal))
      = shapeCast S128x128 (truncf .bf16 (pay10Vec v64) bitsLt_bf16_f32) shapeCasts_S128x128_S128x128 :=
  rfl

/-- The stage-2 weights at row `j`, lane `l`. -/
theorem pay10_apply (j l : Fin 128) :
    k0_pay10 (F := Ideal) (iota .tc S128x128 32 [1] iota_S128x128_d1_w32) (k0_pay6 v64) k0_pay7 (k0_pay8 v64)
        (k0_pay9 (F := Ideal)) (ix2 j l)
      = Cert.Spec.w2p (Wof v60 v62 v64) j l := by
  rw [pay10_eq, shapeCast_self, truncf_apply]
  unfold pay10Vec Cert.Spec.w2p
  rw [addf_apply, addf_apply, laneSel_apply 1 (by norm_num), laneSel_apply 0 (by norm_num),
    laneSel_apply 2 (by norm_num), pay8_apply, rotColB_apply]
  rfl

end

end Cert.KernelIdeal.Value

end
-- ==== Proof.KV.PrepC.lean ====
/-
  The prep block's third payload — the row constants — read at an index.

  Row 0 is the hidden layer's data row, row 1 that row rotated by 16 lanes, row 2 the fused hidden bias (the bias row
  plus its rotation plus the generator's bias times the rotated data row), row 3 the output bias in lanes 0..2, and
  rows 4..7 are zero.
-/
import proofs.«101381_g2000106107921261_pallasbulk_998_17_alg».proof.Proof.KV.PrepA

noncomputable section

namespace Cert.KernelIdeal.Value

open Cert.KernelIdeal Cert.KernelIdeal.Gen Idealize.ShloMosaic Idealize.ShloMosaic.ValueIdx

section
variable (v60 v62 v64 : Vec Ideal S1x128x128 .f32) (v126 : Vec Ideal S1x128 .f32) (v130 v131 : Vec Ideal S1x1 .f32)

/-- Row 0 of the hidden layer's matrix: the data row. -/
def dataRow : FVec Ideal S1x128 .f32 :=
  extractStridedSlice S1x128 ![0, 0] (k0_pay3 v62) slices_S128x128_o0_0_S1x128

theorem dataRow_apply (l : Fin 128) : dataRow v62 (ix2 (0 : Fin 1) l) = v62 (ix3 0 0 l) := by
  unfold dataRow
  rw [slice2_axis0_apply 0 _ _ (0 : Fin 1) l (0 : Fin 128) rfl, pay3_apply]

/-- A row rotated by 16 lanes. -/
def rotRow (X : FVec Ideal S1x128 .f32) : FVec Ideal S1x128 .f32 :=
  concatenate S1x128 1
    [⟨S1x16, extractStridedSlice S1x16 ![0, 112] X slices_S1x128_o0_112_S1x16⟩,
     ⟨S1x112, extractStridedSlice S1x112 ![0, 0] X slices_S1x128_o0_0_S1x112⟩]
    concatenates_S1x16_S1x112_S1x128_d1

theorem rotRow_apply (X : FVec Ideal S1x128 .f32) (l : Fin 128) :
    rotRow X (ix2 (0 : Fin 1) l) = X (ix2 (0 : Fin 1) (Cert.Spec.rot l)) :=
  rotLanes_apply X _ _ _ 0 l

/-- The fused hidden bias row. -/
def biasRow : FVec Ideal S1x128 .f32 :=
  addf (addf v126 (rotRow v126)) (mulf (broadcastTo S1x128 v130 broadcasts_S1x1_S1x128) (rotRow (dataRow v62)))

theorem biasRow_apply (l : Fin 128) :
    biasRow v62 v126 v130 (ix2 (0 : Fin 1) l)
      = (v126 (ix2 0 l) + v126 (ix2 0 (Cert.Spec.rot l))) + v130 (ix2 0 0) * v62 (ix3 0 0 (Cert.Spec.rot l)) := by
  unfold biasRow
  rw [addf_apply, addf_apply, mulf_apply, rotRow_apply, rotRow_apply, dataRow_apply, broadcastTo_a1_ab_apply]

/-- The output bias in lanes 0..2. -/
def outBiasRow : FVec Ideal S1x128 .f32 :=
  select (cmpi .slt (iota .tc S1x128 32 [1] iota_S1x128_d1_w32) (broadcast S1x128 3#32))
    (broadcastTo S1x128 (shapeCast S1x1 v131 shapeCasts_S1x1_S1x1) broadcasts_S1x1_S1x128)
    (broadcast S1x128 (Scalar.ofBits .f32 0x00000000#32))

theorem outBiasRow_apply (l : Fin 128) :
    outBiasRow v131 (ix2 (0 : Fin 1) l) = if l.val < 3 then v131 (ix2 0 0) else 0 := by
  unfold outBiasRow
  rw [select_apply]
  show Scalar.select (IntOp.cmpi .slt (iota .tc S1x128 32 [1] iota_S1x128_d1_w32 (ix2 (0 : Fin 1) l)) 3#32) _ _ = _
  rw [iota_single_apply]
  refine (select_lane_lt_three l.val l.isLt _ _).trans ?_
  rw [broadcastTo_a1_ab_apply, shapeCast_self, broadcast_apply]
  show (if l.val < 3 then _ else Ideal.ofBits .f32 0x00000000#32) = _
  rw [Ideal.ofBits_zero_f32]

/-- The pieces: four single rows and four rows of zeros. -/
def pay11Rows : List ((s : Shape) × (s.Idx → Ideal .f32)) :=
  [⟨S1x128, dataRow v62⟩, ⟨S1x128, rotRow (dataRow v62)⟩, ⟨S1x128, biasRow v62 v126 v130⟩,
   ⟨S1x128, outBiasRow v131⟩, ⟨S4x128, broadcast S4x128 (Scalar.ofBits .f32 0x00000000#32)⟩]

/-- The eight rows laid end to end. -/
def pay11Vec : FVec Ideal S8x128 .f32 :=
  concatenate S8x128 0 (pay11Rows v62 v126 v130 v131) concatenates_S1x128_S1x128_S1x128_S1x128_S4x128_S8x128_d0

theorem pay12_eq : k0_pay12 (F := Ideal) (k0_pay11 (k0_pay3 v62) v126 v130 v131)
    = shapeCast S8x128 (pay11Vec v62 v126 v130 v131) shapeCasts_S8x128_S8x128 :=
  rfl

theorem pay11Vec_row0 (l : Fin 128) : pay11Vec v62 v126 v130 v131 (ix2 (0 : Fin 8) l) = dataRow v62 (ix2 (0 : Fin 1) l) :=
  concatenate_apply_piece (t := S8x128) 0 (pay11Rows v62 v126 v130 v131)
    concatenates_S1x128_S1x128_S1x128_S1x128_S4x128_S8x128_d0 (ix2 (0 : Fin 8) l)
    0 (by show 0 < 5; omega) S1x128 (dataRow v62) rfl rfl 0 rfl (ix2 (0 : Fin 1) l)
    (fun b hb => by
      match b with
      | ⟨0, _⟩ => exact absurd rfl hb
      | ⟨1, _⟩ => rfl) rfl

theorem pay11Vec_row1 (l : Fin 128) :
    pay11Vec v62 v126 v130 v131 (ix2 (1 : Fin 8) l) = rotRow (dataRow v62) (ix2 (0 : Fin 1) l) :=
  concatenate_apply_piece (t := S8x128) 0 (pay11Rows v62 v126 v130 v131)
    concatenates_S1x128_S1x128_S1x128_S1x128_S4x128_S8x128_d0 (ix2 (1 : Fin 8) l)
    1 (by show 1 < 5; omega) S1x128 (rotRow (dataRow v62)) rfl rfl 1 rfl (ix2 (0 : Fin 1) l)
    (fun b hb => by
      match b with
      | ⟨0, _⟩ => exact absurd rfl hb
      | ⟨1, _⟩ => rfl) rfl

theorem pay11Vec_row2 (l : Fin 128) :
    pay11Vec v62 v126 v130 v131 (ix2 (2 : Fin 8) l) = biasRow v62 v126 v130 (ix2 (0 : Fin 1) l) :=
  concatenate_apply_piece (t := S8x128) 0 (pay11Rows v62 v126 v130 v131)
    concatenates_S1x128_S1x128_S1x128_S1x128_S4x128_S8x128_d0 (ix2 (2 : Fin 8) l)
    2 (by show 2 < 5; omega) S1x128 (biasRow v62 v126 v130) rfl rfl 2 rfl (ix2 (0 : Fin 1) l)
    (fun b hb => by
      match b with
      | ⟨0, _⟩ => exact absurd rfl hb
      | ⟨1, _⟩ => rfl) rfl

theorem pay11Vec_row3 (l : Fin 128) :
    pay11Vec v62 v126 v130 v131 (ix2 (3 : Fin 8) l) = outBiasRow v131 (ix2 (0 : Fin 1) l) :=
  concatenate_apply_piece (t := S8x128) 0 (pay11Rows v62 v126 v130 v131)
    concatenates_S1x128_S1x128_S1x128_S1x128_S4x128_S8x128_d0 (ix2 (3 : Fin 8) l)
    3 (by show 3 < 5; omega) S1x128 (outBiasRow v131) rfl rfl 3 rfl (ix2 (0 : Fin 1) l)
    (fun b hb => by
      match b with
      | ⟨0, _⟩ => exact absurd rfl hb
      | ⟨1, _⟩ => rfl) rfl

theorem pay11Vec_rest (p : Fin 8) (hp : 4 ≤ p.val) (l : Fin 128) :
    pay11Vec v62 v126 v130 v131 (ix2 p l) = 0 := by
  have hp' : p.val - 4 < 4 := by have := p.isLt; omega
  have := concatenate_apply_piece (t := S8x128) 0 (pay11Rows v62 v126 v130 v131)
    concatenates_S1x128_S1x128_S1x128_S1x128_S4x128_S8x128_d0 (ix2 p l)
    4 (by show 4 < 5; omega) S4x128 (broadcast S4x128 (Scalar.ofBits (F := Ideal) .f32 0x00000000#32)) rfl rfl 4 rfl
    (ix2 (⟨p.val - 4, hp'⟩ : Fin 4) l)
    (fun b hb => by
      match b with
      | ⟨0, _⟩ => exact absurd rfl hb
      | ⟨1, _⟩ => rfl) (by show 4 + (p.val - 4) = p.val; omega)
  refine this.trans ?_
  rw [broadcast_apply]
  exact Ideal.ofBits_zero_f32

/-! ## The rows against the index-level constants -/

theorem pay12_row0 (l : Fin 128) :
    k0_pay12 (F := Ideal) (k0_pay11 (k0_pay3 v62) v126 v130 v131) (ix2 (0 : Fin 8) l)
      = Cert.Spec.cs0 (Wof v60 v62 v64) l := by
  rw [pay12_eq, shapeCast_self, pay11Vec_row0, dataRow_apply]
  rfl

theorem pay12_row1 (l : Fin 128) :
    k0_pay12 (F := Ideal) (k0_pay11 (k0_pay3 v62) v126 v130 v131) (ix2 (1 : Fin 8) l)
      = Cert.Spec.cs1 (Wof v60 v62 v64) l := by
  rw [pay12_eq, shapeCast_self, pay11Vec_row1, rotRow_apply, dataRow_apply]
  rfl

theorem pay12_row2 (b : Fin 8 → Fin 128 → EReal) (hb1 : ∀ l, b 1 l = v126 (ix2 0 l)) (hb0 : b 0 0 = v130 (ix2 0 0))
    (l : Fin 128) :
    k0_pay12 (F := Ideal) (k0_pay11 (k0_pay3 v62) v126 v130 v131) (ix2 (2 : Fin 8) l)
      = Cert.Spec.cs2 (Wof v60 v62 v64) b l := by
  rw [pay12_eq, shapeCast_self, pay11Vec_row2, biasRow_apply]
  unfold Cert.Spec.cs2
  rw [hb1, hb1, hb0]
  rfl

theorem pay12_row3 (b : Fin 8 → Fin 128 → EReal) (hb2 : b 2 0 = v131 (ix2 0 0)) (l : Fin 128) :
    k0_pay12 (F := Ideal) (k0_pay11 (k0_pay3 v62) v126 v130 v131) (ix2 (3 : Fin 8) l) = Cert.Spec.cs3 b l := by
  rw [pay12_eq, shapeCast_self, pay11Vec_row3, outBiasRow_apply]
  unfold Cert.Spec.cs3
  rw [hb2]

theorem pay12_rest (p : Fin 8) (hp : 4 ≤ p.val) (l : Fin 128) :
    k0_pay12 (F := Ideal) (k0_pay11 (k0_pay3 v62) v126 v130 v131) (ix2 p l) = 0 := by
  rw [pay12_eq, shapeCast_self, pay11Vec_rest _ _ _ _ p hp]

end

end Cert.KernelIdeal.Value

end
-- ==== Proof.KV.Prep.lean ====
/-
  The prep block's payloads read at an index: the fused stage-1 weights, the stage-2 weights and the row constants
  are, entry by entry, the index-level `wf`, `w2p` and `cs0` … `cs3` of the loaded layers and biases.  The three
  parts are in the imported modules.
-/
import proofs.«101381_g2000106107921261_pallasbulk_998_17_alg».proof.Proof.KV.PrepA
import proofs.«101381_g2000106107921261_pallasbulk_998_17_alg».proof.Proof.KV.PrepB
import proofs.«101381_g2000106107921261_pallasbulk_998_17_alg».proof.Proof.KV.PrepC
-- ==== Proof.KV.Point.lean ====
/-
  One grid point of the kernel against the specification. The scratch arrays the prep step writes from the packed
  layers are the fused weights, the stage-2 weights and the four constant rows; read back through the tile's loads and
  combined with the tile's rows of noise, cond and data they give the tile's column sums.
-/
import proofs.«101381_g2000106107921261_pallasbulk_998_17_alg».proof.Proof.KV.Tile
import proofs.«101381_g2000106107921261_pallasbulk_998_17_alg».proof.Proof.KV.Prep
import proofs.«101381_g2000106107921261_pallasbulk_998_17_alg».proof.Proof.KI.Value

noncomputable section

namespace Cert.KernelIdeal.Value

open Cert.KernelIdeal Cert.KernelIdeal.Gen Idealize.ShloMosaic Idealize.ShloMosaic.ValueIdx Cert.Spec

section
variable (W3 : Vec Ideal S3x128x128 .f32) (B8 : Vec Ideal S8x128 .f32)
  (s0 : Vec Ideal S128x128 .bf16) (s2 : Vec Ideal S8x128 .f32)

/-! ## The body's loads of slices, read at an index -/

theorem ld_layer0 (k l : Fin 128) :
    View.ld W3 (Rect.unit (s := S3x128x128) ![0, 0, 0] S1x128x128.size inb_S3x128x128_S1x128x128_0_0_0) (ix3 (0 : Fin 1) k l)
      = W3 (ix3 (0 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_layer1 (k l : Fin 128) :
    View.ld W3 (Rect.unit (s := S3x128x128) ![1, 0, 0] S1x128x128.size inb_S3x128x128_S1x128x128_1_0_0) (ix3 (0 : Fin 1) k l)
      = W3 (ix3 (1 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_layer2 (k l : Fin 128) :
    View.ld W3 (Rect.unit (s := S3x128x128) ![2, 0, 0] S1x128x128.size inb_S3x128x128_S1x128x128_2_0_0) (ix3 (0 : Fin 1) k l)
      = W3 (ix3 (2 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_bias1 (l : Fin 128) :
    View.ld B8 (Rect.unit (s := S8x128) ![1, 0] S1x128.size inb_S8x128_S1x128_1_0) (ix2 (0 : Fin 1) l) = B8 (ix2 (1 : Fin 8) l) :=
  congrArg B8 (funext fun a => Fin.ext (by
    match a with
    | ⟨0, _⟩ => rfl
    | ⟨1, _⟩ => show 0 + 1 * l.val = l.val; omega))

theorem ld_bias00 :
    View.ld B8 (Rect.unit (s := S8x128) ![0, 0] S1x1.size inb_S8x128_S1x1_0_0) (ix2 (0 : Fin 1) (0 : Fin 1)) = B8 (ix2 (0 : Fin 8) (0 : Fin 128)) :=
  congrArg B8 (funext fun a => Fin.ext (by
    match a with
    | ⟨0, _⟩ => rfl
    | ⟨1, _⟩ => rfl))

theorem ld_bias20 :
    View.ld B8 (Rect.unit (s := S8x128) ![2, 0] S1x1.size inb_S8x128_S1x1_2_0) (ix2 (0 : Fin 1) (0 : Fin 1)) = B8 (ix2 (2 : Fin 8) (0 : Fin 128)) :=
  congrArg B8 (funext fun a => Fin.ext (by
    match a with
    | ⟨0, _⟩ => rfl
    | ⟨1, _⟩ => rfl))

theorem ld_top (k : Fin 64) (j : Fin 128) :
    View.ld s0 (Rect.unit (s := S128x128) ![0, 0] S64x128.size inb_S128x128_S64x128_0_0) (ix2 k j) = s0 (ix2 (⟨k.val, by omega⟩ : Fin 128) j) :=
  congrArg s0 (funext fun a => Fin.ext (by
    match a with
    | ⟨0, _⟩ => show 0 + 1 * k.val = k.val; omega
    | ⟨1, _⟩ => show 0 + 1 * j.val = j.val; omega))

theorem ld_bot (k : Fin 64) (j : Fin 128) :
    View.ld s0 (Rect.unit (s := S128x128) ![64, 0] S64x128.size inb_S128x128_S64x128_64_0) (ix2 k j) = s0 (ix2 (⟨k.val + 64, by omega⟩ : Fin 128) j) :=
  congrArg s0 (funext fun a => Fin.ext (by
    match a with
    | ⟨0, _⟩ => show 64 + 1 * k.val = k.val + 64; omega
    | ⟨1, _⟩ => show 0 + 1 * j.val = j.val; omega))

theorem ld_row0 (l : Fin 128) :
    View.ld s2 (Rect.unit (s := S8x128) ![0, 0] S1x128.size inb_S8x128_S1x128_0_0) (ix2 (0 : Fin 1) l) = s2 (ix2 (0 : Fin 8) l) :=
  congrArg s2 (funext fun a => Fin.ext (by
    match a with
    | ⟨0, _⟩ => rfl
    | ⟨1, _⟩ => show 0 + 1 * l.val = l.val; omega))

theorem ld_row1 (l : Fin 128) :
    View.ld s2 (Rect.unit (s := S8x128) ![1, 0] S1x128.size inb_S8x128_S1x128_1_0) (ix2 (0 : Fin 1) l) = s2 (ix2 (1 : Fin 8) l) :=
  congrArg s2 (funext fun a => Fin.ext (by
    match a with
    | ⟨0, _⟩ => rfl
    | ⟨1, _⟩ => show 0 + 1 * l.val = l.val; omega))

theorem ld_row2 (l : Fin 128) :
    View.ld s2 (Rect.unit (s := S8x128) ![2, 0] S1x128.size inb_S8x128_S1x128_2_0) (ix2 (0 : Fin 1) l) = s2 (ix2 (2 : Fin 8) l) :=
  congrArg s2 (funext fun a => Fin.ext (by
    match a with
    | ⟨0, _⟩ => rfl
    | ⟨1, _⟩ => show 0 + 1 * l.val = l.val; omega))

theorem ld_row3 (l : Fin 128) :
    View.ld s2 (Rect.unit (s := S8x128) ![3, 0] S1x128.size inb_S8x128_S1x128_3_0) (ix2 (0 : Fin 1) l) = s2 (ix2 (3 : Fin 8) l) :=
  congrArg s2 (funext fun a => Fin.ext (by
    match a with
    | ⟨0, _⟩ => rfl
    | ⟨1, _⟩ => show 0 + 1 * l.val = l.val; omega))

end

section
variable (N : Fin 32768 → Fin 64 → EReal) (d : Fin 32768 → EReal) (C : Fin 32768 → Fin 64 → EReal)
  (W : Fin 3 → Fin 128 → Fin 128 → EReal) (b : Fin 8 → Fin 128 → EReal) (t : Fin 8)
  (x0 x1 : Vec Ideal S4096x64 .bf16) (x2 : Vec Ideal S4096x1 .f32) (W3 : Vec Ideal S3x128x128 .f32) (B8 : Vec Ideal S8x128 .f32)

/-- The three loaded layers are the packed weights' three matrices. -/
theorem Wof_ld (hW : ∀ (a : Fin 3) (k l : Fin 128), W3 (ix3 a k l) = W a k l) :
    Wof (View.ld W3 (Rect.unit (s := S3x128x128) ![0, 0, 0] S1x128x128.size inb_S3x128x128_S1x128x128_0_0_0))
      (View.ld W3 (Rect.unit (s := S3x128x128) ![1, 0, 0] S1x128x128.size inb_S3x128x128_S1x128x128_1_0_0))
      (View.ld W3 (Rect.unit (s := S3x128x128) ![2, 0, 0] S1x128x128.size inb_S3x128x128_S1x128x128_2_0_0)) = W := by
  funext a k l
  match a with
  | ⟨0, _⟩ => exact (ld_layer0 W3 k l).trans (hW 0 k l)
  | ⟨1, _⟩ => exact (ld_layer1 W3 k l).trans (hW 1 k l)
  | ⟨2, _⟩ => exact (ld_layer2 W3 k l).trans (hW 2 k l)

/-- A grid point's contribution, at any of the block's 8 rows: the tile's column sums of the specification. -/
theorem part_eq
    (h0 : ∀ (r : Fin 4096) (k : Fin 64), x0 (ix2 r k) = N ⟨4096 * t.val + r.val, by omega⟩ k)
    (h1 : ∀ (r : Fin 4096) (k : Fin 64), x1 (ix2 r k) = C ⟨4096 * t.val + r.val, by omega⟩ k)
    (h2 : ∀ r : Fin 4096, x2 (ix2 r (0 : Fin 1)) = d ⟨4096 * t.val + r.val, by omega⟩)
    (hW : ∀ (a : Fin 3) (k l : Fin 128), W3 (ix3 a k l) = W a k l) (hb : ∀ (a : Fin 8) (l : Fin 128), B8 (ix2 a l) = b a l)
    (p : Fin 8) (l : Fin 128) :
    Hand.part (F := Ideal) x0 x1 x2 (Hand.scr0 W3) (Hand.scr1 W3) (Hand.scr2 W3 B8) (ix2 p l) = Spec.part N d C W b t l := by
  have hWof := Wof_ld W W3 hW
  have hb1 : ∀ l, b 1 l = View.ld B8 (Rect.unit (s := S8x128) ![1, 0] S1x128.size inb_S8x128_S1x128_1_0) (ix2 0 l) :=
    fun l => ((ld_bias1 B8 l).trans (hb 1 l)).symm
  have hb0 : b 0 0 = View.ld B8 (Rect.unit (s := S8x128) ![0, 0] S1x1.size inb_S8x128_S1x1_0_0) (ix2 0 0) :=
    ((ld_bias00 B8).trans (hb 0 0)).symm
  have hb2 : b 2 0 = View.ld B8 (Rect.unit (s := S8x128) ![2, 0] S1x1.size inb_S8x128_S1x1_2_0) (ix2 0 0) :=
    ((ld_bias20 B8).trans (hb 2 0)).symm
  unfold Hand.part Hand.logits
  refine TileBlocks.part (N := N) (d := d) (C := C) (W := W) (b := b) (t := t) ⟨h0, h1, h2, ?_, ?_, ?_, ?_, ?_, ?_, ?_⟩ p l
  · intro k j
    rw [ld_top]
    unfold Hand.scr0
    rw [pay4_apply _ _ (View.ld W3 (Rect.unit (s := S3x128x128) ![2, 0, 0] S1x128x128.size inb_S3x128x128_S1x128x128_2_0_0)), hWof]
  · intro k j
    rw [ld_bot]
    unfold Hand.scr0
    rw [pay4_apply _ _ (View.ld W3 (Rect.unit (s := S3x128x128) ![2, 0, 0] S1x128x128.size inb_S3x128x128_S1x128x128_2_0_0)), hWof]
  · intro l
    rw [ld_row0]
    unfold Hand.scr2
    rw [pay12_row0 (View.ld W3 (Rect.unit (s := S3x128x128) ![0, 0, 0] S1x128x128.size inb_S3x128x128_S1x128x128_0_0_0)) _
      (View.ld W3 (Rect.unit (s := S3x128x128) ![2, 0, 0] S1x128x128.size inb_S3x128x128_S1x128x128_2_0_0)), hWof]
  · intro l
    rw [ld_row1]
    unfold Hand.scr2
    rw [pay12_row1 (View.ld W3 (Rect.unit (s := S3x128x128) ![0, 0, 0] S1x128x128.size inb_S3x128x128_S1x128x128_0_0_0)) _
      (View.ld W3 (Rect.unit (s := S3x128x128) ![2, 0, 0] S1x128x128.size inb_S3x128x128_S1x128x128_2_0_0)), hWof]
  · intro l
    rw [ld_row2]
    unfold Hand.scr2
    rw [pay12_row2 (View.ld W3 (Rect.unit (s := S3x128x128) ![0, 0, 0] S1x128x128.size inb_S3x128x128_S1x128x128_0_0_0)) _
      (View.ld W3 (Rect.unit (s := S3x128x128) ![2, 0, 0] S1x128x128.size inb_S3x128x128_S1x128x128_2_0_0)) _ _ _ b hb1 hb0, hWof]
  · intro l
    rw [ld_row3]
    unfold Hand.scr2
    rw [pay12_row3 _ _ _ _ b hb2]
  · intro j l
    unfold Hand.scr1
    rw [pay10_apply (View.ld W3 (Rect.unit (s := S3x128x128) ![0, 0, 0] S1x128x128.size inb_S3x128x128_S1x128x128_0_0_0))
      (View.ld W3 (Rect.unit (s := S3x128x128) ![1, 0, 0] S1x128x128.size inb_S3x128x128_S1x128x128_1_0_0)), hWof]

end

end Cert.KernelIdeal.Value

end
-- ==== Proof.KV.Blocks.lean ====
/-
  The kernel's blocks read at an index. Grid point t (of 8, row-major over the 2 × 4 grid) stages rows
  4096·t .. 4096·t + 4095 of noise, cond and data — noise and cond through the host's change of format, which at the
  extended reals is the identity — and the packed weights and biases whole.
-/
import proofs.«101381_g2000106107921261_pallasbulk_998_17_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Value

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The staged noise array is the noise argument (the host's change of format is the identity). -/
theorem V_v0 (c : Dev nD) : (V m c main_v0 : S32768x64.Idx → EReal) = m ((c : Thread nD τ).loc main_arg0) := by
  show StableHlo.after hostOps0 (fun b => m (c, b)) (Proc.devRef .tc main_v0) = _
  after_results
  rfl

/-- The staged cond array is the cond argument. -/
theorem V_v1 (c : Dev nD) : (V m c main_v1 : S32768x64.Idx → EReal) = m ((c : Thread nD τ).loc main_arg2) := by
  show StableHlo.after hostOps0 (fun b => m (c, b)) (Proc.devRef .tc main_v1) = _
  after_results
  rfl

/-- Where the batch windows' blocks sit: block index t on the rows, 0 on the columns; the weights' and biases' at 0. -/
theorem idx_facts : ∀ t : Fin cfg0.N,
    win0_0.index t 0 = t.val ∧ win0_0.index t 1 = 0 ∧ win0_1.index t 0 = t.val ∧ win0_1.index t 1 = 0
    ∧ win0_2.index t 0 = t.val ∧ win0_2.index t 1 = 0
    ∧ win0_3.index t 0 = 0 ∧ win0_3.index t 1 = 0 ∧ win0_3.index t 2 = 0 ∧ win0_4.index t 0 = 0 ∧ win0_4.index t 1 = 0 :=
  (by decide +kernel : ∀ t : Fin grid0.N, _)

/-- The noise block of point t. -/
theorem iblk0_apply (c : Dev nD) (t : Fin cfg0.N) (r : Fin 4096) (k : Fin 64) (R : Fin 32768) (hR : R.val = 4096 * t.val + r.val) :
    (iblk m c 0 t : Vec Ideal S4096x64 .bf16) (ix2 r k) = m ((c : Thread nD τ).loc main_arg0) (ix2 R k) := by
  have hi := idx_facts t
  rw [← V_v0 m c]
  unfold iblk
  rw [View.read_apply]
  show V m c main_v0 _ = V m c main_v0 _
  congr 1
  funext a
  apply Fin.ext
  match a with
  | ⟨0, _⟩ => show win0_0.index t 0 * 4096 + 1 * r.val = R.val; rw [hi.1]; omega
  | ⟨1, _⟩ => show win0_0.index t 1 * 64 + 1 * k.val = k.val; rw [hi.2.1]; omega

/-- The cond block of point t. -/
theorem iblk1_apply (c : Dev nD) (t : Fin cfg0.N) (r : Fin 4096) (k : Fin 64) (R : Fin 32768) (hR : R.val = 4096 * t.val + r.val) :
    (iblk m c 1 t : Vec Ideal S4096x64 .bf16) (ix2 r k) = m ((c : Thread nD τ).loc main_arg2) (ix2 R k) := by
  have hi := idx_facts t
  rw [← V_v1 m c]
  unfold iblk
  rw [View.read_apply]
  show V m c main_v1 _ = V m c main_v1 _
  congr 1
  funext a
  apply Fin.ext
  match a with
  | ⟨0, _⟩ => show win0_1.index t 0 * 4096 + 1 * r.val = R.val; rw [hi.2.2.1]; omega
  | ⟨1, _⟩ => show win0_1.index t 1 * 64 + 1 * k.val = k.val; rw [hi.2.2.2.1]; omega

/-- The data block of point t. -/
theorem iblk2_apply (c : Dev nD) (t : Fin cfg0.N) (r : Fin 4096) (u : Fin 1) (R : Fin 32768) (hR : R.val = 4096 * t.val + r.val) :
    (iblk m c 2 t : Vec Ideal S4096x1 .f32) (ix2 r u) = m ((c : Thread nD τ).loc main_arg1) (ix2 R u) := by
  have hi := idx_facts t
  rw [← V_main_arg1 m c]
  unfold iblk
  rw [View.read_apply]
  show V m c main_arg1 _ = V m c main_arg1 _
  congr 1
  funext a
  apply Fin.ext
  match a with
  | ⟨0, _⟩ => show win0_2.index t 0 * 4096 + 1 * r.val = R.val; rw [hi.2.2.2.2.1]; omega
  | ⟨1, _⟩ => show win0_2.index t 1 * 1 + 1 * u.val = u.val; rw [hi.2.2.2.2.2.1]; omega

/-- The packed weights are staged whole at every point. -/
theorem iblk3_whole (c : Dev nD) (t : Fin cfg0.N) :
    (iblk m c 3 t : Vec Ideal S3x128x128 .f32) = m ((c : Thread nD τ).loc main_arg3) := by
  have hi := idx_facts t
  rw [← V_main_arg3 m c]
  funext j
  unfold iblk
  rw [View.read_apply]
  show V m c main_arg3 _ = V m c main_arg3 _
  congr 1
  funext a
  apply Fin.ext
  match a with
  | ⟨0, _⟩ => show win0_3.index t 0 * 3 + 1 * (j 0).val = (j 0).val; rw [hi.2.2.2.2.2.2.1]; omega
  | ⟨1, _⟩ => show win0_3.index t 1 * 128 + 1 * (j 1).val = (j 1).val; rw [hi.2.2.2.2.2.2.2.1]; omega
  | ⟨2, _⟩ => show win0_3.index t 2 * 128 + 1 * (j 2).val = (j 2).val; rw [hi.2.2.2.2.2.2.2.2.1]; omega

/-- The packed biases are staged whole at every point. -/
theorem iblk4_whole (c : Dev nD) (t : Fin cfg0.N) :
    (iblk m c 4 t : Vec Ideal S8x128 .f32) = m ((c : Thread nD τ).loc main_arg4) := by
  have hi := idx_facts t
  rw [← V_main_arg4 m c]
  funext j
  unfold iblk
  rw [View.read_apply]
  show V m c main_arg4 _ = V m c main_arg4 _
  congr 1
  funext a
  apply Fin.ext
  match a with
  | ⟨0, _⟩ => show win0_4.index t 0 * 8 + 1 * (j 0).val = (j 0).val; rw [hi.2.2.2.2.2.2.2.2.2.1]; omega
  | ⟨1, _⟩ => show win0_4.index t 1 * 128 + 1 * (j 1).val = (j 1).val; rw [hi.2.2.2.2.2.2.2.2.2.2]; omega

end Cert.KernelIdeal.Value

end
-- ==== Proof.KI.OutSpec.lean ====
/-
  The output array after the region against the specification. Each point's three input blocks are its 4096 rows of
  noise, cond and data, and the weight and bias blocks are the packed arrays whole; so each point's partial column sum
  is its tile's term of the specification, and rows 8·i .. 8·i + 7 of the output array are the specification's row i.
-/
import proofs.«101381_g2000106107921261_pallasbulk_998_17_alg».proof.Proof.KI.OutRow
import proofs.«101381_g2000106107921261_pallasbulk_998_17_alg».proof.Proof.KV.Point
import proofs.«101381_g2000106107921261_pallasbulk_998_17_alg».proof.Proof.KV.Blocks
import proofs.«101381_g2000106107921261_pallasbulk_998_17_alg».proof.Proof.RefArgs

noncomputable section

namespace Cert.KernelIdeal.Hand

open Cert.KernelIdeal Cert.KernelIdeal.Gen Idealize.ShloMosaic Idealize.ShloMosaic.TcCoe Idealize.SL.Sem
open Idealize.ShloMosaic.ValueIdx Cert.ReferenceIdeal.Hand

variable (m : (ℓ : Loc nD τ sig) → Buf (Elt Ideal) ℓ)

/-- The partial column sum of the tile at point `t` is the specification's term of tile `t`, over the argument arrays
    read by their coordinates. -/
theorem partAt_spec (c : Dev nD) (t : Fin cfg0.N) (p : Fin 8) (l : Fin 128) :
    partAt m c t (ix2 p l)
      = Cert.Spec.part (argMat (m ((c : Thread nD τ).loc main_arg0))) (argCol (m ((c : Thread nD τ).loc main_arg1)))
          (argMat (m ((c : Thread nD τ).loc main_arg2))) (argCube (m ((c : Thread nD τ).loc main_arg3)))
          (argMat (m ((c : Thread nD τ).loc main_arg4))) ⟨t.val, pt8 t⟩ l := by
  unfold partAt scrAt0 scrAt1 scrAt2
  rw [Cert.KernelIdeal.Value.iblk3_whole m c (rowStart t), Cert.KernelIdeal.Value.iblk4_whole m c (rowStart t)]
  exact Cert.KernelIdeal.Value.part_eq _ _ _ _ _ ⟨t.val, pt8 t⟩ (iblk m c 0 t) (iblk m c 1 t) (iblk m c 2 t)
    (m ((c : Thread nD τ).loc main_arg3)) (m ((c : Thread nD τ).loc main_arg4))
    (fun r k => Cert.KernelIdeal.Value.iblk0_apply m c t r k ⟨4096 * t.val + r.val, by have := pt8 t; omega⟩ rfl)
    (fun r k => Cert.KernelIdeal.Value.iblk1_apply m c t r k ⟨4096 * t.val + r.val, by have := pt8 t; omega⟩ rfl)
    (fun r => Cert.KernelIdeal.Value.iblk2_apply m c t r 0 ⟨4096 * t.val + r.val, by have := pt8 t; omega⟩ rfl)
    (fun a k l => rfl) (fun a l => rfl) p l

/-- Row 8·i + p of the output array after the region, lane l, is the specification's row i at lane l. -/
theorem outArr_spec (c : Dev nD) (i : Fin 2) (p : Fin 8) (l : Fin 128) (q : Fin 16) (hq : q.val = 8 * i.val + p.val) :
    (outArr m c : Vec Ideal S16x128 .f32) (ix2 q l)
      = Cert.Spec.outRow (argMat (m ((c : Thread nD τ).loc main_arg0))) (argCol (m ((c : Thread nD τ).loc main_arg1)))
          (argMat (m ((c : Thread nD τ).loc main_arg2))) (argCube (m ((c : Thread nD τ).loc main_arg3)))
          (argMat (m ((c : Thread nD τ).loc main_arg4))) i l :=
  outArr_outRow m _ _ _ _ _ c (partAt_spec m c) i p l q hq

/-- Rows 0 and 8 of the output array added, lane by lane: the specification's two halves added. -/
theorem outArr_acc (c : Dev nD) (l : Fin 128) (O : S16x128.Idx → EReal) (hO : O = outArr m c) :
    O (ix2 (0 : Fin 16) l) + O (ix2 (8 : Fin 16) l)
      = Cert.Spec.acc (argMat (m ((c : Thread nD τ).loc main_arg0))) (argCol (m ((c : Thread nD τ).loc main_arg1)))
          (argMat (m ((c : Thread nD τ).loc main_arg2))) (argCube (m ((c : Thread nD τ).loc main_arg3)))
          (argMat (m ((c : Thread nD τ).loc main_arg4))) l := by
  subst hO
  have e0 := outArr_spec m c 0 0 l 0 (by decide)
  have e8 := outArr_spec m c 1 0 l 8 (by decide)
  unfold Cert.Spec.acc
  exact congrArg₂ (· + ·) e0 e8

end Cert.KernelIdeal.Hand

end
-- ==== Proof.RefReads.lean ====
/-
  Readings at an index that belong to no program.

  * The one-bit word of a signed comparison "at least", and of an equality, between two small naturals written as
    32-bit words, is the bit of the comparison of the naturals; a select on such a bit is an if-then-else.
  * Two matrices placed side by side, read at `(r, l)`: the left one where `l` is below its width, else the right one
    at `l` less that width. Two matrices stacked, read at `(R, l)`: the same along the rows.
  * A matrix padded with columns on the right, read at `(r, l)`: the matrix where `l` is below its width, else the
    padding value.
-/
import Idealize.ShloMosaic.Lib.ValueIdx
import Idealize.ShloMosaic.Lib.Pipeline.Value
import Idealize.ShloMosaic.Lib.KernelVsHost
import Idealize.ShloMosaic.Lib.Affine

noncomputable section

namespace Cert.ReferenceIdeal.Hand

open Idealize.ShloMosaic Idealize.ShloMosaic.ValueIdx

/-! ## Comparisons of small naturals as words -/

/-- A natural below 2³¹ written as a 32-bit word reads back, signed, as itself. -/
theorem toInt_ofNat_small (n : ℕ) (hn : n < 2 ^ 31) : (BitVec.ofNat 32 n).toInt = (n : ℤ) := by
  have e := BitVec.toInt_eq_toNat_cond (BitVec.ofNat 32 n)
  have t : (BitVec.ofNat 32 n).toNat = n := by
    rw [BitVec.toNat_ofNat]; exact Nat.mod_eq_of_lt (by omega)
  rw [t] at e
  rw [e, if_pos (by omega)]

/-- "At least", signed, on two such words: the bit of `k ≤ n`. -/
theorem sge_ofNat (n k : ℕ) (hn : n < 2 ^ 31) (hk : k < 2 ^ 31) :
    IntOp.cmpi .sge (BitVec.ofNat 32 n) (BitVec.ofNat 32 k) = if k ≤ n then 1#1 else 0#1 := by
  by_cases h : k ≤ n
  · rw [if_pos h]
    exact IntOp.cmpi_sge.mpr (by rw [toInt_ofNat_small n hn, toInt_ofNat_small k hk]; exact_mod_cast h)
  · rw [if_neg h]
    refine eq_zero_of_ne_one fun e => h ?_
    have := IntOp.cmpi_sge.mp e
    rw [toInt_ofNat_small n hn, toInt_ofNat_small k hk] at this
    exact_mod_cast this

/-- Equality of two such words: the bit of `n = k`. -/
theorem eq_ofNat (n k : ℕ) (hn : n < 2 ^ 32) (hk : k < 2 ^ 32) :
    IntOp.cmpi .eq (BitVec.ofNat 32 n) (BitVec.ofNat 32 k) = if n = k then 1#1 else 0#1 := by
  by_cases h : n = k
  · rw [if_pos h]; exact IntOp.cmpi_eq.mpr (by rw [h])
  · rw [if_neg h]
    refine eq_zero_of_ne_one fun e => h ?_
    have := congrArg BitVec.toNat (IntOp.cmpi_eq.mp e)
    rw [BitVec.toNat_ofNat, BitVec.toNat_ofNat, Nat.mod_eq_of_lt hn, Nat.mod_eq_of_lt hk] at this
    exact this

/-- A select on the bit of a decidable proposition is the if-then-else. -/
theorem select_ite {α : Type} (p : Prop) [Decidable p] (x y : α) :
    Scalar.select (if p then 1#1 else 0#1) x y = if p then x else y := by
  by_cases h : p
  · rw [if_pos h, if_pos h]; exact select_one x y
  · rw [if_neg h, if_neg h]; exact select_zero x y

/-! ## Two matrices side by side, two matrices stacked -/

variable {α : Type}

/-- Side by side: at `(r, l)` the left matrix where `l` is below its width, else the right one at `l` less that width. -/
theorem concat_cols_apply {a n1 n2 n : ℕ} (hn : n = n1 + n2)
    (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ 1) (r : Fin a) (l : Fin n) :
    concatenate ⟨2, ![a, n]⟩ 1 [⟨⟨2, ![a, n1]⟩, x1⟩, ⟨⟨2, ![a, n2]⟩, x2⟩] h (ix2 r l)
      = if hl : l.val < n1 then x1 (ix2 r ⟨l.val, hl⟩) else x2 (ix2 r ⟨l.val - n1, by omega⟩) := by
  by_cases hl : l.val < n1
  · rw [dif_pos hl]
    exact concatenate_pair_apply_left (1 : Fin 2) x1 x2 h (ix2 r l) rfl (ix2 r ⟨l.val, hl⟩) (fun b => by
      match b with
      | ⟨0, _⟩ => rfl
      | ⟨1, _⟩ => rfl)
  · rw [dif_neg hl]
    exact concatenate_pair_apply_right (1 : Fin 2) x1 x2 h (ix2 r l) rfl rfl (ix2 r ⟨l.val - n1, by omega⟩)
      (fun b hb => by
        match b with
        | ⟨0, _⟩ => rfl
        | ⟨1, _⟩ => exact absurd rfl hb)
      (by show (l.val - n1) + n1 = l.val; omega)

/-- Stacked: at `(R, l)` the upper matrix where `R` is below its height, else the lower one at `R` less that height. -/
theorem concat_rows_apply {a1 a2 a n : ℕ} (ha : a = a1 + a2)
    (x1 : (⟨2, ![a1, n]⟩ : Shape).Idx → α) (x2 : (⟨2, ![a2, n]⟩ : Shape).Idx → α)
    (h : Shape.Concatenates [(⟨2, ![a1, n]⟩ : Shape), ⟨2, ![a2, n]⟩] ⟨2, ![a, n]⟩ 0) (R : Fin a) (l : Fin n) :
    concatenate ⟨2, ![a, n]⟩ 0 [⟨⟨2, ![a1, n]⟩, x1⟩, ⟨⟨2, ![a2, n]⟩, x2⟩] h (ix2 R l)
      = if hR : R.val < a1 then x1 (ix2 ⟨R.val, hR⟩ l) else x2 (ix2 ⟨R.val - a1, by omega⟩ l) := by
  by_cases hR : R.val < a1
  · rw [dif_pos hR]
    exact concatenate_pair_apply_left (0 : Fin 2) x1 x2 h (ix2 R l) rfl (ix2 ⟨R.val, hR⟩ l) (fun b => by
      match b with
      | ⟨0, _⟩ => rfl
      | ⟨1, _⟩ => rfl)
  · rw [dif_neg hR]
    exact concatenate_pair_apply_right (0 : Fin 2) x1 x2 h (ix2 R l) rfl rfl (ix2 ⟨R.val - a1, by omega⟩ l)
      (fun b hb => by
        match b with
        | ⟨0, _⟩ => exact absurd rfl hb
        | ⟨1, _⟩ => rfl)
      (by show (R.val - a1) + a1 = R.val; omega)

/-! ## Columns appended on the right -/

/-- Padded on the right with `e` columns: at `(r, l)` the matrix where `l` is below its width, else the padding value. -/
theorem pad_cols_right_apply {a n n' e : ℕ} (x : (⟨2, ![a, n]⟩ : Shape).Idx → α) {u : Shape} (v : u.Idx → α)
    (h : (⟨2, ![a, n]⟩ : Shape).Pads (![0, 0] : Fin 2 → Nat) ![0, e] ![0, 0] ⟨2, ![a, n']⟩) (hu : 0 < u.numel)
    (r : Fin a) (l : Fin n') :
    pad ⟨2, ![a, n']⟩ ![0, 0] ![0, e] ![0, 0] x v h hu (ix2 r l)
      = if hl : l.val < n then x (ix2 r ⟨l.val, hl⟩) else v (Shape.Idx.first hu) := by
  by_cases hl : l.val < n
  · rw [dif_pos hl]
    exact pad_apply_of_inside _ _ _ x v h hu _ (ix2 r ⟨l.val, hl⟩) fun ax => by
      match ax with
      | ⟨0, _⟩ => show r.val = 0 + r.val * (0 + 1); omega
      | ⟨1, _⟩ => show l.val = 0 + l.val * (0 + 1); omega
  · rw [dif_neg hl]
    refine pad_apply_of_not_inside _ _ _ x v h hu _ (1 : Fin 2) fun hin => hl ?_
    have h3 := hin.2.2
    have e1 : ((ix2 r l : (⟨2, ![a, n']⟩ : Shape).Idx) ((1 : Fin 2).cast h.1)).val = l.val := rfl
    have e2 : (![0, 0] : Fin 2 → Nat) (1 : Fin 2) = 0 := rfl
    have e3 : (⟨2, ![a, n]⟩ : Shape).size (1 : Fin 2) = n := rfl
    rw [e1, e2, e3] at h3
    simpa using h3

end Cert.ReferenceIdeal.Hand

end
-- ==== Proof.RefMasks.lean ====
/-
  A select whose condition compares a coordinate with a constant, read at an index.

  On a matrix, an iota along the columns (or the rows) compared with a constant word, signed "at least" or equality,
  chooses at `(r, l)` by the comparison of the column `l` (or the row `r`) with that constant as a natural number.
-/
import Idealize.ShloMosaic.Lib.ValueIdx
import Idealize.ShloMosaic.Lib.Pipeline.Value
import proofs.«101381_g2000106107921261_pallasbulk_998_17_alg».proof.Proof.RefReads

noncomputable section

namespace Cert.ReferenceIdeal.Hand

open Idealize.ShloMosaic Idealize.ShloMosaic.ValueIdx

variable {α : Type} {a n : ℕ}

/-- Columns at or past `k` take the first operand. -/
theorem select_sge_lane (hn : n ≤ 2 ^ 31) (k : ℕ) (hk : k < 2 ^ 31)
    (hι : (⟨2, ![a, n]⟩ : Shape).Iotas .tc 32 [1]) (x y : (⟨2, ![a, n]⟩ : Shape).Idx → α) (r : Fin a) (l : Fin n) :
    select (cmpi .sge (iota .tc ⟨2, ![a, n]⟩ 32 [1] hι) (broadcast ⟨2, ![a, n]⟩ (BitVec.ofNat 32 k))) x y (ix2 r l)
      = if k ≤ l.val then x (ix2 r l) else y (ix2 r l) := by
  have e : cmpi .sge (iota .tc ⟨2, ![a, n]⟩ 32 [1] hι) (broadcast ⟨2, ![a, n]⟩ (BitVec.ofNat 32 k)) (ix2 r l)
      = if k ≤ l.val then 1#1 else 0#1 := by
    show IntOp.cmpi .sge (iota .tc ⟨2, ![a, n]⟩ 32 [1] hι (ix2 r l)) (BitVec.ofNat 32 k) = _
    rw [iota_single_apply]
    exact sge_ofNat l.val k (by have := l.isLt; omega) hk
  rw [select_apply, e, select_ite]

/-- Rows at or past `k` take the first operand. -/
theorem select_sge_row (ha : a ≤ 2 ^ 31) (k : ℕ) (hk : k < 2 ^ 31)
    (hι : (⟨2, ![a, n]⟩ : Shape).Iotas .tc 32 [0]) (x y : (⟨2, ![a, n]⟩ : Shape).Idx → α) (r : Fin a) (l : Fin n) :
    select (cmpi .sge (iota .tc ⟨2, ![a, n]⟩ 32 [0] hι) (broadcast ⟨2, ![a, n]⟩ (BitVec.ofNat 32 k))) x y (ix2 r l)
      = if k ≤ r.val then x (ix2 r l) else y (ix2 r l) := by
  have e : cmpi .sge (iota .tc ⟨2, ![a, n]⟩ 32 [0] hι) (broadcast ⟨2, ![a, n]⟩ (BitVec.ofNat 32 k)) (ix2 r l)
      = if k ≤ r.val then 1#1 else 0#1 := by
    show IntOp.cmpi .sge (iota .tc ⟨2, ![a, n]⟩ 32 [0] hι (ix2 r l)) (BitVec.ofNat 32 k) = _
    rw [iota_single_apply]
    exact sge_ofNat r.val k (by have := r.isLt; omega) hk
  rw [select_apply, e, select_ite]

/-- Column `k` takes the first operand. -/
theorem select_eq_lane (hn : n ≤ 2 ^ 32) (k : ℕ) (hk : k < 2 ^ 32)
    (hι : (⟨2, ![a, n]⟩ : Shape).Iotas .tc 32 [1]) (x y : (⟨2, ![a, n]⟩ : Shape).Idx → α) (r : Fin a) (l : Fin n) :
    select (cmpi .eq (iota .tc ⟨2, ![a, n]⟩ 32 [1] hι) (broadcast ⟨2, ![a, n]⟩ (BitVec.ofNat 32 k))) x y (ix2 r l)
      = if l.val = k then x (ix2 r l) else y (ix2 r l) := by
  have e : cmpi .eq (iota .tc ⟨2, ![a, n]⟩ 32 [1] hι) (broadcast ⟨2, ![a, n]⟩ (BitVec.ofNat 32 k)) (ix2 r l)
      = if l.val = k then 1#1 else 0#1 := by
    show IntOp.cmpi .eq (iota .tc ⟨2, ![a, n]⟩ 32 [1] hι (ix2 r l)) (BitVec.ofNat 32 k) = _
    rw [iota_single_apply]
    exact eq_ofNat l.val k (by have := l.isLt; omega) hk
  rw [select_apply, e, select_ite]

end Cert.ReferenceIdeal.Hand

end
-- ==== Proof.RefDot.lean ====
/-
  The reference's two matrix products, read at an index: a 32768 × 128 (the generator) or a 65536 × 128 (the two
  discriminator layers) matrix times a 128 × 128 matrix into the zero accumulator is, at `(r, l)`, the sum over
  `k` of the left operand's `(r, k)` times the right operand's `(k, l)`.
-/
import proofs.«101381_g2000106107921261_pallasbulk_998_17_alg».proof.Proof.Gen.ReferenceIdeal
import proofs.«101381_g2000106107921261_pallasbulk_998_17_alg».proof.Proof.LibRowColDot

noncomputable section

namespace Cert.ReferenceIdeal.Hand

open Cert.ReferenceIdeal Cert.ReferenceIdeal.Gen Idealize.ShloMosaic Idealize.ShloMosaic.ValueIdx

/-- The generator's product at `(r, l)`. -/
theorem dotHalf_apply (lhs : FVec Ideal S32768x128 .f32) (rhs : FVec Ideal S128x128 .f32) (r : Fin 32768) (l : Fin 128) :
    matmul dot_S32768x128_S128x128_S32768x128_1_0_0_1_n_n none lhs rhs (constant S32768x128 .f32 0x00000000#32) (ix2 r l)
      = ∑ k : Fin 128, lhs (ix2 r k) * rhs (ix2 k l) :=
  Cert.RowColDot.matmul_rowcol dot_S32768x128_S128x128_S32768x128_1_0_0_1_n_n rfl rfl rfl rfl
    (fun j q => by simp [DotDims.lhsIdx, dot_S32768x128_S128x128_S32768x128_1_0_0_1_n_n]; rfl)
    (fun j q => by simp [DotDims.rhsIdx, dot_S32768x128_S128x128_S32768x128_1_0_0_1_n_n]; rfl)
    none lhs rhs (ix2 r l)

/-- A discriminator layer's product at `(R, l)`. -/
theorem dotAll_apply (lhs : FVec Ideal S65536x128 .f32) (rhs : FVec Ideal S128x128 .f32) (R : Fin 65536) (l : Fin 128) :
    matmul dot_S65536x128_S128x128_S65536x128_1_0_0_1_n_n none lhs rhs (constant S65536x128 .f32 0x00000000#32) (ix2 R l)
      = ∑ k : Fin 128, lhs (ix2 R k) * rhs (ix2 k l) :=
  Cert.RowColDot.matmul_rowcol dot_S65536x128_S128x128_S65536x128_1_0_0_1_n_n rfl rfl rfl rfl
    (fun j q => by simp [DotDims.lhsIdx, dot_S65536x128_S128x128_S65536x128_1_0_0_1_n_n]; rfl)
    (fun j q => by simp [DotDims.rhsIdx, dot_S65536x128_S128x128_S65536x128_1_0_0_1_n_n]; rfl)
    none lhs rhs (ix2 R l)

end Cert.ReferenceIdeal.Hand

end
-- ==== Proof.RefBody.lean ====
/-
  The reference's kernel body, read at an index.

  The body computes, from the stacked input's two halves, the three weight matrices and the three bias rows: the
  generator's rows, the stacked discriminator input, the hidden layer, the logits, the per-row terms routed to lanes 0
  and 1, and the negated, scaled column sums. Each stage is named here as the vector the body computes (the body's
  payloads are these terms: `pay2_eq`, `pay3_eq`, `pay1_eq`), and read at an index as the corresponding function of
  `Spec`, under the hypotheses `Blocks` that say what the loaded blocks hold.
-/
import proofs.«101381_g2000106107921261_pallasbulk_998_17_alg».proof.Proof.Gen.ReferenceIdeal.Skeleton
import proofs.«101381_g2000106107921261_pallasbulk_998_17_alg».proof.Proof.Spec
import proofs.«101381_g2000106107921261_pallasbulk_998_17_alg».proof.Proof.RefReads
import proofs.«101381_g2000106107921261_pallasbulk_998_17_alg».proof.Proof.RefMasks
import proofs.«101381_g2000106107921261_pallasbulk_998_17_alg».proof.Proof.RefDot
import proofs.«101381_g2000106107921261_pallasbulk_998_17_alg».proof.Proof.LibColumnReads
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx

/-- The zero word is the extended real zero. -/
theorem zeroW : (FloatOps.ofBits (F := Ideal) .f32 0x00000000#32 : EReal) = 0 := Ideal.ofBits_zero_f32

section Stages

variable (v0 v2 : Vec Ideal S32768x128 .f32) (v4 v6 v8 : Vec Ideal S1x128x128 .f32) (v10 v11 v12 : Vec Ideal S1x128 .f32)

/-- The generator's rows: the generator input times the generator matrix, plus its bias row. -/
def genV : FVec Ideal S32768x128 .f32 :=
  addf (matmul dot_S32768x128_S128x128_S32768x128_1_0_0_1_n_n none (shapeCast S32768x128 v2 shapeCasts_S32768x128_S32768x128 : FVec Ideal S32768x128 .f32)
      (shapeCast S128x128 v4 shapeCasts_S1x128x128_S128x128 : FVec Ideal S128x128 .f32) (constant S32768x128 .f32 0x00000000#32))
    (broadcastTo S32768x128 v10 broadcasts_S1x128_S32768x128)

/-- The real rows with lane 0 (the data) cleared. -/
def condV : FVec Ideal S32768x128 .f32 :=
  select (cmpi .sge (iota .tc S32768x128 32 [1] iota_S32768x128_d1_w32) (broadcast S32768x128 1#32))
    (shapeCast S32768x128 v0 shapeCasts_S32768x128_S32768x128 : FVec Ideal S32768x128 .f32) (broadcast S32768x128 (FloatOps.ofBits (F := Ideal) .f32 0x00000000#32))

/-- The stacked discriminator input: the real rows over the generated rows. -/
def xV : FVec Ideal S65536x128 .f32 :=
  concatenate S65536x128 0 [⟨S32768x128, (shapeCast S32768x128 v0 shapeCasts_S32768x128_S32768x128 : FVec Ideal S32768x128 .f32)⟩,
    ⟨S32768x128, addf (genV v2 v4 v10) (condV v0)⟩] concatenates_S32768x128_S32768x128_S65536x128_d0

/-- The hidden layer with its ReLU. -/
def hidV : FVec Ideal S65536x128 .f32 :=
  maximumf (addf (matmul dot_S65536x128_S128x128_S65536x128_1_0_0_1_n_n none (xV v0 v2 v4 v10)
      (shapeCast S128x128 v6 shapeCasts_S1x128x128_S128x128 : FVec Ideal S128x128 .f32) (constant S65536x128 .f32 0x00000000#32))
    (broadcastTo S65536x128 v11 broadcasts_S1x128_S65536x128)) (broadcast S65536x128 (FloatOps.ofBits (F := Ideal) .f32 0x00000000#32))

/-- The logits. -/
def logitV : FVec Ideal S65536x128 .f32 :=
  addf (matmul dot_S65536x128_S128x128_S65536x128_1_0_0_1_n_n none (hidV v0 v2 v4 v6 v10 v11)
      (shapeCast S128x128 v8 shapeCasts_S1x128x128_S128x128 : FVec Ideal S128x128 .f32) (constant S65536x128 .f32 0x00000000#32))
    (broadcastTo S65536x128 v12 broadcasts_S1x128_S65536x128)

/-- The body's logits payload is that term. -/
theorem pay2_eq : k0_pay2 v0 v2 v4 v6 v8 v10 v11 v12 = logitV v0 v2 v4 v6 v8 v10 v11 v12 := rfl

/-- Its clamped-logits payload is the minimum of that term with zero. -/
theorem pay3_eq : k0_pay3 v0 v2 v4 v6 v8 v10 v11 v12
    = minimumf (logitV v0 v2 v4 v6 v8 v10 v11 v12) (broadcast S65536x128 (FloatOps.ofBits (F := Ideal) .f32 0x00000000#32)) := rfl

end Stages

section Tail

variable (o mo : FVec Ideal S65536x128 .f32)

/-- log σ of the logits, from the logits `o` and their minimum with zero `mo`. -/
def lsV : FVec Ideal S65536x128 .f32 :=
  subf mo (log (addf (broadcast S65536x128 (FloatOps.ofBits (F := Ideal) .f32 0x3F800000#32))
    (exp (subf (broadcast S65536x128 (FloatOps.ofBits (F := Ideal) .f32 0x00000000#32)) (absf o)))))

/-- The per-row terms, routed to lanes 0 and 1. -/
def termV : FVec Ideal S65536x128 .f32 :=
  select (cmpi .eq (iota .tc S65536x128 32 [1] iota_S65536x128_d1_w32) (broadcast S65536x128 0#32))
    (select (cmpi .sge (iota .tc S65536x128 32 [0] iota_S65536x128_d0_w32) (broadcast S65536x128 32768#32))
      (lsV o mo) (broadcast S65536x128 (FloatOps.ofBits (F := Ideal) .f32 0x00000000#32)))
    (select (cmpi .eq (iota .tc S65536x128 32 [1] iota_S65536x128_d1_w32) (broadcast S65536x128 1#32))
      (select (cmpi .sge (iota .tc S65536x128 32 [0] iota_S65536x128_d0_w32) (broadcast S65536x128 32768#32))
        (subf (lsV o mo) o) (lsV o mo))
      (broadcast S65536x128 (FloatOps.ofBits (F := Ideal) .f32 0x00000000#32)))

/-- The output row: the column sums negated and scaled. -/
def outV : FVec Ideal S1x128 .f32 :=
  mulf (subf (broadcast S1x128 (FloatOps.ofBits (F := Ideal) .f32 0x00000000#32))
      (shapeCast S1x128 (multiReduction .add [0] S128 (termV o mo) 0x00000000#32 reduces_S65536x128_S128 (.inl rfl) rfl)
        shapeCasts_S128_S1x128))
    (broadcast S1x128 (FloatOps.ofBits (F := Ideal) .f32 0x38000000#32))

/-- The body's stored payload is that term. -/
theorem pay1_eq : k0_pay1 o mo = outV o mo := rfl

/-- log σ at an index. -/
theorem lsV_apply (i : S65536x128.Idx) :
    lsV o mo i = mo i - Ideal.log (Ideal.ofBits .f32 0x3F800000#32 + Ideal.exp (0 - max (o i) (-(o i)))) := by
  show mo i - Ideal.log (Ideal.ofBits .f32 0x3F800000#32
    + Ideal.exp (Ideal.ofBits .f32 0x00000000#32 - max (o i) (-(o i)))) = _
  rw [Ideal.ofBits_zero_f32]

/-- The routed term at row `R`, lane `q`. -/
theorem termV_apply (R : Fin 65536) (q : Fin 128) :
    termV o mo (ix2 R q)
      = if q.val = 0 then (if 32768 ≤ R.val then lsV o mo (ix2 R q) else 0)
        else if q.val = 1 then (if 32768 ≤ R.val then lsV o mo (ix2 R q) - o (ix2 R q) else lsV o mo (ix2 R q))
        else 0 := by
  unfold termV
  rw [select_eq_lane (by norm_num) 0 (by norm_num), select_sge_row (by norm_num) 32768 (by norm_num),
    select_eq_lane (by norm_num) 1 (by norm_num), select_sge_row (by norm_num) 32768 (by norm_num)]
  simp only [broadcast_apply, zeroW, subf_apply]

/-- The output row at lane `q`: zero minus the column sum of the terms, times the scale word. -/
theorem outV_apply (u : Fin 1) (q : Fin 128) :
    outV o mo (ix2 u q) = (0 - ∑ R : Fin 65536, termV o mo (ix2 R q)) * Ideal.ofBits .f32 0x38000000#32 := by
  unfold outV
  rw [mulf_apply, subf_apply, broadcast_apply, broadcast_apply, zeroW, shapeCast_a_1a_apply]
  refine congrArg (fun s => (0 - s) * Ideal.ofBits .f32 0x38000000#32) ?_
  exact Cert.ColumnReads.multiReduction_add_col (termV o mo) _ _ _ _ q

end Tail

/-! ## The stages as the specification's functions -/

section Values

variable (N : Fin 32768 → Fin 64 → EReal) (d : Fin 32768 → EReal) (C : Fin 32768 → Fin 64 → EReal)
  (W : Fin 3 → Fin 128 → Fin 128 → EReal) (b : Fin 8 → Fin 128 → EReal)
variable (v0 v2 : Vec Ideal S32768x128 .f32) (v4 v6 v8 : Vec Ideal S1x128x128 .f32) (v10 v11 v12 : Vec Ideal S1x128 .f32)

/-- What the body's eight loads hold: the real rows, the generator input rows, the three matrices, the three bias rows. -/
structure Blocks : Prop where
  real : ∀ (r : Fin 32768) (l : Fin 128), v0 (ix2 r l) = Spec.xReal d C r l
  gin : ∀ (r : Fin 32768) (l : Fin 128), v2 (ix2 r l) = Spec.gIn N C r l
  w0 : ∀ k l : Fin 128, v4 (ix3 (0 : Fin 1) k l) = W 0 k l
  w1 : ∀ k l : Fin 128, v6 (ix3 (0 : Fin 1) k l) = W 1 k l
  w2 : ∀ k l : Fin 128, v8 (ix3 (0 : Fin 1) k l) = W 2 k l
  b0 : ∀ l : Fin 128, v10 (ix2 (0 : Fin 1) l) = b 0 l
  b1 : ∀ l : Fin 128, v11 (ix2 (0 : Fin 1) l) = b 1 l
  b2 : ∀ l : Fin 128, v12 (ix2 (0 : Fin 1) l) = b 2 l

variable {N d C W b v0 v2 v4 v6 v8 v10 v11 v12}
variable (hB : Blocks N d C W b v0 v2 v4 v6 v8 v10 v11 v12)
include hB

theorem genV_apply (r : Fin 32768) (l : Fin 128) : genV v2 v4 v10 (ix2 r l) = Spec.genOut N C W b r l := by
  unfold genV Spec.genOut
  rw [addf_apply, dotHalf_apply, broadcastTo_1b_ab_apply, hB.b0]
  refine congrArg (· + b 0 l) (Finset.sum_congr rfl fun k _ => ?_)
  rw [shapeCast_self, shapeCast_1ab_ab_apply, hB.gin, hB.w0]

theorem condV_apply (r : Fin 32768) (l : Fin 128) :
    condV v0 (ix2 r l) = if 1 ≤ l.val then Spec.xReal d C r l else 0 := by
  unfold condV
  rw [select_sge_lane (by norm_num) 1 (by norm_num), shapeCast_self, hB.real, broadcast_apply, zeroW]

theorem xV_apply (R : Fin 65536) (l : Fin 128) : xV v0 v2 v4 v10 (ix2 R l) = Spec.xAll N d C W b R l := by
  unfold xV Spec.xAll
  refine (concat_rows_apply (a := 65536) (a1 := 32768) (a2 := 32768) (n := 128) rfl _ _ _ R l).trans ?_
  by_cases hR : R.val < 32768
  · rw [dif_pos hR, dif_pos hR, shapeCast_self, hB.real]
  · rw [dif_neg hR, dif_neg hR, addf_apply, genV_apply hB, condV_apply hB]
    rfl

theorem hidV_apply (R : Fin 65536) (j : Fin 128) : hidV v0 v2 v4 v6 v10 v11 (ix2 R j) = Spec.hid N d C W b R j := by
  unfold hidV Spec.hid
  rw [maximumf_apply, addf_apply, dotAll_apply, broadcastTo_1b_ab_apply, hB.b1, broadcast_apply, zeroW]
  refine congrArg (fun s => max (s + b 1 j) 0) (Finset.sum_congr rfl fun l _ => ?_)
  rw [xV_apply hB, shapeCast_1ab_ab_apply, hB.w1]

theorem logitV_apply (R : Fin 65536) (q : Fin 128) :
    logitV v0 v2 v4 v6 v8 v10 v11 v12 (ix2 R q) = Spec.logit N d C W b R q := by
  unfold logitV Spec.logit
  rw [addf_apply, dotAll_apply, broadcastTo_1b_ab_apply, hB.b2]
  refine congrArg (· + b 2 q) (Finset.sum_congr rfl fun j _ => ?_)
  rw [hidV_apply hB, shapeCast_1ab_ab_apply, hB.w2]

/-- The per-row term is the specification's. -/
theorem term_apply (R : Fin 65536) (q : Fin 128) :
    termV (logitV v0 v2 v4 v6 v8 v10 v11 v12)
        (minimumf (logitV v0 v2 v4 v6 v8 v10 v11 v12) (broadcast S65536x128 (FloatOps.ofBits (F := Ideal) .f32 0x00000000#32)))
        (ix2 R q)
      = Spec.term N d C W b R q := by
  rw [termV_apply, lsV_apply, minimumf_apply, broadcast_apply, zeroW, logitV_apply hB]
  rfl

/-- What the body stores, at lane `q` of its one row: the specification's output row. -/
theorem out_apply (u : Fin 1) (q : Fin 128) :
    k0_pay1 (k0_pay2 v0 v2 v4 v6 v8 v10 v11 v12) (k0_pay3 v0 v2 v4 v6 v8 v10 v11 v12) (ix2 u q) = Spec.refOut N d C W b q := by
  rw [pay1_eq, pay2_eq, pay3_eq, outV_apply]
  unfold Spec.refOut Spec.cB
  refine congrArg (fun s => (0 - s) * Ideal.ofBits .f32 0x38000000#32) (Finset.sum_congr rfl fun R _ => ?_)
  exact term_apply hB R q

end Values

end Cert.ReferenceIdeal.Hand

end
-- ==== Proof.RefInput.lean ====
/-
  The stacked input the reference hands to its kernel.

  Before the kernel runs the host builds one 65536 × 128 array: the upper half's row `r` is `[data r | cond r | 0 …]`
  (the one-column data beside the 64 cond columns, padded with 63 zero columns), the lower half's row `r` is
  `[noise r | cond r]`. Read at `(R, l)` it is the specification's real row `R` for `R` below 32768 and its generator
  input row `R − 32768` otherwise.
-/
import proofs.«101381_g2000106107921261_pallasbulk_998_17_alg».proof.Proof.Gen.ReferenceIdeal.Frame
import proofs.«101381_g2000106107921261_pallasbulk_998_17_alg».proof.Proof.Spec
import proofs.«101381_g2000106107921261_pallasbulk_998_17_alg».proof.Proof.RefArgs
import proofs.«101381_g2000106107921261_pallasbulk_998_17_alg».proof.Proof.RefReads
import Idealize.ShloMosaic.Lib.StableHlo.Run
import Idealize.ShloMosaic.PureOps.Ideal
import Idealize.ShloMosaic.Lib.Tactic

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-- The padding value: the integer zero converted to a float. -/
def padZero : FVec Ideal S_ .f32 := sitofp .f32 (constantI S_ 32 0#32)

theorem padZero_apply (i : S_.Idx) : padZero i = 0 := by
  show (((0#32 : BitVec 32).toInt : ℝ) : EReal) = 0
  have e : (0#32 : BitVec 32).toInt = 0 := by decide
  rw [e]; simp

/-- The stacked input from the noise, data and cond arrays, as the host operations build it. -/
def packedIn (n : FVec Ideal S32768x64 .f32) (dt : FVec Ideal S32768x1 .f32) (cd : FVec Ideal S32768x64 .f32) :
    FVec Ideal S65536x128 .f32 :=
  concatenate S65536x128 0
    [⟨S32768x128, pad S32768x128 ![0, 0] ![0, 63] ![0, 0]
        (concatenate S32768x65 1 [⟨S32768x1, dt⟩, ⟨S32768x64, cd⟩] concatenates_S32768x1_S32768x64_S32768x65_d1)
        padZero pads_S32768x65_S32768x128_000_0630 h_S_⟩,
      ⟨S32768x128, pad S32768x128 ![0, 0] ![0, 0] ![0, 0]
        (concatenate S32768x128 1 [⟨S32768x64, n⟩, ⟨S32768x64, cd⟩] concatenates_S32768x64_S32768x64_S32768x128_d1)
        padZero pads_S32768x128_S32768x128_000_000 h_S_⟩]
    concatenates_S32768x128_S32768x128_S65536x128_d0

/-- The stacked input at `(R, l)`: a real row above, a generator input row below. -/
theorem packedIn_apply (n : FVec Ideal S32768x64 .f32) (dt : FVec Ideal S32768x1 .f32) (cd : FVec Ideal S32768x64 .f32)
    (R : Fin 65536) (l : Fin 128) :
    packedIn n dt cd (ix2 R l)
      = if h : R.val < 32768 then Spec.xReal (argCol dt) (argMat cd) ⟨R.val, h⟩ l
        else Spec.gIn (argMat n) (argMat cd) ⟨R.val - 32768, by omega⟩ l := by
  unfold packedIn
  refine (concat_rows_apply (a := 65536) (a1 := 32768) (a2 := 32768) (n := 128) rfl _ _ _ R l).trans ?_
  by_cases hR : R.val < 32768
  · rw [dif_pos hR, dif_pos hR]
    refine (pad_cols_right_apply (a := 32768) (n := 65) (n' := 128) (e := 63) _ padZero _ _ ⟨R.val, hR⟩ l).trans ?_
    unfold Spec.xReal
    by_cases hl : l.val < 65
    · rw [dif_pos hl]
      refine (concat_cols_apply (a := 32768) (n1 := 1) (n2 := 64) (n := 65) rfl dt cd _ ⟨R.val, hR⟩ ⟨l.val, hl⟩).trans ?_
      by_cases h0 : l.val = 0
      · rw [if_pos h0, dif_pos (show (⟨l.val, hl⟩ : Fin 65).val < 1 from by show l.val < 1; omega)]
        unfold argCol
        exact congrArg dt (congrArg (ix2 (⟨R.val, hR⟩ : Fin 32768)) (Fin.ext (by show l.val = 0; exact h0)))
      · rw [if_neg h0, dif_neg (show ¬ (⟨l.val, hl⟩ : Fin 65).val < 1 from by show ¬ l.val < 1; omega), dif_pos hl]
        rfl
    · rw [dif_neg hl, if_neg (show ¬ l.val = 0 by omega), dif_neg hl]
      exact padZero_apply _
  · rw [dif_neg hR, dif_neg hR]
    refine (pad_cols_right_apply (a := 32768) (n := 128) (n' := 128) (e := 0) _ padZero _ _ ⟨R.val - 32768, by omega⟩ l).trans ?_
    rw [dif_pos l.isLt]
    refine (concat_cols_apply (a := 32768) (n1 := 64) (n2 := 64) (n := 128) rfl n cd _ ⟨R.val - 32768, by omega⟩ ⟨l.val, l.isLt⟩).trans ?_
    unfold Spec.gIn
    by_cases hl : l.val < 64
    · rw [dif_pos (show (⟨l.val, l.isLt⟩ : Fin 128).val < 64 from hl), dif_pos hl]; rfl
    · rw [dif_neg (show ¬ (⟨l.val, l.isLt⟩ : Fin 128).val < 64 from hl), dif_neg hl]; rfl

variable (m : (ℓ : Loc nD τ sig) → Buf (Elt Ideal) ℓ)

/-- What the kernel's first operand holds when the kernel is launched: the stacked input of the three argument arrays. -/
theorem V_v4 (c : Dev nD) :
    (V m c main_v4 : S65536x128.Idx → EReal)
      = packedIn (m ((c : Thread nD τ).loc main_arg0)) (m ((c : Thread nD τ).loc main_arg1)) (m ((c : Thread nD τ).loc main_arg2)) := by
  dsimp only [Gen.V, Gen.V0]
  simp only [hostOps0, hostOps0_1, hostOps0_2, hostOps0_3, hostOps0_4, List.flatten_cons, List.flatten_nil, List.append_nil,
    List.cons_append, List.nil_append]
  after_results
  rfl

end Cert.ReferenceIdeal.Hand

end
-- ==== Proof.RefRun.lean ====
/-
  The reference's run, with its two results named.

  The kernel is launched once, on whole arrays: its first operand is the stacked input the host built, the other two are
  the packed weights and biases as given. What it stores — one row of 128 lanes — is the specification's output row; the
  host then cuts lanes 0 and 1 out of that row as the two scalar results.
-/
import proofs.«101381_g2000106107921261_pallasbulk_998_17_alg».proof.Proof.Gen.ReferenceIdeal.Frame
import proofs.«101381_g2000106107921261_pallasbulk_998_17_alg».proof.Proof.RefBody
import proofs.«101381_g2000106107921261_pallasbulk_998_17_alg».proof.Proof.RefInput
import Idealize.ShloMosaic.Lib.Pipeline.Value
import Idealize.ShloMosaic.Lib.ValueLayout
import Idealize.ShloMosaic.Lib.Tactic

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The body's loads, read at an index of the whole operand -/

section Loads

variable (X : Vec Ideal S65536x128 .f32) (W3 : Vec Ideal S3x128x128 .f32) (B8 : Vec Ideal S8x128 .f32)

theorem ld_upper (r : Fin 32768) (l : Fin 128) : View.ld X r0_0 (ix2 r l) = X (ix2 ⟨r.val, by omega⟩ l) :=
  congrArg X (funext fun a => Fin.ext (by
    match a with
    | ⟨0, _⟩ => show 0 + 1 * r.val = r.val; omega
    | ⟨1, _⟩ => show 0 + 1 * l.val = l.val; omega))

theorem ld_lower (r : Fin 32768) (l : Fin 128) : View.ld X r0_1 (ix2 r l) = X (ix2 ⟨32768 + r.val, by omega⟩ l) :=
  congrArg X (funext fun a => Fin.ext (by
    match a with
    | ⟨0, _⟩ => show 32768 + 1 * r.val = 32768 + r.val; omega
    | ⟨1, _⟩ => show 0 + 1 * l.val = l.val; omega))

theorem ld_w0 (k l : Fin 128) : View.ld W3 r0_2 (ix3 (0 : Fin 1) k l) = W3 (ix3 (0 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_w1 (k l : Fin 128) : View.ld W3 r0_3 (ix3 (0 : Fin 1) k l) = W3 (ix3 (1 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_w2 (k l : Fin 128) : View.ld W3 r0_4 (ix3 (0 : Fin 1) k l) = W3 (ix3 (2 : Fin 3) k l) :=
  congrArg W3 (funext fun a => Fin.ext (by
    match a with
    | ⟨0, _⟩ => rfl
    | ⟨1, _⟩ => show 0 + 1 * k.val = k.val; omega
    | ⟨2, _⟩ => show 0 + 1 * l.val = l.val; omega))

theorem ld_b0 (l : Fin 128) : View.ld B8 r0_5 (ix2 (0 : Fin 1) l) = B8 (ix2 (0 : Fin 8) l) :=
  congrArg B8 (funext fun a => Fin.ext (by
    match a with
    | ⟨0, _⟩ => rfl
    | ⟨1, _⟩ => show 0 + 1 * l.val = l.val; omega))

theorem ld_b1 (l : Fin 128) : View.ld B8 r0_6 (ix2 (0 : Fin 1) l) = B8 (ix2 (1 : Fin 8) l) :=
  congrArg B8 (funext fun a => Fin.ext (by
    match a with
    | ⟨0, _⟩ => rfl
    | ⟨1, _⟩ => show 0 + 1 * l.val = l.val; omega))

theorem ld_b2 (l : Fin 128) : View.ld B8 r0_7 (ix2 (0 : Fin 1) l) = B8 (ix2 (2 : Fin 8) l) :=
  congrArg B8 (funext fun a => Fin.ext (by
    match a with
    | ⟨0, _⟩ => rfl
    | ⟨1, _⟩ => show 0 + 1 * l.val = l.val; omega))

variable (N : Fin 32768 → Fin 64 → EReal) (d : Fin 32768 → EReal) (C : Fin 32768 → Fin 64 → EReal)
  (W : Fin 3 → Fin 128 → Fin 128 → EReal) (b : Fin 8 → Fin 128 → EReal)

/-- The eight loads of whole operands that hold the stacked input, the weights and the biases. -/
theorem blocks_of
    (hX : ∀ (R : Fin 65536) (l : Fin 128), X (ix2 R l)
      = if h : R.val < 32768 then Spec.xReal d C ⟨R.val, h⟩ l else Spec.gIn N C ⟨R.val - 32768, by omega⟩ l)
    (hW : ∀ (a : Fin 3) (k l : Fin 128), W3 (ix3 a k l) = W a k l) (hb : ∀ (a : Fin 8) (l : Fin 128), B8 (ix2 a l) = b a l) :
    Blocks N d C W b (View.ld X r0_0) (View.ld X r0_1) (View.ld W3 r0_2) (View.ld W3 r0_3) (View.ld W3 r0_4)
      (View.ld B8 r0_5) (View.ld B8 r0_6) (View.ld B8 r0_7) where
  real r l := (ld_upper X r l).trans ((hX _ l).trans (dif_pos r.isLt))
  gin r l := (ld_lower X r l).trans ((hX _ l).trans ((dif_neg (show ¬ 32768 + r.val < 32768 by omega)).trans
    (congrArg (fun t => Spec.gIn N C t l) (Fin.ext (Nat.add_sub_cancel_left ..)))))
  w0 k l := (ld_w0 W3 k l).trans (hW 0 k l)
  w1 k l := (ld_w1 W3 k l).trans (hW 1 k l)
  w2 k l := (ld_w2 W3 k l).trans (hW 2 k l)
  b0 l := (ld_b0 B8 l).trans (hb 0 l)
  b1 l := (ld_b1 B8 l).trans (hb 1 l)
  b2 l := (ld_b2 B8 l).trans (hb 2 l)

/-- What the body leaves in the output block: the specification's output row. -/
theorem out_eq
    (hX : ∀ (R : Fin 65536) (l : Fin 128), X (ix2 R l)
      = if h : R.val < 32768 then Spec.xReal d C ⟨R.val, h⟩ l else Spec.gIn N C ⟨R.val - 32768, by omega⟩ l)
    (hW : ∀ (a : Fin 3) (k l : Fin 128), W3 (ix3 a k l) = W a k l) (hb : ∀ (a : Fin 8) (l : Fin 128), B8 (ix2 a l) = b a l) :
    out0_3 X W3 B8 = fun y : S1x128.Idx => Spec.refOut N d C W b (y 1) := by
  funext y
  obtain ⟨u, q, rfl⟩ : ∃ (u : Fin 1) (q : Fin 128), y = ix2 u q := ⟨y 0, y 1, eq_ix2 y⟩
  unfold out0_3
  rw [View.canon_unit_zero (funext fun a => by fin_cases a <;> rfl)]
  exact out_apply (blocks_of X W3 B8 N d C W b hX hW hb) u q

end Loads

/-! ## The kernel's operands are whole arrays -/

variable (m : (ℓ : Loc nD τ sig) → Buf (Elt Ideal) ℓ) (ρ : Dev nD → PrngReg)

theorem iblk0_whole (c : Dev nD) (t : Fin cfg0.N) : (iblk m c 0 t : Vec Ideal S65536x128 .f32) = V m c main_v4 := by
  obtain rfl : t = t0_0 := fin_N0 t
  have hi : win0_0.index t0_0 0 = 0 ∧ win0_0.index t0_0 1 = 0 := by decide
  funext j
  unfold iblk
  rw [View.read_apply]
  show V m c main_v4 _ = V m c main_v4 _
  congr 1
  funext a
  apply Fin.ext
  match a with
  | ⟨0, _⟩ => show win0_0.index t0_0 0 * 65536 + 1 * (j 0).val = (j 0).val; rw [hi.1]; omega
  | ⟨1, _⟩ => show win0_0.index t0_0 1 * 128 + 1 * (j 1).val = (j 1).val; rw [hi.2]; omega

theorem iblk1_whole (c : Dev nD) (t : Fin cfg0.N) :
    (iblk m c 1 t : Vec Ideal S3x128x128 .f32) = m ((c : Thread nD τ).loc main_arg3) := by
  obtain rfl : t = t0_0 := fin_N0 t
  have hi : win0_1.index t0_0 0 = 0 ∧ win0_1.index t0_0 1 = 0 ∧ win0_1.index t0_0 2 = 0 := by decide
  rw [← V_main_arg3 m c]
  funext j
  unfold iblk
  rw [View.read_apply]
  show V m c main_arg3 _ = V m c main_arg3 _
  congr 1
  funext a
  apply Fin.ext
  match a with
  | ⟨0, _⟩ => show win0_1.index t0_0 0 * 3 + 1 * (j 0).val = (j 0).val; rw [hi.1]; omega
  | ⟨1, _⟩ => show win0_1.index t0_0 1 * 128 + 1 * (j 1).val = (j 1).val; rw [hi.2.1]; omega
  | ⟨2, _⟩ => show win0_1.index t0_0 2 * 128 + 1 * (j 2).val = (j 2).val; rw [hi.2.2]; omega

theorem iblk2_whole (c : Dev nD) (t : Fin cfg0.N) :
    (iblk m c 2 t : Vec Ideal S8x128 .f32) = m ((c : Thread nD τ).loc main_arg4) := by
  obtain rfl : t = t0_0 := fin_N0 t
  have hi : win0_2.index t0_0 0 = 0 ∧ win0_2.index t0_0 1 = 0 := by decide
  rw [← V_main_arg4 m c]
  funext j
  unfold iblk
  rw [View.read_apply]
  show V m c main_arg4 _ = V m c main_arg4 _
  congr 1
  funext a
  apply Fin.ext
  match a with
  | ⟨0, _⟩ => show win0_2.index t0_0 0 * 8 + 1 * (j 0).val = (j 0).val; rw [hi.1]; omega
  | ⟨1, _⟩ => show win0_2.index t0_0 1 * 128 + 1 * (j 1).val = (j 1).val; rw [hi.2]; omega

/-! ## The output array after the run -/

/-- The specification's output row from core `c`'s five argument arrays. -/
def outRow (c : Dev nD) (q : Fin 128) : EReal :=
  Spec.refOut (argMat (m ((c : Thread nD τ).loc main_arg0))) (argCol (m ((c : Thread nD τ).loc main_arg1)))
    (argMat (m ((c : Thread nD τ).loc main_arg2))) (argCube (m ((c : Thread nD τ).loc main_arg3)))
    (argMat (m ((c : Thread nD τ).loc main_arg4))) q

/-- The kernel's output array: that row. -/
def result (c : Dev nD) : Buf (Elt Ideal) ((c : Thread nD τ).loc main_v5) := fun y => outRow m c (y 1)

theorem flushed_eq (c : Dev nD) (t : Fin cfg0.N) (hf : (cfg0.win 3).flush t = true) :
    (dats m 0 c).flushed 3 t = ((cfg0.win 3).blk t).view.read (Elt Ideal) (result m c) := by
  obtain rfl : t = t0_0 := fin_N0 t
  show (cfg0.win 3).cut (grid0.coords t0_0) ((dats m 0 c).after 3 t0_0) = _
  rw [after0_3, iblk0_whole, iblk1_whole, iblk2_whole, V_v4,
    out_eq _ _ _ _ _ _ _ _ (packedIn_apply _ _ _) (fun _ _ _ => rfl) (fun _ _ => rfl)]
  have hz' : (fun a => win0_3.index t0_0 a * main_v5.ty.shape.size a) = fun _ => 0 := funext fun a => by fin_cases a <;> decide
  exact (Memref.read_access_unit_zero (Elt Ideal) main_v5 hz' (fun a => by rw [congrFun hz' a]; simp) (result m c)).symm

theorem cover (i : S1x128.Idx) : ∃ t : Fin cfg0.N, (cfg0.win 3).flush t = true ∧ i ∈ ((cfg0.win 3).blk t).view.set := by
  have h0 : (i 0 : Nat) < 1 := (i 0).isLt
  have h1 : (i 1 : Nat) < 128 := (i 1).isLt
  refine ⟨t0_0, by decide +kernel, ?_⟩
  show i ∈ ((View.whole main_v5).slice (win0_3.rect t0_0)).set
  rw [View.set_slice_whole, Rect.mem_set_unit]
  intro a
  match a with
  | ⟨0, _⟩ =>
    show win0_3.index t0_0 0 * win0_3.size 0 ≤ (i 0 : Nat) ∧ (i 0 : Nat) < win0_3.index t0_0 0 * win0_3.size 0 + win0_3.xsize (grid0.coords t0_0) 0
    rw [show win0_3.index t0_0 0 * win0_3.size 0 = 0 from by decide +kernel, show win0_3.xsize (grid0.coords t0_0) 0 = 1 from by decide +kernel]; omega
  | ⟨1, _⟩ =>
    show win0_3.index t0_0 1 * win0_3.size 1 ≤ (i 1 : Nat) ∧ (i 1 : Nat) < win0_3.index t0_0 1 * win0_3.size 1 + win0_3.xsize (grid0.coords t0_0) 1
    rw [show win0_3.index t0_0 1 * win0_3.size 1 = 0 from by decide +kernel, show win0_3.xsize (grid0.coords t0_0) 1 = 128 from by decide +kernel]; omega

/-- After the run the kernel's output array holds the specification's output row. -/
theorem final (c : Dev nD) : (dats m 0 c).arrAt 3 cfg0.N = result m c :=
  (dats m 0 c).arrAt_eq_of_cover 3 (result m c) (flushed_eq m c) cover

/-! ## The host's two cuts -/

/-- The kernel's output array as the host's cuts find it. -/
theorem tail_arr (c : Dev nD) :
    Pipeline.withArrays (cfgs 0).spec c (V0 m c) (fun w => (dats m 0 c).arrAt w (cfgs 0).N) (Proc.devRef .tc main_v5)
      = result m c :=
  (Pipeline.withArrays_arr spec0 launch0.win.arr_inj c _ _ 3).trans (final m c)

/-- A one-entry matrix read as a scalar is its entry. -/
theorem scalar_of_1x1 (x : S1x1.Idx → EReal) (i : S_.Idx) :
    shapeCast S_ x shapeCasts_S1x1_S_ i = x (ix2 (0 : Fin 1) (0 : Fin 1)) := by
  refine shapeCast_apply x shapeCasts_S1x1_S_ i (ix2 (0 : Fin 1) (0 : Fin 1)) ?_
  have h1 : (S1x1.rowMajor (ix2 (0 : Fin 1) (0 : Fin 1))).val < 1 := (S1x1.rowMajor (ix2 (0 : Fin 1) (0 : Fin 1))).isLt
  have h2 : (S_.rowMajor i).val < 1 := (S_.rowMajor i).isLt
  omega

/-- The first result: lane 0 of the output row. -/
theorem tail_v7 (c : Dev nD) :
    Pipeline.afterTail₀ cfgs (dats m) 0 (V0 m) [hostOps1] c main_v7 = fun _ => outRow m c 0 := by
  unfold Pipeline.afterTail₀
  show StableHlo.after hostOps1 _ (Proc.devRef .tc main_v7) = _
  after_results
  rw [tail_arr m c]
  funext i
  show shapeCast S_ (extractStridedSlice S1x1 ![0, 0] (result m c) slices_S1x128_S1x1_0_0) shapeCasts_S1x1_S_ i = _
  rw [scalar_of_1x1, slice2_axis1_apply 0 (result m c) slices_S1x128_S1x1_0_0 (0 : Fin 1) (0 : Fin 1) (0 : Fin 128) rfl]
  rfl

/-- The second result: lane 1 of the output row. -/
theorem tail_v9 (c : Dev nD) :
    Pipeline.afterTail₀ cfgs (dats m) 0 (V0 m) [hostOps1] c main_v9 = fun _ => outRow m c 1 := by
  unfold Pipeline.afterTail₀
  show StableHlo.after hostOps1 _ (Proc.devRef .tc main_v9) = _
  after_results
  rw [tail_arr m c]
  funext i
  show shapeCast S_ (extractStridedSlice S1x1 ![0, 1] (result m c) slices_S1x128_S1x1_0_1) shapeCasts_S1x1_S_ i = _
  rw [scalar_of_1x1, slice2_axis1_apply 1 (result m c) slices_S1x128_S1x1_0_1 (0 : Fin 1) (0 : Fin 1) (1 : Fin 128) rfl]
  rfl

/-! ## The run -/

/-- Every weakly fair execution of the reference terminates without a fault; its two results are lanes 0 and 1 of the
    specification's output row of the five argument arrays, and the argument arrays end unchanged. -/
theorem run : θ_run (defs (F := Ideal)) (onTc (τ := τ) (main (F := Ideal))) ⟨m, fun _ => 0, ρ⟩ (fun r => ∀ c : Dev nD,
      r.2.mem ((c.tc : Thread nD τ).loc main_v7) = (fun _ => outRow m c 0)
      ∧ r.2.mem ((c.tc : Thread nD τ).loc main_v9) = (fun _ => outRow m c 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (tail_v7 m c),
      ((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.ReferenceIdeal.Hand

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.RowLogitsSums.lean ====
/-
  Finite-sum bookkeeping over the reals, and the passage from real sums, products and maxima to the extended reals.
-/
import proofs.«101381_g2000106107921261_pallasbulk_998_17_alg».proof.Proof.Spec

namespace Cert.Spec

/-- The coercion ℝ → EReal commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion ℝ → EReal commutes with a maximum against zero. -/
theorem coe_max_zero (x : ℝ) : ((max x 0 : ℝ) : EReal) = max (x : EReal) 0 := by
  rw [← EReal.coe_zero]
  exact EReal.coe_strictMono.monotone.map_max

/-- A sum over `Fin (a + m)` splits into its first `a` and its last `m` terms. -/
theorem sum_fin_split {a m : ℕ} (f : Fin (a + m) → ℝ) :
    ∑ j, f j = (∑ k : Fin a, f ⟨k.val, by omega⟩) + ∑ k : Fin m, f ⟨k.val + a, by omega⟩ := by
  rw [Fin.sum_univ_add]
  congr 1
  apply Finset.sum_congr rfl
  intro k _
  congr 1
  ext
  simp [add_comm]

/-- A sum over `Fin n` whose terms vanish outside the window `a ≤ j < a + m` is the sum over the window. -/
theorem sum_window {n : ℕ} (a m : ℕ) (ham : a + m ≤ n) (f : Fin n → ℝ)
    (hz : ∀ j : Fin n, (j.val < a ∨ a + m ≤ j.val) → f j = 0) :
    ∑ j, f j = ∑ k : Fin m, f ⟨k.val + a, by omega⟩ := by
  let e : Fin m ↪ Fin n := ⟨fun k => ⟨k.val + a, by omega⟩, by
    intro x y hxy
    have := congrArg Fin.val hxy
    simp at this
    exact Fin.ext this⟩
  have h1 : ∑ k : Fin m, f ⟨k.val + a, by omega⟩ = ∑ j ∈ Finset.univ.map e, f j := by
    rw [Finset.sum_map]; rfl
  rw [h1]
  symm
  apply Finset.sum_subset (Finset.subset_univ _)
  intro j _ hj
  apply hz
  by_contra hcon
  apply hj
  rw [Finset.mem_map]
  refine ⟨⟨j.val - a, by omega⟩, Finset.mem_univ _, ?_⟩
  apply Fin.ext
  show j.val - a + a = j.val
  omega

end Cert.Spec
-- ==== Proof.RowLogitsReal.lean ====
/-
  Real-valued twins of the index-level definitions, and the fact that at real (finite) arguments each extended-real
  definition is the coercion of its twin.  All later algebra happens in ℝ, where sums and products distribute.
-/
import proofs.«101381_g2000106107921261_pallasbulk_998_17_alg».proof.Proof.RowLogitsSums

noncomputable section

namespace Cert.Spec

section
variable (N' : Fin 32768 → Fin 64 → ℝ) (d' : Fin 32768 → ℝ) (C' : Fin 32768 → Fin 64 → ℝ)
  (W' : Fin 3 → Fin 128 → Fin 128 → ℝ) (b' : Fin 8 → Fin 128 → ℝ)

/-! ## Real twins of the reference -/

def xRealR (r : Fin 32768) (l : Fin 128) : ℝ :=
  if l.val = 0 then d' r else if h : l.val < 65 then C' r ⟨l.val - 1, by omega⟩ else 0

def gInR (r : Fin 32768) (l : Fin 128) : ℝ :=
  if h : l.val < 64 then N' r ⟨l.val, h⟩ else C' r ⟨l.val - 64, by omega⟩

def genOutR (r : Fin 32768) (l : Fin 128) : ℝ := (∑ k : Fin 128, gInR N' C' r k * W' 0 k l) + b' 0 l

def xFakeR (r : Fin 32768) (l : Fin 128) : ℝ :=
  genOutR N' C' W' b' r l + (if 1 ≤ l.val then xRealR d' C' r l else 0)

def xAllR (R : Fin 65536) (l : Fin 128) : ℝ :=
  if h : R.val < 32768 then xRealR d' C' ⟨R.val, h⟩ l else xFakeR N' d' C' W' b' ⟨R.val - 32768, by omega⟩ l

def hidR (R : Fin 65536) (j : Fin 128) : ℝ := max ((∑ l : Fin 128, xAllR N' d' C' W' b' R l * W' 1 l j) + b' 1 j) 0

def logitR (R : Fin 65536) (c : Fin 128) : ℝ := (∑ j : Fin 128, hidR N' d' C' W' b' R j * W' 2 j c) + b' 2 c

/-! ## Real twins of the kernel -/

def wfR (k l : Fin 128) : ℝ :=
  if h : k.val < 64 then (if l.val = 10 then W' 0 k 0 else 0)
  else (W' 1 ⟨k.val - 63, by omega⟩ l + W' 1 ⟨k.val - 63, by omega⟩ (rot l)) + (if l.val = 10 then W' 0 k 0 else 0)

def w2pR (j l : Fin 128) : ℝ :=
  ((if l.val = 1 then W' 2 j 0 else 0) + (if l.val = 0 then W' 2 (rot j) 0 else 0))
    + (if l.val = 2 then W' 2 (rot j) 0 else 0)

def cs0R (l : Fin 128) : ℝ := W' 1 0 l
def cs1R (l : Fin 128) : ℝ := W' 1 0 (rot l)
def cs2R (l : Fin 128) : ℝ := (b' 1 l + b' 1 (rot l)) + b' 0 0 * W' 1 0 (rot l)
def cs3R (l : Fin 128) : ℝ := if l.val < 3 then b' 2 0 else 0

def m1R (r : Fin 32768) (l : Fin 128) : ℝ :=
  (∑ k : Fin 64, N' r k * wfR W' ⟨k.val, by omega⟩ l) + (∑ k : Fin 64, C' r k * wfR W' ⟨k.val + 64, by omega⟩ l)

def hidKR (r : Fin 32768) (l : Fin 128) : ℝ :=
  max ((((m1R N' C' W' r l + m1R N' C' W' r 10 * cs1R W' l) + d' r * cs0R W' l)) + cs2R W' b' l) 0

def logitKR (r : Fin 32768) (l : Fin 128) : ℝ := (∑ j : Fin 128, hidKR N' d' C' W' b' r j * w2pR W' j l) + cs3R b' l

/-! ## Each extended-real definition at coerced arguments is the coercion of its twin -/

local notation "Nc" => (fun r k => ((N' r k : ℝ) : EReal))
local notation "dc" => (fun r => ((d' r : ℝ) : EReal))
local notation "Cc" => (fun r k => ((C' r k : ℝ) : EReal))
local notation "Wc" => (fun a k l => ((W' a k l : ℝ) : EReal))
local notation "bc" => (fun a l => ((b' a l : ℝ) : EReal))

theorem xReal_coe (r : Fin 32768) (l : Fin 128) : xReal dc Cc r l = ((xRealR d' C' r l : ℝ) : EReal) := by
  unfold xReal xRealR
  split_ifs <;> rfl

theorem gIn_coe (r : Fin 32768) (l : Fin 128) : gIn Nc Cc r l = ((gInR N' C' r l : ℝ) : EReal) := by
  unfold gIn gInR
  split_ifs <;> rfl

theorem genOut_coe (r : Fin 32768) (l : Fin 128) :
    genOut Nc Cc Wc bc r l = ((genOutR N' C' W' b' r l : ℝ) : EReal) := by
  simp only [genOut, genOutR, EReal.coe_add, coe_sum, EReal.coe_mul, gIn_coe]

theorem xFake_coe (r : Fin 32768) (l : Fin 128) :
    xFake Nc dc Cc Wc bc r l = ((xFakeR N' d' C' W' b' r l : ℝ) : EReal) := by
  unfold xFake xFakeR
  rw [EReal.coe_add, genOut_coe, xReal_coe]
  split_ifs <;> rfl

theorem xAll_coe (R : Fin 65536) (l : Fin 128) :
    xAll Nc dc Cc Wc bc R l = ((xAllR N' d' C' W' b' R l : ℝ) : EReal) := by
  unfold xAll xAllR
  split_ifs
  · exact xReal_coe d' C' _ l
  · exact xFake_coe N' d' C' W' b' _ l

theorem hid_coe (R : Fin 65536) (j : Fin 128) :
    hid Nc dc Cc Wc bc R j = ((hidR N' d' C' W' b' R j : ℝ) : EReal) := by
  simp only [hid, hidR, coe_max_zero, EReal.coe_add, coe_sum, EReal.coe_mul, xAll_coe]

theorem logit_coe (R : Fin 65536) (c : Fin 128) :
    logit Nc dc Cc Wc bc R c = ((logitR N' d' C' W' b' R c : ℝ) : EReal) := by
  simp only [logit, logitR, EReal.coe_add, coe_sum, EReal.coe_mul, hid_coe]

theorem wf_coe (k l : Fin 128) : wf Wc k l = ((wfR W' k l : ℝ) : EReal) := by
  unfold wf wfR
  split_ifs <;> simp only [EReal.coe_add, EReal.coe_zero]

theorem w2p_coe (j l : Fin 128) : w2p Wc j l = ((w2pR W' j l : ℝ) : EReal) := by
  unfold w2p w2pR
  split_ifs <;> simp only [EReal.coe_add, EReal.coe_zero]

theorem cs0_coe (l : Fin 128) : cs0 Wc l = ((cs0R W' l : ℝ) : EReal) := rfl
theorem cs1_coe (l : Fin 128) : cs1 Wc l = ((cs1R W' l : ℝ) : EReal) := rfl
theorem cs2_coe (l : Fin 128) : cs2 Wc bc l = ((cs2R W' b' l : ℝ) : EReal) := by
  simp only [cs2, cs2R, EReal.coe_add, EReal.coe_mul]
theorem cs3_coe (l : Fin 128) : cs3 bc l = ((cs3R b' l : ℝ) : EReal) := by
  unfold cs3 cs3R
  split_ifs <;> rfl

theorem m1_coe (r : Fin 32768) (l : Fin 128) : m1 Nc Cc Wc r l = ((m1R N' C' W' r l : ℝ) : EReal) := by
  simp only [m1, m1R, EReal.coe_add, coe_sum, EReal.coe_mul, wf_coe]

theorem hidK_coe (r : Fin 32768) (l : Fin 128) :
    hidK Nc dc Cc Wc bc r l = ((hidKR N' d' C' W' b' r l : ℝ) : EReal) := by
  simp only [hidK, hidKR, coe_max_zero, EReal.coe_add, EReal.coe_mul, m1_coe, cs0_coe, cs1_coe, cs2_coe]

theorem logitK_coe (r : Fin 32768) (l : Fin 128) :
    logitK Nc dc Cc Wc bc r l = ((logitKR N' d' C' W' b' r l : ℝ) : EReal) := by
  simp only [logitK, logitKR, EReal.coe_add, coe_sum, EReal.coe_mul, hidK_coe, w2p_coe, cs3_coe]

end

end Cert.Spec

end
-- ==== Proof.RowLogitsMath.lean ====
/-
  The row identities over the reals.

  With the packed layers zero-padded, the fused first stage of batch row `r` carries in lanes 0..9 the hidden
  pre-activations of the real row `r`, in lanes 16..25 those of the generated row `r`, in lane 10 the generator's
  logit (which the output layer ignores) and zero elsewhere; the second stage therefore returns the real row's logit
  in lane 1 and the generated row's logit in lanes 0 and 2.
-/
import proofs.«101381_g2000106107921261_pallasbulk_998_17_alg».proof.Proof.RowLogitsReal

noncomputable section

namespace Cert.Spec

section
variable (N' : Fin 32768 → Fin 64 → ℝ) (d' : Fin 32768 → ℝ) (C' : Fin 32768 → Fin 64 → ℝ)
  (W' : Fin 3 → Fin 128 → Fin 128 → ℝ) (b' : Fin 8 → Fin 128 → ℝ)

/-- The padding contract on the packed layers. -/
structure Padded : Prop where
  wg : ∀ (k l : Fin 128), 1 ≤ l.val → W' 0 k l = 0
  bg : ∀ l : Fin 128, 1 ≤ l.val → b' 0 l = 0
  w1 : ∀ (k l : Fin 128), 10 ≤ l.val → W' 1 k l = 0
  b1 : ∀ l : Fin 128, 10 ≤ l.val → b' 1 l = 0
  w2 : ∀ j : Fin 128, 10 ≤ j.val → W' 2 j 0 = 0
  w2dup : ∀ j : Fin 128, W' 2 j 1 = W' 2 j 0
  b2dup : b' 2 1 = b' 2 0

/-! ## The rotation -/

theorem rot_val_of_lt (l : Fin 128) (h : l.val < 16) : (rot l).val = l.val + 112 := by
  unfold rot; rw [dif_pos h]

theorem rot_val_of_ge (l : Fin 128) (h : 16 ≤ l.val) : (rot l).val = l.val - 16 := by
  unfold rot; rw [dif_neg (by omega)]

theorem rot_shift (k : Fin 10) : rot ⟨k.val + 16, by omega⟩ = ⟨k.val, by omega⟩ := by
  apply Fin.ext
  rw [rot_val_of_ge _ (by show 16 ≤ k.val + 16; omega)]
  show k.val + 16 - 16 = k.val
  omega

/-! ## The two building blocks: the cond part of a hidden pre-activation, and the generator's logit -/

/-- The cond lanes of a row against the hidden layer's rows 1..64. -/
def condHid (r : Fin 32768) (j : Fin 128) : ℝ := ∑ k : Fin 64, C' r k * W' 1 ⟨k.val + 1, by omega⟩ j

/-- The generator's column 0 applied to `[noise | cond]`, without its bias. -/
def genLogit (r : Fin 32768) : ℝ :=
  (∑ k : Fin 64, N' r k * W' 0 ⟨k.val, by omega⟩ 0) + ∑ k : Fin 64, C' r k * W' 0 ⟨k.val + 64, by omega⟩ 0

variable {W' b'}

theorem condHid_eq_zero (h : Padded W' b') (r : Fin 32768) (j : Fin 128) (hj : 10 ≤ j.val) :
    condHid C' W' r j = 0 := by
  unfold condHid
  apply Finset.sum_eq_zero
  intro k _
  rw [h.w1 _ _ hj, mul_zero]

variable (W' b')

/-! ## The kernel's first stage -/

theorem wfR_lo (k : Fin 64) (l : Fin 128) :
    wfR W' ⟨k.val, by omega⟩ l = if l.val = 10 then W' 0 ⟨k.val, by omega⟩ 0 else 0 := by
  unfold wfR
  split
  · rfl
  · rename_i hk; exact absurd k.isLt hk

theorem wfR_hi (k : Fin 64) (l : Fin 128) :
    wfR W' ⟨k.val + 64, by omega⟩ l
      = (W' 1 ⟨k.val + 1, by omega⟩ l + W' 1 ⟨k.val + 1, by omega⟩ (rot l))
        + (if l.val = 10 then W' 0 ⟨k.val + 64, by omega⟩ 0 else 0) := by
  unfold wfR
  split
  · rename_i hk
    have : k.val + 64 < 64 := hk
    omega
  · have e : ∀ p : k.val + 64 - 63 < 128, (⟨k.val + 64 - 63, p⟩ : Fin 128) = ⟨k.val + 1, by omega⟩ :=
      fun p => Fin.ext (by show k.val + 64 - 63 = k.val + 1; omega)
    simp only [e]

theorem m1R_eq (r : Fin 32768) (l : Fin 128) :
    m1R N' C' W' r l
      = condHid C' W' r l + condHid C' W' r (rot l) + (if l.val = 10 then genLogit N' C' W' r else 0) := by
  unfold m1R condHid genLogit
  simp only [wfR_lo, wfR_hi]
  by_cases hl : l.val = 10
  · simp only [hl, if_true, mul_add, Finset.sum_add_distrib]
    ring
  · simp only [hl, if_false, mul_zero, add_zero, Finset.sum_const_zero, zero_add, mul_add, Finset.sum_add_distrib]

variable {W' b'}

theorem m1R_ten (h : Padded W' b') (r : Fin 32768) : m1R N' C' W' r 10 = genLogit N' C' W' r := by
  have h10 : (10 : Fin 128).val = 10 := rfl
  have hr : 10 ≤ (rot (10 : Fin 128)).val := by
    rw [rot_val_of_lt _ (by rw [h10]; omega), h10]; omega
  rw [m1R_eq, condHid_eq_zero C' h r 10 (by rw [h10]), condHid_eq_zero C' h r _ hr, if_pos h10]
  ring

/-- Lanes 0..9 of the fused hidden stage: the real row's hidden units. -/
theorem hidKR_lo (h : Padded W' b') (r : Fin 32768) (j : Fin 128) (hj : j.val < 10) :
    hidKR N' d' C' W' b' r j = max (condHid C' W' r j + d' r * W' 1 0 j + b' 1 j) 0 := by
  have hr : 10 ≤ (rot j).val := by rw [rot_val_of_lt j (by omega)]; omega
  have hne : ¬ j.val = 10 := by omega
  unfold hidKR cs0R cs1R cs2R
  rw [m1R_ten N' C' h, m1R_eq, condHid_eq_zero C' h r _ hr, h.w1 0 _ hr, h.b1 _ hr, if_neg hne]
  congr 1
  ring

/-- Lanes 16..25 of the fused hidden stage: the generated row's hidden units. -/
theorem hidKR_hi (h : Padded W' b') (r : Fin 32768) (k : Fin 10) :
    hidKR N' d' C' W' b' r ⟨k.val + 16, by omega⟩
      = max (condHid C' W' r ⟨k.val, by omega⟩
          + (genLogit N' C' W' r + b' 0 0) * W' 1 0 ⟨k.val, by omega⟩ + b' 1 ⟨k.val, by omega⟩) 0 := by
  have hl : 10 ≤ (⟨k.val + 16, by omega⟩ : Fin 128).val := by show 10 ≤ k.val + 16; omega
  have hne : ¬ (⟨k.val + 16, by omega⟩ : Fin 128).val = 10 := by show ¬ k.val + 16 = 10; omega
  unfold hidKR cs0R cs1R cs2R
  rw [m1R_ten N' C' h, m1R_eq, rot_shift, condHid_eq_zero C' h r _ hl, h.w1 0 _ hl, h.b1 _ hl, if_neg hne]
  congr 1
  ring

/-! ## The reference's rows -/

variable (W' b')

theorem xRealR_zero (r : Fin 32768) : xRealR d' C' r 0 = d' r := by
  unfold xRealR; rw [if_pos (by decide)]

theorem xRealR_succ (r : Fin 32768) (k : Fin 64) : xRealR d' C' r ⟨k.val + 1, by omega⟩ = C' r k := by
  unfold xRealR
  rw [if_neg (by show ¬ k.val + 1 = 0; omega), dif_pos (by show k.val + 1 < 65; omega)]
  congr 1

theorem xRealR_big (r : Fin 32768) (l : Fin 128) (hl : 65 ≤ l.val) : xRealR d' C' r l = 0 := by
  unfold xRealR
  rw [if_neg (by omega), dif_neg (by omega)]

theorem gInR_lo (r : Fin 32768) (k : Fin 64) : gInR N' C' r ⟨k.val, by omega⟩ = N' r k := by
  unfold gInR
  split
  · rfl
  · rename_i hk; exact absurd k.isLt hk

theorem gInR_hi (r : Fin 32768) (k : Fin 64) : gInR N' C' r ⟨k.val + 64, by omega⟩ = C' r k := by
  unfold gInR
  split
  · rename_i hk
    have : k.val + 64 < 64 := hk
    omega
  · congr 1

theorem genOutR_zero (r : Fin 32768) : genOutR N' C' W' b' r 0 = genLogit N' C' W' r + b' 0 0 := by
  unfold genOutR genLogit
  congr 1
  refine (sum_fin_split (a := 64) (m := 64) (fun k : Fin 128 => gInR N' C' r k * W' 0 k 0)).trans ?_
  simp only [gInR_lo, gInR_hi]

variable {W' b'}

theorem genOutR_pos (h : Padded W' b') (r : Fin 32768) (l : Fin 128) (hl : 1 ≤ l.val) :
    genOutR N' C' W' b' r l = 0 := by
  unfold genOutR
  rw [h.bg l hl, add_zero]
  apply Finset.sum_eq_zero
  intro k _
  rw [h.wg k l hl, mul_zero]

theorem xFakeR_zero (r : Fin 32768) : xFakeR N' d' C' W' b' r 0 = genLogit N' C' W' r + b' 0 0 := by
  unfold xFakeR
  rw [genOutR_zero, if_neg (by decide), add_zero]

theorem xFakeR_succ (h : Padded W' b') (r : Fin 32768) (k : Fin 64) :
    xFakeR N' d' C' W' b' r ⟨k.val + 1, by omega⟩ = C' r k := by
  unfold xFakeR
  rw [genOutR_pos N' C' h r _ (by show 1 ≤ k.val + 1; omega), zero_add,
    if_pos (by show 1 ≤ k.val + 1; omega), xRealR_succ]

theorem xFakeR_big (h : Padded W' b') (r : Fin 32768) (l : Fin 128) (hl : 65 ≤ l.val) :
    xFakeR N' d' C' W' b' r l = 0 := by
  unfold xFakeR
  rw [genOutR_pos N' C' h r l (by omega), zero_add, if_pos (by omega), xRealR_big d' C' r l hl]

/-- A row `[x₀ | c | 0]` against a column: lane 0, then the 64 cond lanes. -/
theorem sum_lanes (x w : Fin 128 → ℝ) (c : Fin 64 → ℝ)
    (h1 : ∀ k : Fin 64, x ⟨k.val + 1, by omega⟩ = c k) (h2 : ∀ l : Fin 128, 65 ≤ l.val → x l = 0) :
    ∑ l, x l * w l = x 0 * w 0 + ∑ k : Fin 64, c k * w ⟨k.val + 1, by omega⟩ := by
  refine (sum_fin_split (a := 65) (m := 63) (fun l : Fin 128 => x l * w l)).trans ?_
  have z : ∑ k : Fin 63, (x ⟨k.val + 65, by omega⟩ * w ⟨k.val + 65, by omega⟩) = 0 :=
    Finset.sum_eq_zero (fun k _ => by rw [h2 _ (by show 65 ≤ k.val + 65; omega), zero_mul])
  rw [z, add_zero, Fin.sum_univ_succ]
  congr 1
  apply Finset.sum_congr rfl
  intro k _
  rw [← h1 k]
  rfl

variable (W' b')

theorem hidR_real (r : Fin 32768) (j : Fin 128) :
    hidR N' d' C' W' b' ⟨r.val, by omega⟩ j = max (condHid C' W' r j + d' r * W' 1 0 j + b' 1 j) 0 := by
  unfold hidR
  have hx : ∀ l, xAllR N' d' C' W' b' ⟨r.val, by omega⟩ l = xRealR d' C' r l := by
    intro l
    unfold xAllR
    rw [dif_pos r.isLt]
  simp only [hx]
  rw [sum_lanes (xRealR d' C' r) (fun l => W' 1 l j) (C' r) (xRealR_succ d' C' r) (xRealR_big d' C' r),
    xRealR_zero]
  unfold condHid
  congr 1
  ring

variable {W' b'}

theorem hidR_fake (h : Padded W' b') (r : Fin 32768) (j : Fin 128) :
    hidR N' d' C' W' b' ⟨r.val + 32768, by omega⟩ j
      = max (condHid C' W' r j + (genLogit N' C' W' r + b' 0 0) * W' 1 0 j + b' 1 j) 0 := by
  unfold hidR
  have hx : ∀ l, xAllR N' d' C' W' b' ⟨r.val + 32768, by omega⟩ l = xFakeR N' d' C' W' b' r l := by
    intro l
    unfold xAllR
    rw [dif_neg (by show ¬ r.val + 32768 < 32768; omega)]
    have e : ∀ p : r.val + 32768 - 32768 < 32768, (⟨r.val + 32768 - 32768, p⟩ : Fin 32768) = r :=
      fun p => Fin.ext (by show r.val + 32768 - 32768 = r.val; omega)
    simp only [e]
  simp only [hx]
  rw [sum_lanes (xFakeR N' d' C' W' b' r) (fun l => W' 1 l j) (C' r) (xFakeR_succ N' d' C' h r)
    (xFakeR_big N' d' C' h r), xFakeR_zero]
  unfold condHid
  congr 1
  ring

/-! ## The logits -/

theorem logitR_lane1 (h : Padded W' b') (R : Fin 65536) :
    logitR N' d' C' W' b' R 1 = logitR N' d' C' W' b' R 0 := by
  unfold logitR
  rw [h.b2dup]
  congr 1
  apply Finset.sum_congr rfl
  intro j _
  rw [h.w2dup]

theorem logitKR_real (h : Padded W' b') (r : Fin 32768) :
    logitKR N' d' C' W' b' r 1 = logitR N' d' C' W' b' ⟨r.val, by omega⟩ 1 := by
  rw [logitR_lane1 N' d' C' h]
  unfold logitKR logitR
  have c : cs3R b' 1 = b' 2 0 := by unfold cs3R; rw [if_pos (by decide)]
  rw [c]
  congr 1
  apply Finset.sum_congr rfl
  intro j _
  have w : w2pR W' j 1 = W' 2 j 0 := by
    unfold w2pR; rw [if_pos (by decide), if_neg (by decide), if_neg (by decide)]; ring
  rw [w]
  by_cases hj : j.val < 10
  · rw [hidKR_lo N' d' C' h r j hj, hidR_real]
  · rw [h.w2 j (by omega), mul_zero, mul_zero]

theorem logitKR_fake0 (h : Padded W' b') (r : Fin 32768) :
    logitKR N' d' C' W' b' r 0 = logitR N' d' C' W' b' ⟨r.val + 32768, by omega⟩ 0 := by
  unfold logitKR logitR
  have c : cs3R b' 0 = b' 2 0 := by unfold cs3R; rw [if_pos (by decide)]
  rw [c]
  congr 1
  have w : ∀ j, w2pR W' j 0 = W' 2 (rot j) 0 := by
    intro j
    unfold w2pR; rw [if_neg (by decide), if_pos (by decide), if_neg (by decide)]; ring
  simp only [w]
  rw [sum_window 16 10 (by norm_num) (fun j => hidKR N' d' C' W' b' r j * W' 2 (rot j) 0) ?_,
    sum_window 0 10 (by norm_num)
      (fun j => hidR N' d' C' W' b' ⟨r.val + 32768, by omega⟩ j * W' 2 j 0) ?_]
  · apply Finset.sum_congr rfl
    intro k _
    show hidKR N' d' C' W' b' r ⟨k.val + 16, by omega⟩ * W' 2 (rot ⟨k.val + 16, by omega⟩) 0
      = hidR N' d' C' W' b' ⟨r.val + 32768, by omega⟩ ⟨k.val, by omega⟩ * W' 2 ⟨k.val, by omega⟩ 0
    rw [hidKR_hi N' d' C' h, rot_shift, hidR_fake N' d' C' h]
  · intro j hj
    show hidR N' d' C' W' b' ⟨r.val + 32768, by omega⟩ j * W' 2 j 0 = 0
    rw [h.w2 j (by omega), mul_zero]
  · intro j hj
    show hidKR N' d' C' W' b' r j * W' 2 (rot j) 0 = 0
    have hr : 10 ≤ (rot j).val := by
      rcases hj with hj | hj
      · rw [rot_val_of_lt j hj]; omega
      · rw [rot_val_of_ge j (by omega)]; omega
    rw [h.w2 _ hr, mul_zero]

theorem logitKR_fake2 (h : Padded W' b') (r : Fin 32768) :
    logitKR N' d' C' W' b' r 2 = logitR N' d' C' W' b' ⟨r.val + 32768, by omega⟩ 1 := by
  rw [logitR_lane1 N' d' C' h, ← logitKR_fake0 N' d' C' h]
  unfold logitKR
  have c : cs3R b' 2 = cs3R b' 0 := by unfold cs3R; rw [if_pos (by decide), if_pos (by decide)]
  rw [c]
  congr 1
  apply Finset.sum_congr rfl
  intro j _
  have w : w2pR W' j 2 = w2pR W' j 0 := by
    unfold w2pR
    rw [if_neg (by decide), if_neg (by decide), if_pos (by decide), if_neg (by decide), if_pos (by decide),
      if_neg (by decide)]
    ring
  rw [w]

end

end Cert.Spec

end
-- ==== Proof.RowLogits.lean ====
/-
  Row by row the kernel's three logits are the reference's.

  For real (finite) arguments and zero-padded packed layers — the generator's matrix and bias zero beyond column 0, the
  hidden layer's matrix and bias zero beyond its 10 hidden units, the output layer's column 0 zero beyond row 9 and
  duplicated into column 1 (matrix and bias) — batch row `r` of the kernel carries in lane 1 the logit of the real row
  `r`, and in lanes 0 and 2 the logit of the generated row `r` (the reference's lanes 0 and 1 of stacked row 32768 + r).

  The padding contract `Padded` and the identities over the reals are in the imported module; here both sides are
  moved to the reals (every definition at coerced arguments is the coercion of its real twin) and the real identity is
  coerced back.
-/
import proofs.«101381_g2000106107921261_pallasbulk_998_17_alg».proof.Proof.RowLogitsMath

noncomputable section

namespace Cert.Spec

open Idealize.ShloMosaic

section
variable (N' : Fin 32768 → Fin 64 → ℝ) (d' : Fin 32768 → ℝ) (C' : Fin 32768 → Fin 64 → ℝ)
  (W' : Fin 3 → Fin 128 → Fin 128 → ℝ) (b' : Fin 8 → Fin 128 → ℝ)

local notation "Nc" => (fun r k => ((N' r k : ℝ) : EReal))
local notation "dc" => (fun r => ((d' r : ℝ) : EReal))
local notation "Cc" => (fun r k => ((C' r k : ℝ) : EReal))
local notation "Wc" => (fun a k l => ((W' a k l : ℝ) : EReal))
local notation "bc" => (fun a l => ((b' a l : ℝ) : EReal))

theorem logitK_real (h : Padded W' b') (r : Fin 32768) :
    logitK Nc dc Cc Wc bc r 1 = logit Nc dc Cc Wc bc ⟨r.val, by omega⟩ 1 := by
  rw [logitK_coe, logit_coe, logitKR_real N' d' C' h r]

theorem logitK_fake0 (h : Padded W' b') (r : Fin 32768) :
    logitK Nc dc Cc Wc bc r 0 = logit Nc dc Cc Wc bc ⟨r.val + 32768, by omega⟩ 0 := by
  rw [logitK_coe, logit_coe, logitKR_fake0 N' d' C' h r]

theorem logitK_fake2 (h : Padded W' b') (r : Fin 32768) :
    logitK Nc dc Cc Wc bc r 2 = logit Nc dc Cc Wc bc ⟨r.val + 32768, by omega⟩ 1 := by
  rw [logitK_coe, logit_coe, logitKR_fake2 N' d' C' h r]

end

end Cert.Spec

end
-- ==== Proof.PreDecode.lean ====
/-
  The precondition read back. It says: every entry of the five arguments is finite (|x| < +∞), and the packed layers
  are zero-padded — the generator's matrix and bias beyond column 0, the hidden layer's matrix and bias beyond its ten
  units, the output layer's column 0 beyond row 9 — with the output layer's column 0 (matrix and bias) duplicated into
  column 1. Read at an index, each `all` gives the fact for every entry; finite entries are real numbers.
-/
import proofs.«101381_g2000106107921261_pallasbulk_998_17_alg».proof.Pre_finite_inputs
import proofs.«101381_g2000106107921261_pallasbulk_998_17_alg».proof.Proof.LibRealSums
import proofs.«101381_g2000106107921261_pallasbulk_998_17_alg».proof.Proof.RowLogits
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

instance : Subsingleton S_.Idx := ⟨fun a b => funext fun d => d.elim0⟩

theorem and1 : ∀ (a b : BitVec 1), IntOp.andi a b = 1#1 ↔ a = 1#1 ∧ b = 1#1 := by decide

theorem ofBool_eq_one (b : Bool) : BitVec.ofBool b = 1#1 ↔ b = true := by cases b <;> decide

/-- An ordered "less than" that came out true. -/
theorem lt_of_cmp {x y : EReal} (h : Ideal.cmp .olt x y = 1#1) : x < y := by
  unfold Ideal.cmp at h
  exact of_decide_eq_true ((ofBool_eq_one _).1 h)

/-- An ordered "equal" that came out true. -/
theorem eq_of_cmp {x y : EReal} (h : Ideal.cmp .oeq x y = 1#1) : x = y := by
  unfold Ideal.cmp at h
  exact of_decide_eq_true ((ofBool_eq_one _).1 h)

variable [Cert.Pre_finite_inputs.Facts]

/-- `all(|x| < +∞)` read at an entry: the entry is a real number. -/
theorem real_of_all {S : Shape} (x : FVec Ideal S .f32) (hb : S_.BroadcastsInDim S (![] : Fin 0 → Fin S.rank))
    {axes : List (Fin S.rank)} (hr : S.ReducesTo axes S_) (hu : 0 < S_.numel)
    (e : Host.reduce IntOp.andi (cmpf .olt (Host.absf x) (broadcastInDim S ![] hb (constant S_ .f32 0x7F800000#32)))
      (constantI S_ 1 1#1) hr hu ix0 = 1#1) (i : S.Idx) : Cert.Math.IsReal (x i) := by
  have h1 := Host.reduce_andi_all _ _ hr hu ix0 e i
  refine Cert.Math.isReal_of_abs_lt_top ?_
  rw [← Cert.Math.ofBits_inf]
  exact lt_of_cmp h1

/-- `all(x == 0)` read at an entry: the entry is zero. -/
theorem zero_of_all {S : Shape} (x : FVec Ideal S .f32) (hb : S_.BroadcastsInDim S (![] : Fin 0 → Fin S.rank))
    {axes : List (Fin S.rank)} (hr : S.ReducesTo axes S_) (hu : 0 < S_.numel)
    (e : Host.reduce IntOp.andi (cmpf .oeq x (broadcastInDim S ![] hb (constant S_ .f32 0x00000000#32)))
      (constantI S_ 1 1#1) hr hu ix0 = 1#1) (i : S.Idx) : x i = 0 := by
  have h1 := Host.reduce_andi_all _ _ hr hu ix0 e i
  have h2 : x i = Ideal.ofBits .f32 0x00000000#32 := eq_of_cmp h1
  rw [h2, Ideal.ofBits_zero_f32]

/-- `all(x == y)` read at an entry. -/
theorem eq_of_all {S : Shape} (x y : FVec Ideal S .f32) {axes : List (Fin S.rank)} (hr : S.ReducesTo axes S_)
    (hu : 0 < S_.numel)
    (e : Host.reduce IntOp.andi (cmpf .oeq x y) (constantI S_ 1 1#1) hr hu ix0 = 1#1) (i : S.Idx) : x i = y i :=
  eq_of_cmp (Host.reduce_andi_all _ _ hr hu ix0 e i)

/-- The precondition, entry by entry: real entries, and the padding contract on the packed layers. -/
theorem decode (a0 : FVec Ideal S32768x64 .f32) (a1 : FVec Ideal S32768x1 .f32) (a2 : FVec Ideal S32768x64 .f32)
    (a3 : FVec Ideal S3x128x128 .f32) (a4 : FVec Ideal S8x128 .f32)
    (h : Cert.Pre_finite_inputs.fn (F := Ideal) a0 a1 a2 a3 a4 = fun _ => 1#1) :
    ∃ (N' : Fin 32768 → Fin 64 → ℝ) (d' : Fin 32768 → ℝ) (C' : Fin 32768 → Fin 64 → ℝ)
      (W' : Fin 3 → Fin 128 → Fin 128 → ℝ) (b' : Fin 8 → Fin 128 → ℝ),
      (∀ r k, a0 (ix2 r k) = ((N' r k : ℝ) : EReal)) ∧ (∀ r, a1 (ix2 r 0) = ((d' r : ℝ) : EReal))
      ∧ (∀ r k, a2 (ix2 r k) = ((C' r k : ℝ) : EReal)) ∧ (∀ p k l, a3 (ix3 p k l) = ((W' p k l : ℝ) : EReal))
      ∧ (∀ p l, a4 (ix2 p l) = ((b' p l : ℝ) : EReal)) ∧ Cert.Spec.Padded W' b' := by
  have e := congrFun h ix0
  simp only [fn, fn_part1, fn_part2, fn_part3, andi, and1] at e
  obtain ⟨⟨⟨⟨⟨⟨⟨⟨⟨⟨⟨e0, e1⟩, e2⟩, e3⟩, e4⟩, e5⟩, e6⟩, e7⟩, e8⟩, e9⟩, e10⟩, e11⟩ := e
  choose N' hN using fun (r : Fin 32768) (k : Fin 64) => real_of_all a0 _ _ _ e0 (ix2 r k)
  choose d' hd using fun (r : Fin 32768) => real_of_all a1 _ _ _ e1 (ix2 r 0)
  choose C' hC using fun (r : Fin 32768) (k : Fin 64) => real_of_all a2 _ _ _ e2 (ix2 r k)
  choose W' hW using fun (p : Fin 3) (k l : Fin 128) => real_of_all a3 _ _ _ e3 (ix3 p k l)
  choose b' hb using fun (p : Fin 8) (l : Fin 128) => real_of_all a4 _ _ _ e4 (ix2 p l)
  refine ⟨N', d', C', W', b', hN, hd, hC, hW, hb, ?_⟩
  have z3 : ∀ p k l, a3 (ix3 p k l) = 0 → W' p k l = 0 := fun p k l hz => by
    have := (hW p k l).symm.trans hz
    exact_mod_cast this
  have z4 : ∀ p l, a4 (ix2 p l) = 0 → b' p l = 0 := fun p l hz => by
    have := (hb p l).symm.trans hz
    exact_mod_cast this
  refine ⟨fun k l hl => z3 0 k l ?_, fun l hl => z4 0 l ?_, fun k l hl => z3 1 k l ?_, fun l hl => z4 1 l ?_,
    fun j hj => z3 2 j 0 ?_, fun j => ?_, ?_⟩
  · have hz := zero_of_all _ _ _ _ e5 (ix3 (0 : Fin 1) k (⟨l.val - 1, by omega⟩ : Fin 127))
    rw [extractStridedSlice_apply _ a3 _ _ (ix3 0 k l) (fun a => by
      match a with
      | ⟨0, _⟩ => rfl
      | ⟨1, _⟩ => exact (Nat.zero_add _).symm
      | ⟨2, _⟩ => show l.val = 1 + (l.val - 1); omega)] at hz
    exact hz
  · have hz := zero_of_all _ _ _ _ e6 (ix2 (0 : Fin 1) (⟨l.val - 1, by omega⟩ : Fin 127))
    rw [extractStridedSlice_apply _ a4 _ _ (ix2 0 l) (fun a => by
      match a with
      | ⟨0, _⟩ => rfl
      | ⟨1, _⟩ => show l.val = 1 + (l.val - 1); omega)] at hz
    exact hz
  · have hz := zero_of_all _ _ _ _ e7 (ix3 (0 : Fin 1) k (⟨l.val - 10, by omega⟩ : Fin 118))
    rw [extractStridedSlice_apply _ a3 _ _ (ix3 1 k l) (fun a => by
      match a with
      | ⟨0, _⟩ => rfl
      | ⟨1, _⟩ => exact (Nat.zero_add _).symm
      | ⟨2, _⟩ => show l.val = 10 + (l.val - 10); omega)] at hz
    exact hz
  · have hz := zero_of_all _ _ _ _ e8 (ix2 (0 : Fin 1) (⟨l.val - 10, by omega⟩ : Fin 118))
    rw [extractStridedSlice_apply _ a4 _ _ (ix2 1 l) (fun a => by
      match a with
      | ⟨0, _⟩ => rfl
      | ⟨1, _⟩ => show l.val = 10 + (l.val - 10); omega)] at hz
    exact hz
  · have hz := zero_of_all _ _ _ _ e9 (ix3 (0 : Fin 1) (⟨j.val - 10, by omega⟩ : Fin 118) (0 : Fin 1))
    rw [extractStridedSlice_apply _ a3 _ _ (ix3 2 j 0) (fun a => by
      match a with
      | ⟨0, _⟩ => rfl
      | ⟨1, _⟩ => show j.val = 10 + (j.val - 10); omega
      | ⟨2, _⟩ => rfl)] at hz
    exact hz
  · have hz := eq_of_all _ _ _ _ e10 (ix3 (0 : Fin 1) j (0 : Fin 1))
    rw [extractStridedSlice_apply _ a3 _ _ (ix3 2 j 1) (fun a => by
      match a with
      | ⟨0, _⟩ => rfl
      | ⟨1, _⟩ => exact (Nat.zero_add _).symm
      | ⟨2, _⟩ => rfl),
      extractStridedSlice_apply _ a3 _ _ (ix3 2 j 0) (fun a => by
      match a with
      | ⟨0, _⟩ => rfl
      | ⟨1, _⟩ => exact (Nat.zero_add _).symm
      | ⟨2, _⟩ => rfl), hW, hW] at hz
    exact_mod_cast hz
  · have hz := eq_of_all _ _ _ _ e11 (ix2 (0 : Fin 1) (0 : Fin 1))
    rw [extractStridedSlice_apply _ a4 _ _ (ix2 2 1) (fun a => by
      match a with
      | ⟨0, _⟩ => rfl
      | ⟨1, _⟩ => rfl),
      extractStridedSlice_apply _ a4 _ _ (ix2 2 0) (fun a => by
      match a with
      | ⟨0, _⟩ => rfl
      | ⟨1, _⟩ => rfl), hb, hb] at hz
    exact_mod_cast hz

end Cert.PreDecode

end
-- ==== Proof.Sums.lean ====
/-
  From rows to results. The reference sums its per-row terms over 65536 stacked rows; the kernel sums over 8 tiles of
  4096 batch rows and adds the two halves. Sums in the extended reals commute and associate, so once the rows' logits
  agree the column sums agree: lane 0 of the reference is the kernel's lane 0, lane 1 of the reference is the kernel's
  lanes 1 and 2 together.
-/
import proofs.«101381_g2000106107921261_pallasbulk_998_17_alg».proof.Proof.RowLogits

noncomputable section

namespace Cert.Spec

open Idealize.ShloMosaic

/-- A sum over `n + n` positions is the sum over the first `n` plus the sum over the last `n`. -/
theorem sum_two {M : Type*} [AddCommMonoid M] (n : ℕ) (f : Fin (n + n) → M) :
    ∑ R, f R = (∑ r : Fin n, f ⟨r.val, by omega⟩) + ∑ r : Fin n, f ⟨r.val + n, by omega⟩ := by
  rw [Fin.sum_univ_add]
  congr 1
  refine Finset.sum_congr rfl fun r _ => ?_
  congr 1
  apply Fin.ext
  show n + r.val = r.val + n
  omega

/-- A sum over the 65536 stacked rows is the sum over the first half plus the sum over the second half. -/
theorem sum_halves {M : Type*} [AddCommMonoid M] (f : Fin 65536 → M) :
    ∑ R, f R = (∑ r : Fin 32768, f ⟨r.val, by omega⟩) + ∑ r : Fin 32768, f ⟨r.val + 32768, by omega⟩ := by
  have h : 32768 + 32768 = 65536 := by norm_num
  refine ((finCongr h).sum_comp f).symm.trans ?_
  exact sum_two 32768 fun R => f (finCongr h R)

/-- A sum over the 32768 batch rows is the sum over 8 tiles of 4096 rows. -/
theorem sum_tiles {M : Type*} [AddCommMonoid M] (g : Fin 32768 → M) :
    ∑ r, g r = ∑ t : Fin 8, ∑ r' : Fin 4096, g ⟨4096 * t.val + r'.val, by omega⟩ := by
  have h := (finProdFinEquiv (m := 8) (n := 4096)).sum_comp (g : Fin (8 * 4096) → M)
  refine h.symm.trans ?_
  rw [Fintype.sum_prod_type]
  refine Finset.sum_congr rfl fun t _ => Finset.sum_congr rfl fun r' _ => ?_
  congr 1
  apply Fin.ext
  show r'.val + 4096 * t.val = 4096 * t.val + r'.val
  omega

section
variable (N : Fin 32768 → Fin 64 → EReal) (d : Fin 32768 → EReal) (C : Fin 32768 → Fin 64 → EReal)
  (W : Fin 3 → Fin 128 → Fin 128 → EReal) (b : Fin 8 → Fin 128 → EReal)

/-- The kernel's accumulated lane is the sum of its per-row terms over the whole batch. -/
theorem acc_eq_sum (l : Fin 128) : acc N d C W b l = ∑ r : Fin 32768, termK N d C W b r l := by
  have e : acc N d C W b l = ∑ t : Fin 8, part N d C W b t l := by
    rw [Fin.sum_univ_eight]
    unfold acc outRow
    simp only [add_assoc]
    rfl
  rw [e, sum_tiles]
  rfl

/-- Lane 0 of the reference takes nothing from a real row. -/
theorem term0_real (r : Fin 32768) : term N d C W b ⟨r.val, by omega⟩ 0 = 0 := by
  unfold term
  rw [if_pos (show (0 : Fin 128).val = 0 from rfl), if_neg (show ¬ 32768 ≤ r.val by omega)]

/-- Lane 0 of the reference takes log σ of a generated row's logit. -/
theorem term0_fake (r : Fin 32768) :
    term N d C W b ⟨r.val + 32768, by omega⟩ 0 = logSig (logit N d C W b ⟨r.val + 32768, by omega⟩ 0) := by
  unfold term
  rw [if_pos (show (0 : Fin 128).val = 0 from rfl), if_pos (show 32768 ≤ r.val + 32768 by omega)]

/-- Lane 1 of the reference takes log σ of a real row's logit. -/
theorem term1_real (r : Fin 32768) :
    term N d C W b ⟨r.val, by omega⟩ 1 = logSig (logit N d C W b ⟨r.val, by omega⟩ 1) := by
  unfold term
  rw [if_neg (show ¬ (1 : Fin 128).val = 0 by decide), if_pos (show (1 : Fin 128).val = 1 from rfl),
    if_neg (show ¬ 32768 ≤ r.val by omega)]

/-- Lane 1 of the reference takes log σ(o) − o of a generated row's logit. -/
theorem term1_fake (r : Fin 32768) :
    term N d C W b ⟨r.val + 32768, by omega⟩ 1
      = logSig (logit N d C W b ⟨r.val + 32768, by omega⟩ 1) - logit N d C W b ⟨r.val + 32768, by omega⟩ 1 := by
  unfold term
  rw [if_neg (show ¬ (1 : Fin 128).val = 0 by decide), if_pos (show (1 : Fin 128).val = 1 from rfl),
    if_pos (show 32768 ≤ r.val + 32768 by omega)]

end

section
variable (N' : Fin 32768 → Fin 64 → ℝ) (d' : Fin 32768 → ℝ) (C' : Fin 32768 → Fin 64 → ℝ)
  (W' : Fin 3 → Fin 128 → Fin 128 → ℝ) (b' : Fin 8 → Fin 128 → ℝ)

local notation "Nc" => (fun r k => ((N' r k : ℝ) : EReal))
local notation "dc" => (fun r => ((d' r : ℝ) : EReal))
local notation "Cc" => (fun r k => ((C' r k : ℝ) : EReal))
local notation "Wc" => (fun a k l => ((W' a k l : ℝ) : EReal))
local notation "bc" => (fun a l => ((b' a l : ℝ) : EReal))

/-- The generator loss: the kernel's lane 0 over the batch is the reference's lane 0 over the generated rows. -/
theorem kGen_eq (h : Padded W' b') : kGen Nc dc Cc Wc bc = refOut Nc dc Cc Wc bc 0 := by
  have key : (∑ R : Fin 65536, term Nc dc Cc Wc bc R 0) = acc Nc dc Cc Wc bc 0 := by
    rw [acc_eq_sum, sum_halves, Finset.sum_eq_zero (fun r _ => term0_real Nc dc Cc Wc bc r), zero_add]
    refine Finset.sum_congr rfl fun r _ => ?_
    rw [term0_fake, ← logitK_fake0 N' d' C' W' b' h r]
    unfold termK
    rw [if_neg (show ¬ (0 : Fin 128).val = 2 by decide)]
  unfold kGen refOut
  rw [zero_sub, key]

/-- The discriminator loss: the kernel's lanes 1 and 2 over the batch are the reference's lane 1 over the real and the
    generated rows. -/
theorem kDisc_eq (h : Padded W' b') : kDisc Nc dc Cc Wc bc = refOut Nc dc Cc Wc bc 1 := by
  have k1 : (∑ r : Fin 32768, term Nc dc Cc Wc bc ⟨r.val, by omega⟩ 1) = acc Nc dc Cc Wc bc 1 := by
    rw [acc_eq_sum]
    refine Finset.sum_congr rfl fun r _ => ?_
    rw [term1_real, ← logitK_real N' d' C' W' b' h r]
    unfold termK
    rw [if_neg (show ¬ (1 : Fin 128).val = 2 by decide)]
  have k2 : (∑ r : Fin 32768, term Nc dc Cc Wc bc ⟨r.val + 32768, by omega⟩ 1) = acc Nc dc Cc Wc bc 2 := by
    rw [acc_eq_sum]
    refine Finset.sum_congr rfl fun r _ => ?_
    rw [term1_fake, ← logitK_fake2 N' d' C' W' b' h r]
    unfold termK
    rw [if_pos (show (2 : Fin 128).val = 2 from rfl)]
  unfold kDisc refOut
  rw [zero_sub, sum_halves, k1, k2]

end

end Cert.Spec

end
-- ==== Proof.Bridge.lean ====
/-
  Under the precondition the two programs' results agree: the entries are real numbers and the packed layers carry the
  padding the kernel's fused weights rely on, so the kernel's two results (as mathematics) are the reference's.
-/
import proofs.«101381_g2000106107921261_pallasbulk_998_17_alg».proof.Proof.PreDecode
import proofs.«101381_g2000106107921261_pallasbulk_998_17_alg».proof.Proof.Sums
import proofs.«101381_g2000106107921261_pallasbulk_998_17_alg».proof.Proof.RefArgs

noncomputable section

namespace Cert.Bridge

open Idealize.ShloMosaic Idealize.ShloMosaic.ValueIdx Cert.Pre_finite_inputs Cert.ReferenceIdeal.Hand Cert.Spec

variable [Cert.Pre_finite_inputs.Facts]

/-- The generator loss and the discriminator loss of the kernel are the reference's, for arguments satisfying the
    precondition. -/
theorem results_eq (a0 : FVec Ideal S32768x64 .f32) (a1 : FVec Ideal S32768x1 .f32) (a2 : FVec Ideal S32768x64 .f32)
    (a3 : FVec Ideal S3x128x128 .f32) (a4 : FVec Ideal S8x128 .f32)
    (h : Cert.Pre_finite_inputs.fn (F := Ideal) a0 a1 a2 a3 a4 = fun _ => 1#1) :
    kGen (argMat a0) (argCol a1) (argMat a2) (argCube a3) (argMat a4)
        = refOut (argMat a0) (argCol a1) (argMat a2) (argCube a3) (argMat a4) 0
    ∧ kDisc (argMat a0) (argCol a1) (argMat a2) (argCube a3) (argMat a4)
        = refOut (argMat a0) (argCol a1) (argMat a2) (argCube a3) (argMat a4) 1 := by
  obtain ⟨N', d', C', W', b', hN, hd, hC, hW, hb, hP⟩ := Cert.PreDecode.decode a0 a1 a2 a3 a4 h
  have e0 : argMat a0 = fun r k => ((N' r k : ℝ) : EReal) := funext fun r => funext fun k => hN r k
  have e1 : argCol a1 = fun r => ((d' r : ℝ) : EReal) := funext fun r => hd r
  have e2 : argMat a2 = fun r k => ((C' r k : ℝ) : EReal) := funext fun r => funext fun k => hC r k
  have e3 : argCube a3 = fun p k l => ((W' p k l : ℝ) : EReal) :=
    funext fun p => funext fun k => funext fun l => hW p k l
  have e4 : argMat a4 = fun p l => ((b' p l : ℝ) : EReal) := funext fun p => funext fun l => hb p l
  rw [e0, e1, e2, e3, e4]
  exact ⟨kGen_eq N' d' C' W' b' hP, kDisc_eq N' d' C' W' b' hP⟩

end Cert.Bridge

end
-- ==== Proof.lean ====
/-
  The certificate's claim. The three frames: the kernel's, at the word level and at the extended reals, from its body
  run point by point against the generated launch; the reference's from its generated frame. Nothing was rewritten
  by the idealization, so it preserves trivially. The results: at the extended reals the kernel's two scalars are the
  generator and discriminator losses as the fused stages compute them, the reference's the same losses computed on the
  stacked batch; for real arguments whose packed layers are zero-padded (the precondition) the two agree.
-/
import proofs.«101381_g2000106107921261_pallasbulk_998_17_alg».proof.Defs
import proofs.«101381_g2000106107921261_pallasbulk_998_17_alg».proof.Proof.Gen.Kernel
import proofs.«101381_g2000106107921261_pallasbulk_998_17_alg».proof.Proof.Gen.KernelIdeal
import proofs.«101381_g2000106107921261_pallasbulk_998_17_alg».proof.Proof.Gen.ReferenceIdeal
import proofs.«101381_g2000106107921261_pallasbulk_998_17_alg».proof.Proof.Gen.Pre_finite_inputs
import proofs.«101381_g2000106107921261_pallasbulk_998_17_alg».proof.Proof.K.Frame
import proofs.«101381_g2000106107921261_pallasbulk_998_17_alg».proof.Proof.KI.RunSpec
import proofs.«101381_g2000106107921261_pallasbulk_998_17_alg».proof.Proof.KI.OutSpec
import proofs.«101381_g2000106107921261_pallasbulk_998_17_alg».proof.Proof.RefRun
import proofs.«101381_g2000106107921261_pallasbulk_998_17_alg».proof.Proof.Bridge
import Idealize.ShloMosaic.Adequacy
import Idealize.ShloMosaic.Init

noncomputable section

namespace Cert.Proof

open Idealize.ShloMosaic Idealize.SL.Sem Cert.ReferenceIdeal.Hand

/-- The two programs' results agree at the extended reals, for arguments satisfying the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.Hand.run_spec m ρ (fun c => Cert.KernelIdeal.Hand.outArr_spec m c), ?_⟩
  refine (θ_run (Cert.ReferenceIdeal.defs (F := Ideal)) _ _).mono (fun r h c => ?_) (Cert.ReferenceIdeal.Hand.run m' ρ')
  obtain ⟨h7, h9, hk⟩ := h c
  obtain ⟨a0, a1, a2, a3, a4⟩ := hagree c
  have hb := Cert.Bridge.results_eq _ _ _ _ _ (hpre c)
  refine ⟨h7.trans ?_, h9.trans ?_, hk⟩
  · unfold Cert.ReferenceIdeal.Hand.outRow
    rw [a0, a1, a2, a3, a4]
    exact funext fun _ => hb.1.symm
  · unfold Cert.ReferenceIdeal.Hand.outRow
    rw [a0, a1, a2, a3, a4]
    exact funext fun _ => hb.2.symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.ReferenceIdeal.Gen.frame m ρ,
    trivial,
    algebraic⟩

end Cert.Proof

end
